-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v189)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v189) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S20000x512 : Shape := ⟨2, ![20000, 512]⟩
abbrev S1600000 : Shape := ⟨1, ![1600000]⟩
abbrev S640000 : Shape := ⟨1, ![640000]⟩
abbrev S50000x64 : Shape := ⟨2, ![50000, 64]⟩
abbrev S20000x64 : Shape := ⟨2, ![20000, 64]⟩
abbrev S512x64 : Shape := ⟨2, ![512, 64]⟩
abbrev S64x128 : Shape := ⟨2, ![64, 128]⟩
abbrev S128 : Shape := ⟨1, ![128]⟩
abbrev S64x1 : Shape := ⟨2, ![64, 1]⟩
abbrev S1 : Shape := ⟨1, ![1]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x1 : Shape := ⟨2, ![128, 1]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S640000 : S_.BroadcastsInDim S640000 (![] : Fin 0 → Fin S640000.rank)
  reducesTo_S640000_S_d0 : S640000.ReducesTo [0] S_
  bcast_S_S16384 : S_.BroadcastsInDim S16384 (![] : Fin 0 → Fin S16384.rank)
  reducesTo_S16384_S_d0 : S16384.ReducesTo [0] S_
  bcast_S_S50000x64 : S_.BroadcastsInDim S50000x64 (![] : Fin 0 → Fin S50000x64.rank)
  reducesTo_S50000x64_S_d0_1 : S50000x64.ReducesTo [0, 1] S_
  bcast_S_S20000x64 : S_.BroadcastsInDim S20000x64 (![] : Fin 0 → Fin S20000x64.rank)
  reducesTo_S20000x64_S_d0_1 : S20000x64.ReducesTo [0, 1] S_
  bcast_S_S512x64 : S_.BroadcastsInDim S512x64 (![] : Fin 0 → Fin S512x64.rank)
  reducesTo_S512x64_S_d0_1 : S512x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part6 {F : FTy → Type} [FloatOps F] (main_arg29 : FVec F S128x1 .f32) (main_arg30 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x1 .f32 := Host.absf main_arg29
  let main_cst_40 : FVec F S_ .f32 := constant S_ .f32 0x7F800000#32
  let main_v105 : FVec F S128x1 .f32 := broadcastInDim S128x1 ![] bcast_S_S128x1 main_cst_40
  let main_v106 : IVec S128x1 1 := cmpf .olt main_v104 main_v105
  let main_c_41 : IVec S_ 1 := constantI S_ 1 1#1
  let main_v107 : IVec S_ 1 := (fun x v => Host.reduce IntOp.andi x v reducesTo_S128x1_S_d0_1 h_S_) main_v106 main_c_41
  let main_v108 : IVec S_ 1 := andi main_v103 main_v107
  let main_v109 : FVec F S1 .f32 := Host.absf main_arg30
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg26 : FVec F S256 .f32) (main_arg27 : FVec F S256x128 .f32) (main_arg28 : FVec F S128 .f32) (main_arg29 : FVec F S128x1 .f32) (main_arg30 : FVec F S1 .f32) (main_v83 : IVec S_ 1) (main_v84 : FVec F S512x256 .f32) (main_cst_32 : FVec F S_ .f32) : IVec S_ 1 :=
  let main_v85 : FVec F S512x256 .f32 := broadcastInDim S512x256 ![] bcast_S_S512x256 main_cst_32
  let main_v86 : IVec S512x256 1 := cmpf .olt main_v84 main_v85
  let main_c_33 : IVec S_ 1 := constantI S_ 1 1#1
  let main_v87 : IVec S_ 1 := (fun x v => Host.reduce IntOp.andi x v reducesTo_S512x256_S_d0_1 h_S_) main_v86 main_c_33
  let main_v88 : IVec S_ 1 := andi main_v83 main_v87
  let main_v89 : FVec F S256 .f32 := Host.absf main_arg26
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x128 .f32 := Host.absf main_arg27
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg28
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg29 main_arg30 main_v98 main_v101 main_c_39

def fn_part4 {F : FTy → Type} [FloatOps F] (main_arg22 : FVec F S1 .f32) (main_arg23 : FVec F S512x512 .f32) (main_arg24 : FVec F S512 .f32) (main_arg25 : FVec F S512x256 .f32) (main_arg26 : FVec F S256 .f32) (main_arg27 : FVec F S256x128 .f32) (main_arg28 : FVec F S128 .f32) (main_arg29 : FVec F S128x1 .f32) (main_arg30 : FVec F S1 .f32) (main_v63 : IVec S_ 1) (main_v67 : IVec S_ 1) : IVec S_ 1 :=
  let main_v68 : IVec S_ 1 := andi main_v63 main_v67
  let main_v69 : FVec F S1 .f32 := Host.absf main_arg22
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S512x512 .f32 := Host.absf main_arg23
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg24
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x256 .f32 := Host.absf main_arg25
  let main_cst_32 : FVec F S_ .f32 := constant S_ .f32 0x7F800000#32
  fn_part5 (F := F) main_arg26 main_arg27 main_arg28 main_arg29 main_arg30 main_v83 main_v84 main_cst_32

def fn_part3 {F : FTy → Type} [FloatOps F] (main_arg19 : FVec F S64x128 .f32) (main_arg20 : FVec F S128 .f32) (main_arg21 : FVec F S64x1 .f32) (main_arg22 : FVec F S1 .f32) (main_arg23 : FVec F S512x512 .f32) (main_arg24 : FVec F S512 .f32) (main_arg25 : FVec F S512x256 .f32) (main_arg26 : FVec F S256 .f32) (main_arg27 : FVec F S256x128 .f32) (main_arg28 : FVec F S128 .f32) (main_arg29 : FVec F S128x1 .f32) (main_arg30 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg19
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg20
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S64x1 .f32 := Host.absf main_arg21
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg22 main_arg23 main_arg24 main_arg25 main_arg26 main_arg27 main_arg28 main_arg29 main_arg30 main_v63 main_v67

def fn_part2 {F : FTy → Type} [FloatOps F] (main_arg15 : FVec F S64x128 .f32) (main_arg16 : FVec F S128 .f32) (main_arg17 : FVec F S64x128 .f32) (main_arg18 : FVec F S128 .f32) (main_arg19 : FVec F S64x128 .f32) (main_arg20 : FVec F S128 .f32) (main_arg21 : FVec F S64x1 .f32) (main_arg22 : FVec F S1 .f32) (main_arg23 : FVec F S512x512 .f32) (main_arg24 : FVec F S512 .f32) (main_arg25 : FVec F S512x256 .f32) (main_arg26 : FVec F S256 .f32) (main_arg27 : FVec F S256x128 .f32) (main_arg28 : FVec F S128 .f32) (main_arg29 : FVec F S128x1 .f32) (main_arg30 : FVec F S1 .f32) (main_v33 : IVec S_ 1) : IVec S_ 1 :=
  let main_v34 : FVec F S64x128 .f32 := Host.absf main_arg15
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg16
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg17
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg18
  let main_cst_18 : FVec F S_ .f32 := constant S_ .f32 0x7F800000#32
  let main_v50 : FVec F S128 .f32 := broadcastInDim S128 ![] bcast_S_S128 main_cst_18
  fn_part3 (F := F) main_arg19 main_arg20 main_arg21 main_arg22 main_arg23 main_arg24 main_arg25 main_arg26 main_arg27 main_arg28 main_arg29 main_arg30 main_v48 main_v49 main_v50

def fn_part1 {F : FTy → Type} [FloatOps F] (main_arg12 : FVec F S50000x64 .f32) (main_arg13 : FVec F S20000x64 .f32) (main_arg14 : FVec F S512x64 .f32) (main_arg15 : FVec F S64x128 .f32) (main_arg16 : FVec F S128 .f32) (main_arg17 : FVec F S64x128 .f32) (main_arg18 : FVec F S128 .f32) (main_arg19 : FVec F S64x128 .f32) (main_arg20 : FVec F S128 .f32) (main_arg21 : FVec F S64x1 .f32) (main_arg22 : FVec F S1 .f32) (main_arg23 : FVec F S512x512 .f32) (main_arg24 : FVec F S512 .f32) (main_arg25 : FVec F S512x256 .f32) (main_arg26 : FVec F S256 .f32) (main_arg27 : FVec F S256x128 .f32) (main_arg28 : FVec F S128 .f32) (main_arg29 : FVec F S128x1 .f32) (main_arg30 : FVec F S1 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S50000x64 .f32 := Host.absf main_arg12
  let main_cst_6 : FVec F S_ .f32 := constant S_ .f32 0x7F800000#32
  let main_v20 : FVec F S50000x64 .f32 := broadcastInDim S50000x64 ![] bcast_S_S50000x64 main_cst_6
  let main_v21 : IVec S50000x64 1 := cmpf .olt main_v19 main_v20
  let main_c_7 : IVec S_ 1 := constantI S_ 1 1#1
  let main_v22 : IVec S_ 1 := (fun x v => Host.reduce IntOp.andi x v reducesTo_S50000x64_S_d0_1 h_S_) main_v21 main_c_7
  let main_v23 : IVec S_ 1 := andi main_v18 main_v22
  let main_v24 : FVec F S20000x64 .f32 := Host.absf main_arg13
  let main_cst_8 : FVec F S_ .f32 := constant S_ .f32 0x7F800000#32
  let main_v25 : FVec F S20000x64 .f32 := broadcastInDim S20000x64 ![] bcast_S_S20000x64 main_cst_8
  let main_v26 : IVec S20000x64 1 := cmpf .olt main_v24 main_v25
  let main_c_9 : IVec S_ 1 := constantI S_ 1 1#1
  let main_v27 : IVec S_ 1 := (fun x v => Host.reduce IntOp.andi x v reducesTo_S20000x64_S_d0_1 h_S_) main_v26 main_c_9
  let main_v28 : IVec S_ 1 := andi main_v23 main_v27
  let main_v29 : FVec F S512x64 .f32 := Host.absf main_arg14
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : IVec S16384 32) (main_arg1 : IVec S16384 32) (main_arg2 : FVec F S20000x512 .f32) (main_arg3 : IVec S1600000 32) (main_arg4 : IVec S1600000 32) (main_arg5 : FVec F S1600000 .f32) (main_arg6 : IVec S640000 32) (main_arg7 : IVec S640000 32) (main_arg8 : FVec F S640000 .f32) (main_arg9 : IVec S16384 32) (main_arg10 : IVec S16384 32) (main_arg11 : FVec F S16384 .f32) (main_arg12 : FVec F S50000x64 .f32) (main_arg13 : FVec F S20000x64 .f32) (main_arg14 : FVec F S512x64 .f32) (main_arg15 : FVec F S64x128 .f32) (main_arg16 : FVec F S128 .f32) (main_arg17 : FVec F S64x128 .f32) (main_arg18 : FVec F S128 .f32) (main_arg19 : FVec F S64x128 .f32) (main_arg20 : FVec F S128 .f32) (main_arg21 : FVec F S64x1 .f32) (main_arg22 : FVec F S1 .f32) (main_arg23 : FVec F S512x512 .f32) (main_arg24 : FVec F S512 .f32) (main_arg25 : FVec F S512x256 .f32) (main_arg26 : FVec F S256 .f32) (main_arg27 : FVec F S256x128 .f32) (main_arg28 : FVec F S128 .f32) (main_arg29 : FVec F S128x1 .f32) (main_arg30 : FVec F S1 .f32) : IVec S_ 1 :=
  let main_v0 : FVec F S20000x512 .f32 := Host.absf main_arg2
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S1600000 .f32 := Host.absf main_arg5
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S640000 .f32 := Host.absf main_arg8
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_v14 : FVec F S16384 .f32 := Host.absf main_arg11
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S16384 : Shape := ⟨1, ![16384]⟩
abbrev S20000x512 : Shape := ⟨2, ![20000, 512]⟩
abbrev S1600000 : Shape := ⟨1, ![1600000]⟩
abbrev S640000 : Shape := ⟨1, ![640000]⟩
abbrev S50000x64 : Shape := ⟨2, ![50000, 64]⟩
abbrev S20000x64 : Shape := ⟨2, ![20000, 64]⟩
abbrev S512x64 : Shape := ⟨2, ![512, 64]⟩
abbrev S64x128 : Shape := ⟨2, ![64, 128]⟩
abbrev S128 : Shape := ⟨1, ![128]⟩
abbrev S64x1 : Shape := ⟨2, ![64, 1]⟩
abbrev S1 : Shape := ⟨1, ![1]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x1 : Shape := ⟨2, ![128, 1]⟩
abbrev S1600000x1 : Shape := ⟨2, ![1600000, 1]⟩
abbrev S_ : Shape := ⟨0, ![]⟩
abbrev S1600000x64 : Shape := ⟨2, ![1600000, 64]⟩
abbrev S640000x1 : Shape := ⟨2, ![640000, 1]⟩
abbrev S640000x64 : Shape := ⟨2, ![640000, 64]⟩
abbrev S16384x1 : Shape := ⟨2, ![16384, 1]⟩
abbrev S16384x64 : Shape := ⟨2, ![16384, 64]⟩
abbrev S16384x512 : Shape := ⟨2, ![16384, 512]⟩
abbrev S1x128 : Shape := ⟨2, ![1, 128]⟩
abbrev S1x1 : Shape := ⟨2, ![1, 1]⟩
abbrev S1x512 : Shape := ⟨2, ![1, 512]⟩
abbrev S1x256 : Shape := ⟨2, ![1, 256]⟩
abbrev S1024x64 : Shape := ⟨2, ![1024, 64]⟩
abbrev S1024x512 : Shape := ⟨2, ![1024, 512]⟩
abbrev S1024x1 : Shape := ⟨2, ![1024, 1]⟩
abbrev S1024x128 : Shape := ⟨2, ![1024, 128]⟩
abbrev S512x128 : Shape := ⟨2, ![512, 128]⟩
abbrev S128x512 : Shape := ⟨2, ![128, 512]⟩
abbrev S1024x256 : Shape := ⟨2, ![1024, 256]⟩

abbrev nBuf : Space → Nat
  | .hbm => 266
  | .vmem => 25
  | .smem => 0
  | _ => 0

abbrev hbmTy0_0 (i : Nat) : BufTy := match i % 128 with
  | 0 => ⟨S16384, .i32⟩
  | 1 => ⟨S16384, .i32⟩
  | 2 => ⟨S20000x512, .f32⟩
  | 3 => ⟨S1600000, .i32⟩
  | 4 => ⟨S1600000, .i32⟩
  | 5 => ⟨S1600000, .f32⟩
  | 6 => ⟨S640000, .i32⟩
  | 7 => ⟨S640000, .i32⟩
  | 8 => ⟨S640000, .f32⟩
  | 9 => ⟨S16384, .i32⟩
  | 10 => ⟨S16384, .i32⟩
  | 11 => ⟨S16384, .f32⟩
  | 12 => ⟨S50000x64, .f32⟩
  | 13 => ⟨S20000x64, .f32⟩
  | 14 => ⟨S512x64, .f32⟩
  | 15 => ⟨S64x128, .f32⟩
  | 16 => ⟨S128, .f32⟩
  | 17 => ⟨S64x128, .f32⟩
  | 18 => ⟨S128, .f32⟩
  | 19 => ⟨S64x128, .f32⟩
  | 20 => ⟨S128, .f32⟩
  | 21 => ⟨S64x1, .f32⟩
  | 22 => ⟨S1, .f32⟩
  | 23 => ⟨S512x512, .f32⟩
  | 24 => ⟨S512, .f32⟩
  | 25 => ⟨S512x256, .f32⟩
  | 26 => ⟨S256, .f32⟩
  | 27 => ⟨S256x128, .f32⟩
  | 28 => ⟨S128, .f32⟩
  | 29 => ⟨S128x1, .f32⟩
  | 30 => ⟨S1, .f32⟩
  | 31 => ⟨S1600000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1600000x64, .f32⟩
  | 42 => ⟨S1600000x64, .f32⟩
  | 43 => ⟨S_, .f32⟩
  | 44 => ⟨S50000x64, .f32⟩
  | 45 => ⟨S1600000x1, .i32⟩
  | 46 => ⟨S50000x64, .f32⟩
  | 47 => ⟨S_, .f32⟩
  | 48 => ⟨S50000x64, .f32⟩
  | 49 => ⟨S50000x64, .f32⟩
  | 50 => ⟨S50000x64, .f32⟩
  | 51 => ⟨S50000x64, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x64, .f32⟩
  | 63 => ⟨S1600000x64, .f32⟩
  | 64 => ⟨S_, .f32⟩
  | 65 => ⟨S50000x64, .f32⟩
  | 66 => ⟨S1600000x1, .i32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S50000x64, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S1600000x64, .f32⟩
  | 84 => ⟨S1600000x64, .f32⟩
  | 85 => ⟨S_, .f32⟩
  | 86 => ⟨S50000x64, .f32⟩
  | 87 => ⟨S1600000x1, .i32⟩
  | 88 => ⟨S50000x64, .f32⟩
  | 89 => ⟨S_, .f32⟩
  | 90 => ⟨S50000x64, .f32⟩
  | 91 => ⟨S50000x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S640000x1, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x64, .f32⟩
  | 107 => ⟨S640000x64, .f32⟩
  | 108 => ⟨S640000x64, .f32⟩
  | 109 => ⟨S_, .f32⟩
  | 110 => ⟨S20000x64, .f32⟩
  | 111 => ⟨S640000x1, .i32⟩
  | 112 => ⟨S20000x64, .f32⟩
  | 113 => ⟨S_, .f32⟩
  | 114 => ⟨S20000x64, .f32⟩
  | 115 => ⟨S20000x64, .f32⟩
  | 116 => ⟨S20000x64, .f32⟩
  | 117 => ⟨S20000x64, .f32⟩
  | 118 => ⟨S640000x1, .f32⟩
  | 119 => ⟨S_, .i32⟩
  | 120 => ⟨S640000, .i32⟩
  | 121 => ⟨S640000, .i1⟩
  | 122 => ⟨S_, .i32⟩
  | 123 => ⟨S640000, .i32⟩
  | 124 => ⟨S640000, .i32⟩
  | 125 => ⟨S640000, .i32⟩
  | 126 => ⟨S640000x1, .i32⟩
  | 127 => ⟨S640000x64, .f32⟩
  | _ => ⟨S16384, .i32⟩

abbrev hbmTy0_1 (i : Nat) : BufTy := match i % 128 with
  | 0 => ⟨S640000x64, .f32⟩
  | 1 => ⟨S640000x64, .f32⟩
  | 2 => ⟨S_, .f32⟩
  | 3 => ⟨S20000x64, .f32⟩
  | 4 => ⟨S640000x1, .i32⟩
  | 5 => ⟨S20000x64, .f32⟩
  | 6 => ⟨S_, .f32⟩
  | 7 => ⟨S20000x64, .f32⟩
  | 8 => ⟨S20000x64, .f32⟩
  | 9 => ⟨S20000x64, .f32⟩
  | 10 => ⟨S20000x64, .f32⟩
  | 11 => ⟨S640000x1, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x64, .f32⟩
  | 21 => ⟨S640000x64, .f32⟩
  | 22 => ⟨S640000x64, .f32⟩
  | 23 => ⟨S_, .f32⟩
  | 24 => ⟨S20000x64, .f32⟩
  | 25 => ⟨S640000x1, .i32⟩
  | 26 => ⟨S20000x64, .f32⟩
  | 27 => ⟨S_, .f32⟩
  | 28 => ⟨S20000x64, .f32⟩
  | 29 => ⟨S20000x64, .f32⟩
  | 30 => ⟨S20000x64, .f32⟩
  | 31 => ⟨S20000x64, .f32⟩
  | 32 => ⟨S_, .f32⟩
  | 33 => ⟨S20000x64, .f32⟩
  | 34 => ⟨S20000x64, .f32⟩
  | 35 => ⟨S16384x1, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x64, .f32⟩
  | 45 => ⟨S16384x64, .f32⟩
  | 46 => ⟨S16384x64, .f32⟩
  | 47 => ⟨S_, .f32⟩
  | 48 => ⟨S512x64, .f32⟩
  | 49 => ⟨S16384x1, .i32⟩
  | 50 => ⟨S512x64, .f32⟩
  | 51 => ⟨S_, .f32⟩
  | 52 => ⟨S512x64, .f32⟩
  | 53 => ⟨S512x64, .f32⟩
  | 54 => ⟨S512x64, .f32⟩
  | 55 => ⟨S512x64, .f32⟩
  | 56 => ⟨S16384x1, .f32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16384x64, .f32⟩
  | 66 => ⟨S16384x64, .f32⟩
  | 67 => ⟨S16384x64, .f32⟩
  | 68 => ⟨S_, .f32⟩
  | 69 => ⟨S512x64, .f32⟩
  | 70 => ⟨S16384x1, .i32⟩
  | 71 => ⟨S512x64, .f32⟩
  | 72 => ⟨S_, .f32⟩
  | 73 => ⟨S512x64, .f32⟩
  | 74 => ⟨S512x64, .f32⟩
  | 75 => ⟨S512x64, .f32⟩
  | 76 => ⟨S512x64, .f32⟩
  | 77 => ⟨S16384x1, .f32⟩
  | 78 => ⟨S_, .i32⟩
  | 79 => ⟨S16384, .i32⟩
  | 80 => ⟨S16384, .i1⟩
  | 81 => ⟨S_, .i32⟩
  | 82 => ⟨S16384, .i32⟩
  | 83 => ⟨S16384, .i32⟩
  | 84 => ⟨S16384, .i32⟩
  | 85 => ⟨S16384x1, .i32⟩
  | 86 => ⟨S16384x64, .f32⟩
  | 87 => ⟨S16384x64, .f32⟩
  | 88 => ⟨S16384x64, .f32⟩
  | 89 => ⟨S_, .f32⟩
  | 90 => ⟨S512x64, .f32⟩
  | 91 => ⟨S16384x1, .i32⟩
  | 92 => ⟨S512x64, .f32⟩
  | 93 => ⟨S_, .f32⟩
  | 94 => ⟨S512x64, .f32⟩
  | 95 => ⟨S512x64, .f32⟩
  | 96 => ⟨S512x64, .f32⟩
  | 97 => ⟨S512x64, .f32⟩
  | 98 => ⟨S_, .f32⟩
  | 99 => ⟨S512x64, .f32⟩
  | 100 => ⟨S512x64, .f32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S16384x64, .f32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S16384x1, .i32⟩
  | 118 => ⟨S16384x64, .f32⟩
  | 119 => ⟨S_, .i32⟩
  | 120 => ⟨S16384, .i32⟩
  | 121 => ⟨S16384, .i1⟩
  | 122 => ⟨S_, .i32⟩
  | 123 => ⟨S16384, .i32⟩
  | 124 => ⟨S16384, .i32⟩
  | 125 => ⟨S16384, .i32⟩
  | 126 => ⟨S16384x1, .i32⟩
  | 127 => ⟨S16384x512, .f32⟩
  | _ => ⟨S16384, .i32⟩

abbrev hbmTy0_2 (i : Nat) : BufTy := match i % 128 with
  | 0 => ⟨S1x128, .f32⟩
  | 1 => ⟨S1x128, .f32⟩
  | 2 => ⟨S1x128, .f32⟩
  | 3 => ⟨S1x1, .f32⟩
  | 4 => ⟨S1x512, .f32⟩
  | 5 => ⟨S1x256, .f32⟩
  | 6 => ⟨S1x128, .f32⟩
  | 7 => ⟨S1x1, .f32⟩
  | 8 => ⟨S16384x1, .f32⟩
  | 9 => ⟨S16384, .f32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x512, .f32⟩
  | .local _ .vmem, ⟨5, _⟩ => ⟨S1024x512, .f32⟩
  | .local _ .vmem, ⟨6, _⟩ => ⟨S512x64, .f32⟩
  | .local _ .vmem, ⟨7, _⟩ => ⟨S64x128, .f32⟩
  | .local _ .vmem, ⟨8, _⟩ => ⟨S1x128, .f32⟩
  | .local _ .vmem, ⟨9, _⟩ => ⟨S64x128, .f32⟩
  | .local _ .vmem, ⟨10, _⟩ => ⟨S1x128, .f32⟩
  | .local _ .vmem, ⟨11, _⟩ => ⟨S64x128, .f32⟩
  | .local _ .vmem, ⟨12, _⟩ => ⟨S1x128, .f32⟩
  | .local _ .vmem, ⟨13, _⟩ => ⟨S64x1, .f32⟩
  | .local _ .vmem, ⟨14, _⟩ => ⟨S1x1, .f32⟩
  | .local _ .vmem, ⟨15, _⟩ => ⟨S512x512, .f32⟩
  | .local _ .vmem, ⟨16, _⟩ => ⟨S1x512, .f32⟩
  | .local _ .vmem, ⟨17, _⟩ => ⟨S512x256, .f32⟩
  | .local _ .vmem, ⟨18, _⟩ => ⟨S1x256, .f32⟩
  | .local _ .vmem, ⟨19, _⟩ => ⟨S256x128, .f32⟩
  | .local _ .vmem, ⟨20, _⟩ => ⟨S1x128, .f32⟩
  | .local _ .vmem, ⟨21, _⟩ => ⟨S128x1, .f32⟩
  | .local _ .vmem, ⟨22, _⟩ => ⟨S1x1, .f32⟩
  | .local _ .vmem, ⟨23, _⟩ => ⟨S1024x1, .f32⟩
  | .local _ .vmem, ⟨24, _⟩ => ⟨S1024x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_c : Ref sig .tc := ⟨.hbm, 32, rfl⟩
abbrev main_v1 : Ref sig .tc := ⟨.hbm, 33, rfl⟩
abbrev main_v2 : Ref sig .tc := ⟨.hbm, 34, rfl⟩
abbrev main_c_0 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_1 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_c_2 : Ref sig .tc := ⟨.hbm, 53, rfl⟩
abbrev main_v18 : Ref sig .tc := ⟨.hbm, 54, rfl⟩
abbrev main_v19 : Ref sig .tc := ⟨.hbm, 55, rfl⟩
abbrev main_c_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_5 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_6 : Ref sig .tc := ⟨.hbm, 74, rfl⟩
abbrev main_v35 : Ref sig .tc := ⟨.hbm, 75, rfl⟩
abbrev main_v36 : Ref sig .tc := ⟨.hbm, 76, rfl⟩
abbrev main_c_7 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_8 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_9 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_10 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_11 : Ref sig .tc := ⟨.hbm, 98, rfl⟩
abbrev main_v54 : Ref sig .tc := ⟨.hbm, 99, rfl⟩
abbrev main_v55 : Ref sig .tc := ⟨.hbm, 100, rfl⟩
abbrev main_c_12 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_13 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_14 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_15 : Ref sig .tc := ⟨.hbm, 119, rfl⟩
abbrev main_v71 : Ref sig .tc := ⟨.hbm, 120, rfl⟩
abbrev main_v72 : Ref sig .tc := ⟨.hbm, 121, rfl⟩
abbrev main_c_16 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_17 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_18 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_c_19 : Ref sig .tc := ⟨.hbm, 140, rfl⟩
abbrev main_v88 : Ref sig .tc := ⟨.hbm, 141, rfl⟩
abbrev main_v89 : Ref sig .tc := ⟨.hbm, 142, rfl⟩
abbrev main_c_20 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_21 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_22 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_23 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_24 : Ref sig .tc := ⟨.hbm, 164, rfl⟩
abbrev main_v107 : Ref sig .tc := ⟨.hbm, 165, rfl⟩
abbrev main_v108 : Ref sig .tc := ⟨.hbm, 166, rfl⟩
abbrev main_c_25 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_26 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_27 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_c_28 : Ref sig .tc := ⟨.hbm, 185, rfl⟩
abbrev main_v124 : Ref sig .tc := ⟨.hbm, 186, rfl⟩
abbrev main_v125 : Ref sig .tc := ⟨.hbm, 187, rfl⟩
abbrev main_c_29 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_cst_30 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_cst_31 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_c_32 : Ref sig .tc := ⟨.hbm, 206, rfl⟩
abbrev main_v141 : Ref sig .tc := ⟨.hbm, 207, rfl⟩
abbrev main_v142 : Ref sig .tc := ⟨.hbm, 208, rfl⟩
abbrev main_c_33 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_cst_34 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_cst_35 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_36 : Ref sig .tc := ⟨.hbm, 226, rfl⟩
abbrev main_v157 : Ref sig .tc := ⟨.hbm, 227, rfl⟩
abbrev main_v158 : Ref sig .tc := ⟨.hbm, 228, rfl⟩
abbrev main_c_37 : Ref sig .tc := ⟨.hbm, 229, rfl⟩
abbrev main_v159 : Ref sig .tc := ⟨.hbm, 230, rfl⟩
abbrev main_v160 : Ref sig .tc := ⟨.hbm, 231, rfl⟩
abbrev main_c_38 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_c_39 : Ref sig .tc := ⟨.hbm, 238, rfl⟩
abbrev main_v166 : Ref sig .tc := ⟨.hbm, 239, rfl⟩
abbrev main_v167 : Ref sig .tc := ⟨.hbm, 240, rfl⟩
abbrev main_c_40 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_c_41 : Ref sig .tc := ⟨.hbm, 247, rfl⟩
abbrev main_v173 : Ref sig .tc := ⟨.hbm, 248, rfl⟩
abbrev main_v174 : Ref sig .tc := ⟨.hbm, 249, rfl⟩
abbrev main_c_42 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg20_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x64_0_1 : S640000x1.BroadcastsInDim S640000x64 (![0, 1] : Fin 2 → Fin S640000x64.rank)
  bcast_S_S20000x64 : S_.BroadcastsInDim S20000x64 (![] : Fin 0 → Fin S20000x64.rank)
  bcast_S16384_S16384x1_0 : S16384.BroadcastsInDim S16384x1 (![0] : Fin 1 → Fin S16384x1.rank)
  bcast_S_S16384 : S_.BroadcastsInDim S16384 (![] : Fin 0 → Fin S16384.rank)
  bcast_S16384x1_S16384x64_0_1 : S16384x1.BroadcastsInDim S16384x64 (![0, 1] : Fin 2 → Fin S16384x64.rank)
  bcast_S_S512x64 : S_.BroadcastsInDim S512x64 (![] : Fin 0 → Fin S512x64.rank)
  shapeCasts_S128_S1x128 : S128.ShapeCasts S1x128
  shapeCasts_S1_S1x1 : S1.ShapeCasts S1x1
  shapeCasts_S512_S1x512 : S512.ShapeCasts S1x512
  shapeCasts_S256_S1x256 : S256.ShapeCasts S1x256
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  broadcasts_S1x128_S512x128 : S1x128.Broadcasts S512x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  transposes_S512x128_p1_0_S128x512 : S512x128.Transposes [1, 0] S128x512
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x1_S1024x1_0_0 : ∀ a, (![0, 0] : Fin 2 → Nat) a + S1024x1.size a ≤ S1024x1.size a
  h_S1024x1 : 0 < S1024x1.numel
  shapeCasts_S16384x1_S16384 : S16384x1.ShapeCasts S16384
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  gather_S20000x64_S640000x1_S640000x64_1_0_n_n_0_1_164_wf : GatherDims.WF S20000x64 S640000x1 S640000x64 [1] [0] [] [0] [] 1 ![1, 64]
  scatter_S20000x64_S640000x1_S640000x64_1_0_0_1_wf : ScatterDims.WF S20000x64 S640000x1 S640000x64 [1] [0] [0] 1
  gather_S512x64_S16384x1_S16384x64_1_0_n_n_0_1_164_wf : GatherDims.WF S512x64 S16384x1 S16384x64 [1] [0] [] [0] [] 1 ![1, 64]
  scatter_S512x64_S16384x1_S16384x64_1_0_0_1_wf : ScatterDims.WF S512x64 S16384x1 S16384x64 [1] [0] [0] 1
  gather_S50000x64_S16384x1_S16384x64_1_0_n_n_0_1_164_wf : GatherDims.WF S50000x64 S16384x1 S16384x64 [1] [0] [] [0] [] 1 ![1, 64]
  gather_S20000x64_S16384x1_S16384x64_1_0_n_n_0_1_164_wf : GatherDims.WF S20000x64 S16384x1 S16384x64 [1] [0] [] [0] [] 1 ![1, 64]
  gather_S20000x512_S16384x1_S16384x512_1_0_n_n_0_1_1512_wf : GatherDims.WF S20000x512 S16384x1 S16384x512 [1] [0] [] [0] [] 1 ![1, 512]
  dot_S1024x64_S64x128_S1024x128_1_0_0_1_n_n_wf : DotDims.WF S1024x64 S64x128 S1024x128 [1] [0] [0] [1] [] []
  dot_S512x64_S64x128_S512x128_1_0_0_1_n_n_wf : DotDims.WF S512x64 S64x128 S512x128 [1] [0] [0] [1] [] []
  dot_S1024x64_S64x1_S1024x1_1_0_0_1_n_n_wf : DotDims.WF S1024x64 S64x1 S1024x1 [1] [0] [0] [1] [] []
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S64x1.size a
  hwx0_10 : ∀ i : grid0.Coords, EltTy.bits .f32 = 32 ∨ (Rect.block (s := S64x1) S64x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .f32 = 32 ∨ (Rect.block (s := S512x512) S512x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S512x256.size a
  hwx0_14 : ∀ i : grid0.Coords, EltTy.bits .f32 = 32 ∨ (Rect.block (s := S512x256) S512x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x128.size a ≤ S256x128.size a
  hwx0_16 : ∀ i : grid0.Coords, EltTy.bits .f32 = 32 ∨ (Rect.block (s := S256x128) S256x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x1.size a ≤ S128x1.size a
  hwx0_18 : ∀ i : grid0.Coords, EltTy.bits .f32 = 32 ∨ (Rect.block (s := S128x1) S128x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x1.size a ≤ S16384x1.size a
  hwx0_20 : ∀ i : grid0.Coords, EltTy.bits .f32 = 32 ∨ (Rect.block (s := S16384x1) S1024x1.size (cc0_transform_20 i) (hinb0_20 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def gather_S512x64_S16384x1_S16384x64_1_0_n_n_0_1_164 : GatherDims S512x64 S16384x1 S16384x64 where
  offsetDims := [1]
  collapsedSliceDims := [0]
  operandBatchingDims := []
  startIndicesBatchingDims := []
  startIndexMap := [0]
  indexVectorDim := 1
  sliceSizes := ![1, 64]
  wf := gather_S512x64_S16384x1_S16384x64_1_0_n_n_0_1_164_wf
def scatter_S512x64_S16384x1_S16384x64_1_0_0_1 : ScatterDims S512x64 S16384x1 S16384x64 where
  updateWindowDims := [1]
  insertedWindowDims := [0]
  scatterDimsToOperandDims := [0]
  indexVectorDim := 1
  wf := scatter_S512x64_S16384x1_S16384x64_1_0_0_1_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf
def gather_S20000x64_S16384x1_S16384x64_1_0_n_n_0_1_164 : GatherDims S20000x64 S16384x1 S16384x64 where
  offsetDims := [1]
  collapsedSliceDims := [0]
  operandBatchingDims := []
  startIndicesBatchingDims := []
  startIndexMap := [0]
  indexVectorDim := 1
  sliceSizes := ![1, 64]
  wf := gather_S20000x64_S16384x1_S16384x64_1_0_n_n_0_1_164_wf
def gather_S20000x512_S16384x1_S16384x512_1_0_n_n_0_1_1512 : GatherDims S20000x512 S16384x1 S16384x512 where
  offsetDims := [1]
  collapsedSliceDims := [0]
  operandBatchingDims := []
  startIndicesBatchingDims := []
  startIndexMap := [0]
  indexVectorDim := 1
  sliceSizes := ![1, 512]
  wf := gather_S20000x512_S16384x1_S16384x512_1_0_n_n_0_1_1512_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_v165) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v172) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v179) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v158) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg15) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v180) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg17) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v181) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg19) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v182) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg21) S64x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v183) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg23) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v184) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg25) S512x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v185) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg27) S256x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v186) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg29) S128x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v187) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v188) S1024x1.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S16384 : Shape := ⟨1, ![16384]⟩
abbrev S20000x512 : Shape := ⟨2, ![20000, 512]⟩
abbrev S1600000 : Shape := ⟨1, ![1600000]⟩
abbrev S640000 : Shape := ⟨1, ![640000]⟩
abbrev S50000x64 : Shape := ⟨2, ![50000, 64]⟩
abbrev S20000x64 : Shape := ⟨2, ![20000, 64]⟩
abbrev S512x64 : Shape := ⟨2, ![512, 64]⟩
abbrev S64x128 : Shape := ⟨2, ![64, 128]⟩
abbrev S128 : Shape := ⟨1, ![128]⟩
abbrev S64x1 : Shape := ⟨2, ![64, 1]⟩
abbrev S1 : Shape := ⟨1, ![1]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x1 : Shape := ⟨2, ![128, 1]⟩
abbrev S1600000x1 : Shape := ⟨2, ![1600000, 1]⟩
abbrev S_ : Shape := ⟨0, ![]⟩
abbrev S1600000x64 : Shape := ⟨2, ![1600000, 64]⟩
abbrev S640000x1 : Shape := ⟨2, ![640000, 1]⟩
abbrev S640000x64 : Shape := ⟨2, ![640000, 64]⟩
abbrev S16384x1 : Shape := ⟨2, ![16384, 1]⟩
abbrev S16384x64 : Shape := ⟨2, ![16384, 64]⟩
abbrev S16384x128 : Shape := ⟨2, ![16384, 128]⟩
abbrev S1x128 : Shape := ⟨2, ![1, 128]⟩
abbrev S512x128 : Shape := ⟨2, ![512, 128]⟩
abbrev S1x1 : Shape := ⟨2, ![1, 1]⟩
abbrev S128x512 : Shape := ⟨2, ![128, 512]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩

abbrev nBuf : Space → Nat
  | .hbm => 338
  | .vmem => 0
  | .smem => 0
  | _ => 0

abbrev hbmTy0_0 (i : Nat) : BufTy := match i % 128 with
  | 0 => ⟨S16384, .i32⟩
  | 1 => ⟨S16384, .i32⟩
  | 2 => ⟨S20000x512, .f32⟩
  | 3 => ⟨S1600000, .i32⟩
  | 4 => ⟨S1600000, .i32⟩
  | 5 => ⟨S1600000, .f32⟩
  | 6 => ⟨S640000, .i32⟩
  | 7 => ⟨S640000, .i32⟩
  | 8 => ⟨S640000, .f32⟩
  | 9 => ⟨S16384, .i32⟩
  | 10 => ⟨S16384, .i32⟩
  | 11 => ⟨S16384, .f32⟩
  | 12 => ⟨S50000x64, .f32⟩
  | 13 => ⟨S20000x64, .f32⟩
  | 14 => ⟨S512x64, .f32⟩
  | 15 => ⟨S64x128, .f32⟩
  | 16 => ⟨S128, .f32⟩
  | 17 => ⟨S64x128, .f32⟩
  | 18 => ⟨S128, .f32⟩
  | 19 => ⟨S64x128, .f32⟩
  | 20 => ⟨S128, .f32⟩
  | 21 => ⟨S64x1, .f32⟩
  | 22 => ⟨S1, .f32⟩
  | 23 => ⟨S512x512, .f32⟩
  | 24 => ⟨S512, .f32⟩
  | 25 => ⟨S512x256, .f32⟩
  | 26 => ⟨S256, .f32⟩
  | 27 => ⟨S256x128, .f32⟩
  | 28 => ⟨S128, .f32⟩
  | 29 => ⟨S128x1, .f32⟩
  | 30 => ⟨S1, .f32⟩
  | 31 => ⟨S1600000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1600000x64, .f32⟩
  | 42 => ⟨S1600000x64, .f32⟩
  | 43 => ⟨S_, .f32⟩
  | 44 => ⟨S50000x64, .f32⟩
  | 45 => ⟨S1600000x1, .i32⟩
  | 46 => ⟨S50000x64, .f32⟩
  | 47 => ⟨S_, .f32⟩
  | 48 => ⟨S50000x64, .f32⟩
  | 49 => ⟨S50000x64, .f32⟩
  | 50 => ⟨S50000x64, .f32⟩
  | 51 => ⟨S50000x64, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x64, .f32⟩
  | 63 => ⟨S1600000x64, .f32⟩
  | 64 => ⟨S_, .f32⟩
  | 65 => ⟨S50000x64, .f32⟩
  | 66 => ⟨S1600000x1, .i32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S50000x64, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S1600000x64, .f32⟩
  | 84 => ⟨S1600000x64, .f32⟩
  | 85 => ⟨S_, .f32⟩
  | 86 => ⟨S50000x64, .f32⟩
  | 87 => ⟨S1600000x1, .i32⟩
  | 88 => ⟨S50000x64, .f32⟩
  | 89 => ⟨S_, .f32⟩
  | 90 => ⟨S50000x64, .f32⟩
  | 91 => ⟨S50000x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S640000x1, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x64, .f32⟩
  | 107 => ⟨S640000x64, .f32⟩
  | 108 => ⟨S640000x64, .f32⟩
  | 109 => ⟨S_, .f32⟩
  | 110 => ⟨S20000x64, .f32⟩
  | 111 => ⟨S640000x1, .i32⟩
  | 112 => ⟨S20000x64, .f32⟩
  | 113 => ⟨S_, .f32⟩
  | 114 => ⟨S20000x64, .f32⟩
  | 115 => ⟨S20000x64, .f32⟩
  | 116 => ⟨S20000x64, .f32⟩
  | 117 => ⟨S20000x64, .f32⟩
  | 118 => ⟨S640000x1, .f32⟩
  | 119 => ⟨S_, .i32⟩
  | 120 => ⟨S640000, .i32⟩
  | 121 => ⟨S640000, .i1⟩
  | 122 => ⟨S_, .i32⟩
  | 123 => ⟨S640000, .i32⟩
  | 124 => ⟨S640000, .i32⟩
  | 125 => ⟨S640000, .i32⟩
  | 126 => ⟨S640000x1, .i32⟩
  | 127 => ⟨S640000x64, .f32⟩
  | _ => ⟨S16384, .i32⟩

abbrev hbmTy0_1 (i : Nat) : BufTy := match i % 128 with
  | 0 => ⟨S640000x64, .f32⟩
  | 1 => ⟨S640000x64, .f32⟩
  | 2 => ⟨S_, .f32⟩
  | 3 => ⟨S20000x64, .f32⟩
  | 4 => ⟨S640000x1, .i32⟩
  | 5 => ⟨S20000x64, .f32⟩
  | 6 => ⟨S_, .f32⟩
  | 7 => ⟨S20000x64, .f32⟩
  | 8 => ⟨S20000x64, .f32⟩
  | 9 => ⟨S20000x64, .f32⟩
  | 10 => ⟨S20000x64, .f32⟩
  | 11 => ⟨S640000x1, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x64, .f32⟩
  | 21 => ⟨S640000x64, .f32⟩
  | 22 => ⟨S640000x64, .f32⟩
  | 23 => ⟨S_, .f32⟩
  | 24 => ⟨S20000x64, .f32⟩
  | 25 => ⟨S640000x1, .i32⟩
  | 26 => ⟨S20000x64, .f32⟩
  | 27 => ⟨S_, .f32⟩
  | 28 => ⟨S20000x64, .f32⟩
  | 29 => ⟨S20000x64, .f32⟩
  | 30 => ⟨S20000x64, .f32⟩
  | 31 => ⟨S20000x64, .f32⟩
  | 32 => ⟨S_, .f32⟩
  | 33 => ⟨S20000x64, .f32⟩
  | 34 => ⟨S20000x64, .f32⟩
  | 35 => ⟨S16384x1, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x64, .f32⟩
  | 45 => ⟨S16384x64, .f32⟩
  | 46 => ⟨S16384x64, .f32⟩
  | 47 => ⟨S_, .f32⟩
  | 48 => ⟨S512x64, .f32⟩
  | 49 => ⟨S16384x1, .i32⟩
  | 50 => ⟨S512x64, .f32⟩
  | 51 => ⟨S_, .f32⟩
  | 52 => ⟨S512x64, .f32⟩
  | 53 => ⟨S512x64, .f32⟩
  | 54 => ⟨S512x64, .f32⟩
  | 55 => ⟨S512x64, .f32⟩
  | 56 => ⟨S16384x1, .f32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16384x64, .f32⟩
  | 66 => ⟨S16384x64, .f32⟩
  | 67 => ⟨S16384x64, .f32⟩
  | 68 => ⟨S_, .f32⟩
  | 69 => ⟨S512x64, .f32⟩
  | 70 => ⟨S16384x1, .i32⟩
  | 71 => ⟨S512x64, .f32⟩
  | 72 => ⟨S_, .f32⟩
  | 73 => ⟨S512x64, .f32⟩
  | 74 => ⟨S512x64, .f32⟩
  | 75 => ⟨S512x64, .f32⟩
  | 76 => ⟨S512x64, .f32⟩
  | 77 => ⟨S16384x1, .f32⟩
  | 78 => ⟨S_, .i32⟩
  | 79 => ⟨S16384, .i32⟩
  | 80 => ⟨S16384, .i1⟩
  | 81 => ⟨S_, .i32⟩
  | 82 => ⟨S16384, .i32⟩
  | 83 => ⟨S16384, .i32⟩
  | 84 => ⟨S16384, .i32⟩
  | 85 => ⟨S16384x1, .i32⟩
  | 86 => ⟨S16384x64, .f32⟩
  | 87 => ⟨S16384x64, .f32⟩
  | 88 => ⟨S16384x64, .f32⟩
  | 89 => ⟨S_, .f32⟩
  | 90 => ⟨S512x64, .f32⟩
  | 91 => ⟨S16384x1, .i32⟩
  | 92 => ⟨S512x64, .f32⟩
  | 93 => ⟨S_, .f32⟩
  | 94 => ⟨S512x64, .f32⟩
  | 95 => ⟨S512x64, .f32⟩
  | 96 => ⟨S512x64, .f32⟩
  | 97 => ⟨S512x64, .f32⟩
  | 98 => ⟨S_, .f32⟩
  | 99 => ⟨S512x64, .f32⟩
  | 100 => ⟨S512x64, .f32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S16384x64, .f32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S16384x1, .i32⟩
  | 118 => ⟨S16384x64, .f32⟩
  | 119 => ⟨S16384x128, .f32⟩
  | 120 => ⟨S1x128, .f32⟩
  | 121 => ⟨S16384x128, .f32⟩
  | 122 => ⟨S16384x128, .f32⟩
  | 123 => ⟨S_, .f32⟩
  | 124 => ⟨S_, .f32⟩
  | 125 => ⟨S16384x128, .f32⟩
  | 126 => ⟨S16384x128, .i1⟩
  | 127 => ⟨S_, .f32⟩
  | _ => ⟨S16384, .i32⟩

abbrev hbmTy0_2 (i : Nat) : BufTy := match i % 128 with
  | 0 => ⟨S16384x128, .f32⟩
  | 1 => ⟨S16384x128, .f32⟩
  | 2 => ⟨S16384x128, .f32⟩
  | 3 => ⟨S16384x128, .f32⟩
  | 4 => ⟨S1x128, .f32⟩
  | 5 => ⟨S16384x128, .f32⟩
  | 6 => ⟨S16384x128, .f32⟩
  | 7 => ⟨S_, .f32⟩
  | 8 => ⟨S_, .f32⟩
  | 9 => ⟨S16384x128, .f32⟩
  | 10 => ⟨S16384x128, .i1⟩
  | 11 => ⟨S_, .f32⟩
  | 12 => ⟨S16384x128, .f32⟩
  | 13 => ⟨S16384x128, .f32⟩
  | 14 => ⟨S16384x128, .f32⟩
  | 15 => ⟨S512x128, .f32⟩
  | 16 => ⟨S1x128, .f32⟩
  | 17 => ⟨S512x128, .f32⟩
  | 18 => ⟨S512x128, .f32⟩
  | 19 => ⟨S_, .f32⟩
  | 20 => ⟨S_, .f32⟩
  | 21 => ⟨S512x128, .f32⟩
  | 22 => ⟨S512x128, .i1⟩
  | 23 => ⟨S_, .f32⟩
  | 24 => ⟨S512x128, .f32⟩
  | 25 => ⟨S512x128, .f32⟩
  | 26 => ⟨S512x128, .f32⟩
  | 27 => ⟨S16384x1, .f32⟩
  | 28 => ⟨S1x1, .f32⟩
  | 29 => ⟨S16384x1, .f32⟩
  | 30 => ⟨S16384x1, .f32⟩
  | 31 => ⟨S16384x1, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x128, .f32⟩
  | 40 => ⟨S128x512, .f32⟩
  | 41 => ⟨S16384x512, .f32⟩
  | 42 => ⟨S16384x512, .f32⟩
  | 43 => ⟨S16384x512, .f32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S16384x512, .f32⟩
  | 53 => ⟨S16384x512, .f32⟩
  | 54 => ⟨S16384x512, .f32⟩
  | 55 => ⟨S1x512, .f32⟩
  | 56 => ⟨S16384x512, .f32⟩
  | 57 => ⟨S16384x512, .f32⟩
  | 58 => ⟨S16384x512, .f32⟩
  | 59 => ⟨S16384x256, .f32⟩
  | 60 => ⟨S1x256, .f32⟩
  | 61 => ⟨S16384x256, .f32⟩
  | 62 => ⟨S16384x256, .f32⟩
  | 63 => ⟨S16384x256, .f32⟩
  | 64 => ⟨S16384x128, .f32⟩
  | 65 => ⟨S1x128, .f32⟩
  | 66 => ⟨S16384x128, .f32⟩
  | 67 => ⟨S16384x128, .f32⟩
  | 68 => ⟨S16384x128, .f32⟩
  | 69 => ⟨S16384x1, .f32⟩
  | 70 => ⟨S1x1, .f32⟩
  | 71 => ⟨S16384x1, .f32⟩
  | 72 => ⟨S16384x1, .f32⟩
  | 73 => ⟨S16384x1, .f32⟩
  | 74 => ⟨S16384x1, .f32⟩
  | 75 => ⟨S_, .f32⟩
  | 76 => ⟨S16384x1, .f32⟩
  | 77 => ⟨S16384x1, .f32⟩
  | 78 => ⟨S_, .f32⟩
  | 79 => ⟨S16384x1, .f32⟩
  | 80 => ⟨S16384x1, .f32⟩
  | 81 => ⟨S16384, .f32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_c : Ref sig .tc := ⟨.hbm, 32, rfl⟩
abbrev main_v1 : Ref sig .tc := ⟨.hbm, 33, rfl⟩
abbrev main_v2 : Ref sig .tc := ⟨.hbm, 34, rfl⟩
abbrev main_c_0 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_1 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_c_2 : Ref sig .tc := ⟨.hbm, 53, rfl⟩
abbrev main_v18 : Ref sig .tc := ⟨.hbm, 54, rfl⟩
abbrev main_v19 : Ref sig .tc := ⟨.hbm, 55, rfl⟩
abbrev main_c_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_5 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_6 : Ref sig .tc := ⟨.hbm, 74, rfl⟩
abbrev main_v35 : Ref sig .tc := ⟨.hbm, 75, rfl⟩
abbrev main_v36 : Ref sig .tc := ⟨.hbm, 76, rfl⟩
abbrev main_c_7 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_8 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_9 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_10 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_11 : Ref sig .tc := ⟨.hbm, 98, rfl⟩
abbrev main_v54 : Ref sig .tc := ⟨.hbm, 99, rfl⟩
abbrev main_v55 : Ref sig .tc := ⟨.hbm, 100, rfl⟩
abbrev main_c_12 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_13 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_14 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_15 : Ref sig .tc := ⟨.hbm, 119, rfl⟩
abbrev main_v71 : Ref sig .tc := ⟨.hbm, 120, rfl⟩
abbrev main_v72 : Ref sig .tc := ⟨.hbm, 121, rfl⟩
abbrev main_c_16 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_17 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_18 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_c_19 : Ref sig .tc := ⟨.hbm, 140, rfl⟩
abbrev main_v88 : Ref sig .tc := ⟨.hbm, 141, rfl⟩
abbrev main_v89 : Ref sig .tc := ⟨.hbm, 142, rfl⟩
abbrev main_c_20 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_21 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_22 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_23 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_24 : Ref sig .tc := ⟨.hbm, 164, rfl⟩
abbrev main_v107 : Ref sig .tc := ⟨.hbm, 165, rfl⟩
abbrev main_v108 : Ref sig .tc := ⟨.hbm, 166, rfl⟩
abbrev main_c_25 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_26 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_27 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_c_28 : Ref sig .tc := ⟨.hbm, 185, rfl⟩
abbrev main_v124 : Ref sig .tc := ⟨.hbm, 186, rfl⟩
abbrev main_v125 : Ref sig .tc := ⟨.hbm, 187, rfl⟩
abbrev main_c_29 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_cst_30 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_cst_31 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_c_32 : Ref sig .tc := ⟨.hbm, 206, rfl⟩
abbrev main_v141 : Ref sig .tc := ⟨.hbm, 207, rfl⟩
abbrev main_v142 : Ref sig .tc := ⟨.hbm, 208, rfl⟩
abbrev main_c_33 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_cst_34 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_cst_35 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_36 : Ref sig .tc := ⟨.hbm, 226, rfl⟩
abbrev main_v157 : Ref sig .tc := ⟨.hbm, 227, rfl⟩
abbrev main_v158 : Ref sig .tc := ⟨.hbm, 228, rfl⟩
abbrev main_c_37 : Ref sig .tc := ⟨.hbm, 229, rfl⟩
abbrev main_v159 : Ref sig .tc := ⟨.hbm, 230, rfl⟩
abbrev main_v160 : Ref sig .tc := ⟨.hbm, 231, rfl⟩
abbrev main_c_38 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_c_39 : Ref sig .tc := ⟨.hbm, 238, rfl⟩
abbrev main_v166 : Ref sig .tc := ⟨.hbm, 239, rfl⟩
abbrev main_v167 : Ref sig .tc := ⟨.hbm, 240, rfl⟩
abbrev main_c_40 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_cst_41 : Ref sig .tc := ⟨.hbm, 251, rfl⟩
abbrev main_call0_cst : Ref sig .tc := ⟨.hbm, 252, rfl⟩
abbrev main_call0_v0 : Ref sig .tc := ⟨.hbm, 253, rfl⟩
abbrev main_call0_v1 : Ref sig .tc := ⟨.hbm, 254, rfl⟩
abbrev main_call0_v2 : Ref sig .tc := ⟨.hbm, 255, rfl⟩
abbrev main_call0_v3 : Ref sig .tc := ⟨.hbm, 256, rfl⟩
abbrev main_call0_v4 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_cst_42 : Ref sig .tc := ⟨.hbm, 263, rfl⟩
abbrev main_call1_cst : Ref sig .tc := ⟨.hbm, 264, rfl⟩
abbrev main_call1_v0 : Ref sig .tc := ⟨.hbm, 265, rfl⟩
abbrev main_call1_v1 : Ref sig .tc := ⟨.hbm, 266, rfl⟩
abbrev main_call1_v2 : Ref sig .tc := ⟨.hbm, 267, rfl⟩
abbrev main_call1_v3 : Ref sig .tc := ⟨.hbm, 268, rfl⟩
abbrev main_call1_v4 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_cst_43 : Ref sig .tc := ⟨.hbm, 275, rfl⟩
abbrev main_call2_cst : Ref sig .tc := ⟨.hbm, 276, rfl⟩
abbrev main_call2_v0 : Ref sig .tc := ⟨.hbm, 277, rfl⟩
abbrev main_call2_v1 : Ref sig .tc := ⟨.hbm, 278, rfl⟩
abbrev main_call2_v2 : Ref sig .tc := ⟨.hbm, 279, rfl⟩
abbrev main_call2_v3 : Ref sig .tc := ⟨.hbm, 280, rfl⟩
abbrev main_call2_v4 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_cst_44 : Ref sig .tc := ⟨.hbm, 289, rfl⟩
abbrev main_v194 : Ref sig .tc := ⟨.hbm, 290, rfl⟩
abbrev main_v195 : Ref sig .tc := ⟨.hbm, 291, rfl⟩
abbrev main_cst_45 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_c_46 : Ref sig .tc := ⟨.hbm, 300, rfl⟩
abbrev main_v203 : Ref sig .tc := ⟨.hbm, 301, rfl⟩
abbrev main_v204 : Ref sig .tc := ⟨.hbm, 302, rfl⟩
abbrev main_c_47 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_cst_48 : Ref sig .tc := ⟨.hbm, 331, rfl⟩
abbrev main_v232 : Ref sig .tc := ⟨.hbm, 332, rfl⟩
abbrev main_v233 : Ref sig .tc := ⟨.hbm, 333, rfl⟩
abbrev main_cst_49 : Ref sig .tc := ⟨.hbm, 334, rfl⟩
abbrev main_v234 : Ref sig .tc := ⟨.hbm, 335, rfl⟩
abbrev main_v235 : Ref sig .tc := ⟨.hbm, 336, rfl⟩
abbrev main_v236 : Ref sig .tc := ⟨.hbm, 337, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x64_0_1 : S640000x1.BroadcastsInDim S640000x64 (![0, 1] : Fin 2 → Fin S640000x64.rank)
  bcast_S_S20000x64 : S_.BroadcastsInDim S20000x64 (![] : Fin 0 → Fin S20000x64.rank)
  bcast_S16384_S16384x1_0 : S16384.BroadcastsInDim S16384x1 (![0] : Fin 1 → Fin S16384x1.rank)
  bcast_S_S16384 : S_.BroadcastsInDim S16384 (![] : Fin 0 → Fin S16384.rank)
  bcast_S16384x1_S16384x64_0_1 : S16384x1.BroadcastsInDim S16384x64 (![0, 1] : Fin 2 → Fin S16384x64.rank)
  bcast_S_S512x64 : S_.BroadcastsInDim S512x64 (![] : Fin 0 → Fin S512x64.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  transposes_S512x128_S128x512_1_0 : S512x128.Transposes [1, 0] S128x512
  bcast_S16384x1_S16384x512_0_1 : S16384x1.BroadcastsInDim S16384x512 (![0, 1] : Fin 2 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S16384x1_S16384 : S16384x1.ShapeCasts S16384
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  gather_S20000x64_S640000x1_S640000x64_1_0_n_n_0_1_164_wf : GatherDims.WF S20000x64 S640000x1 S640000x64 [1] [0] [] [0] [] 1 ![1, 64]
  scatter_S20000x64_S640000x1_S640000x64_1_0_0_1_wf : ScatterDims.WF S20000x64 S640000x1 S640000x64 [1] [0] [0] 1
  gather_S512x64_S16384x1_S16384x64_1_0_n_n_0_1_164_wf : GatherDims.WF S512x64 S16384x1 S16384x64 [1] [0] [] [0] [] 1 ![1, 64]
  scatter_S512x64_S16384x1_S16384x64_1_0_0_1_wf : ScatterDims.WF S512x64 S16384x1 S16384x64 [1] [0] [0] 1
  gather_S50000x64_S16384x1_S16384x64_1_0_n_n_0_1_164_wf : GatherDims.WF S50000x64 S16384x1 S16384x64 [1] [0] [] [0] [] 1 ![1, 64]
  gather_S20000x64_S16384x1_S16384x64_1_0_n_n_0_1_164_wf : GatherDims.WF S20000x64 S16384x1 S16384x64 [1] [0] [] [0] [] 1 ![1, 64]
  dot_S16384x64_S64x128_S16384x128_1_0_0_1_n_n_wf : DotDims.WF S16384x64 S64x128 S16384x128 [1] [0] [0] [1] [] []
  dot_S512x64_S64x128_S512x128_1_0_0_1_n_n_wf : DotDims.WF S512x64 S64x128 S512x128 [1] [0] [0] [1] [] []
  dot_S16384x64_S64x1_S16384x1_1_0_0_1_n_n_wf : DotDims.WF S16384x64 S64x1 S16384x1 [1] [0] [0] [1] [] []
  dot_S16384x128_S128x512_S16384x512_1_0_0_1_n_n_wf : DotDims.WF S16384x128 S128x512 S16384x512 [1] [0] [0] [1] [] []
  gather_S20000x512_S16384x1_S16384x512_1_0_n_n_0_1_1512_wf : GatherDims.WF S20000x512 S16384x1 S16384x512 [1] [0] [] [0] [] 1 ![1, 512]
  dot_S16384x512_S512x512_S16384x512_1_0_0_1_n_n_wf : DotDims.WF S16384x512 S512x512 S16384x512 [1] [0] [0] [1] [] []
  dot_S16384x512_S512x256_S16384x256_1_0_0_1_n_n_wf : DotDims.WF S16384x512 S512x256 S16384x256 [1] [0] [0] [1] [] []
  dot_S16384x256_S256x128_S16384x128_1_0_0_1_n_n_wf : DotDims.WF S16384x256 S256x128 S16384x128 [1] [0] [0] [1] [] []
  dot_S16384x128_S128x1_S16384x1_1_0_0_1_n_n_wf : DotDims.WF S16384x128 S128x1 S16384x1 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def gather_S512x64_S16384x1_S16384x64_1_0_n_n_0_1_164 : GatherDims S512x64 S16384x1 S16384x64 where
  offsetDims := [1]
  collapsedSliceDims := [0]
  operandBatchingDims := []
  startIndicesBatchingDims := []
  startIndexMap := [0]
  indexVectorDim := 1
  sliceSizes := ![1, 64]
  wf := gather_S512x64_S16384x1_S16384x64_1_0_n_n_0_1_164_wf
def scatter_S512x64_S16384x1_S16384x64_1_0_0_1 : ScatterDims S512x64 S16384x1 S16384x64 where
  updateWindowDims := [1]
  insertedWindowDims := [0]
  scatterDimsToOperandDims := [0]
  indexVectorDim := 1
  wf := scatter_S512x64_S16384x1_S16384x64_1_0_0_1_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf
def gather_S20000x64_S16384x1_S16384x64_1_0_n_n_0_1_164 : GatherDims S20000x64 S16384x1 S16384x64 where
  offsetDims := [1]
  collapsedSliceDims := [0]
  operandBatchingDims := []
  startIndicesBatchingDims := []
  startIndexMap := [0]
  indexVectorDim := 1
  sliceSizes := ![1, 64]
  wf := gather_S20000x64_S16384x1_S16384x64_1_0_n_n_0_1_164_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf
def dot_S16384x128_S128x512_S16384x512_1_0_0_1_n_n : DotDims S16384x128 S128x512 S16384x512 where
  lhsContracting := [1]
  rhsContracting := [0]
  lhsNonContracting := [0]
  rhsNonContracting := [1]
  lhsBatch := []
  rhsBatch := []
  wf := dot_S16384x128_S128x512_S16384x512_1_0_0_1_n_n_wf
def gather_S20000x512_S16384x1_S16384x512_1_0_n_n_0_1_1512 : GatherDims S20000x512 S16384x1 S16384x512 where
  offsetDims := [1]
  collapsedSliceDims := [0]
  operandBatchingDims := []
  startIndicesBatchingDims := []
  startIndexMap := [0]
  indexVectorDim := 1
  sliceSizes := ![1, 512]
  wf := gather_S20000x512_S16384x1_S16384x512_1_0_n_n_0_1_1512_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.Spec.lean ====
/- The model's head, one batch row at a time, on the extended reals.

   A batch row carries a student's 64 propagated features x, an exercise's 64 propagated features y and the
   exercise's 512 knowledge indicators q; shared by all rows are the 512 x 64 propagated knowledge features ck and
   the weights.  With  lin v W b j = (sum over k of v k * W k j) + b j  and the leaky rectifier
   lrelu z = z if z >= 0, else (4/5 as a binary32) * z:

     sf j   = lrelu (lin x Ws bs j)                     (128 student factors)
     ef j   = lrelu (lin y We be j)                     (128 exercise factors)
     kf n j = lrelu (lin (ck n) Wk bk j)                (512 x 128 knowledge factors)
     disc   = logistic (lin y Wd bd 0)                  (the exercise's discrimination)
     state n = (disc * sum over j of (sf j - ef j) * kf n j) * q n
     h1 = tanh (lin state M1w M1b),  h2 = tanh (lin h1 M2w M2b),  h3 = tanh (lin h2 M3w M3b)
     out = logistic (lin h3 M4w M4b 0).

   Sums are finite sums of extended reals in the order Finset.sum gives them; no law of arithmetic is used anywhere:
   the kernel (1024 rows a grid point, products on the matrix unit into a zero accumulator, operands passed through a
   16-bit format that is the identity here) and the reference (all 16384 rows at once, host products) are this very
   expression row by row. -/
import Idealize.ShloMosaic.PureOps
import Idealize.ShloMosaic.PureOps.Ideal.Laws

noncomputable section

namespace Cert.Hyper

open Idealize.ShloMosaic

/-- The weights of the head, as plain functions of their coordinates. -/
structure Params where
  Ws : Fin 64 → Fin 128 → EReal
  bs : Fin 128 → EReal
  We : Fin 64 → Fin 128 → EReal
  be : Fin 128 → EReal
  Wk : Fin 64 → Fin 128 → EReal
  bk : Fin 128 → EReal
  Wd : Fin 64 → Fin 1 → EReal
  bd : Fin 1 → EReal
  M1w : Fin 512 → Fin 512 → EReal
  M1b : Fin 512 → EReal
  M2w : Fin 512 → Fin 256 → EReal
  M2b : Fin 256 → EReal
  M3w : Fin 256 → Fin 128 → EReal
  M3b : Fin 128 → EReal
  M4w : Fin 128 → Fin 1 → EReal
  M4b : Fin 1 → EReal

/-- The binary32 word of 0.8, read exactly. -/
def c08 : EReal := Ideal.ofBits .f32 0x3F4CCCCD#32
/-- The binary32 zero word, read exactly (it is 0; nothing here needs that). -/
def z32 : EReal := Ideal.ofBits .f32 0x00000000#32

/-- The leaky rectifier: z where z >= 0, else 0.8 z. -/
def lrelu (z : EReal) : EReal := Scalar.select (Ideal.cmp .oge z z32) z (c08 * z)

/-- An affine map's j-th output. -/
def lin {K N : Nat} (v : Fin K → EReal) (W : Fin K → Fin N → EReal) (b : Fin N → EReal) (j : Fin N) : EReal :=
  (∑ k : Fin K, v k * W k j) + b j

variable (P : Params) (ck : Fin 512 → Fin 64 → EReal) (x y : Fin 64 → EReal) (q : Fin 512 → EReal)

def sf (j : Fin 128) : EReal := lrelu (lin x P.Ws P.bs j)
def ef (j : Fin 128) : EReal := lrelu (lin y P.We P.be j)
def kf (n : Fin 512) (j : Fin 128) : EReal := lrelu (lin (ck n) P.Wk P.bk j)
def disc : EReal := Ideal.logistic (lin y P.Wd P.bd 0)
def state (n : Fin 512) : EReal := (disc P y * ∑ j : Fin 128, (sf P x j - ef P y j) * kf P ck n j) * q n
def h1 (a : Fin 512) : EReal := Ideal.tanh (lin (state P ck x y q) P.M1w P.M1b a)
def h2 (b : Fin 256) : EReal := Ideal.tanh (lin (h1 P ck x y q) P.M2w P.M2b b)
def h3 (c : Fin 128) : EReal := Ideal.tanh (lin (h2 P ck x y q) P.M3w P.M3b c)
/-- The predicted probability for the row. -/
def out : EReal := Ideal.logistic (lin (h3 P ck x y q) P.M4w P.M4b 0)

end Cert.Hyper

end
-- ==== Proof.LibPlainDot.lean ====
/-
  A PLAIN MATRIX PRODUCT READ AT AN INDEX.

  A product of an `M × K` by a `K × N` matrix with no batch axis (left operand contracted on its last axis, right
  operand on its first) has one contraction axis of extent `K`. At the exact instance both the matrix unit's product into
  a zero accumulator and the host's `dot_general` are, at the output index `(p, q)`, the plain sum over `k` of the left
  operand at `(p, k)` times the right operand at `(k, q)`.
-/
import Idealize.ShloMosaic.PureOps
import Idealize.ShloMosaic.PureOps.Ideal.Laws
import Idealize.ShloMosaic.Lib.ValueIdx

namespace Idealize.PlainDot

open Idealize.ShloMosaic Idealize.ShloMosaic.ValueIdx

/-- Dimension numbers with the plain fields are `DotDims.plain` (whatever proof of their conditions they carry). -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  obtain ⟨lc, rc, ln, rn, lb, rb, wf⟩ := d
  dsimp only at h1 h2 h3 h4 h5 h6
  subst h1 h2 h3 h4 h5 h6
  rfl

/-- THE CONTRACTION AS A PLAIN SUM: over the one contraction axis of a plain product, the sum of the products of the
    operands at the dot's operand indices for output `(p, q)` is the sum over `k : Fin K` of `l (p, k) * r (k, q)`. -/
theorem plain_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- THE MATRIX UNIT'S PRODUCT INTO A ZERO ACCUMULATOR, read at `(p, q)`. -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant (⟨2, ![M, N]⟩ : Shape) .f32 0x00000000#32) (ix2 p q)
      = ∑ k : Fin K, l (ix2 p k) * r (ix2 k q) := by
  subst hd
  show FloatOps.matmul _ prec l r _ _ = _
  rw [Ideal.matmul_constant_zero_apply]
  exact plain_sum l r p q

/-- THE HOST'S `dot_general`, read at `(p, q)`. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Idealize.PlainDot
-- ==== Proof.KernelRow.lean ====
/- The kernel's body on one row of its block.

   At a grid point the body holds 1024 rows of the gathered student features x0, exercise features x1 and
   knowledge indicators x2, all of the propagated knowledge features x3, and the weights (each bias as a 1 x N
   row).  Its one store writes, at row p, the head of Spec.lean applied to row p of x0, x1, x2: every product on the
   matrix unit is, at an output index, the plain sum over the contracted axis (the 16-bit operand format is the
   identity on the extended reals, the accumulator is the zero word), a bias row broadcast over the rows is the
   bias at the column, the column of discriminations broadcast over 512 columns is the row's discrimination, and
   the transposed knowledge factors are read with their coordinates swapped. -/
import proofs.«163362_j21320217657961_1_alg».proof.Proof.Gen.KernelIdeal.Skeleton
import proofs.«163362_j21320217657961_1_alg».proof.Proof.Spec
import proofs.«163362_j21320217657961_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.Hyper

/-! ## Three readings used at every layer -/

/-- A column [a,1] broadcast over b columns reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product into the zero accumulator plus a bias row broadcast over the rows, read at (p, j): the affine map of row p. -/
theorem affine_apply {M K N : ℕ} {φ₁ φ₂ : FTy} (d : DotDims ⟨2, ![M, K]⟩ ⟨2, ![K, N]⟩ ⟨2, ![M, N]⟩)
    (hd : d = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (j : Fin N)
    (L : Fin K → EReal) (R : Fin K → Fin N → EReal) (B : Fin N → EReal)
    (hl : ∀ k, l (ix2 p k) = L k) (hr : ∀ k j, r (ix2 k j) = R k j) (hB : ∀ j, b (ix2 (0 : Fin 1) j) = B j) :
    addf (matmul d none l r (constant (⟨2, ![M, N]⟩ : Shape) .f32 0x00000000#32)) (broadcastTo ⟨2, ![M, N]⟩ b hb) (ix2 p j)
      = lin L R B j := by
  show (matmul d none l r (constant (⟨2, ![M, N]⟩ : Shape) .f32 0x00000000#32) (ix2 p j) : EReal)
      + broadcastTo ⟨2, ![M, N]⟩ b hb (ix2 p j) = _
  rw [Idealize.PlainDot.matmul_zero_apply d hd none l r p j, broadcastTo_1b_ab_apply b hb p j, hB j]
  unfold lin
  exact congrArg (· + B j) (Finset.sum_congr rfl fun k _ => by rw [hl k, hr k j])

/-- The rectifier as the body spells it (compare with the zero word, scale by the word of 0.8, select), at an index. -/
theorem lrelu_of {S : Shape} (z : FVec Ideal S .f32) (i : S.Idx) (w : EReal) (h : z i = w) :
    select (cmpf .oge z (broadcast S (Scalar.ofBits (F := Ideal) .f32 0x00000000#32))) z
        (mulf (broadcast S (Scalar.ofBits (F := Ideal) .f32 0x3F4CCCCD#32)) z) i = lrelu w := by
  subst h; rfl

/-! ## The stages of the body, named -/

/-- The knowledge factors (all 512 rows). -/
def kfV (v8 : FVec Ideal S512x64 .bf16) (v14 : FVec Ideal S64x128 .bf16) (v38 : Vec Ideal S1x128 .f32) : FVec Ideal S512x128 .f32 :=
  have v41 : FVec Ideal S512x128 .f32 := addf (matmul dot_S512x64_S64x128_S512x128_1_0_0_1_n_n none v8 v14 (constant S512x128 .f32 0x00000000#32))
    (broadcastTo S512x128 (shapeCast S1x128 v38 shapeCasts_S1x128_S1x128) broadcasts_S1x128_S512x128)
  select (cmpf .oge v41 (broadcast S512x128 (Scalar.ofBits (F := Ideal) .f32 0x00000000#32))) v41
    (mulf (broadcast S512x128 (Scalar.ofBits (F := Ideal) .f32 0x3F4CCCCD#32)) v41)

/-- The discriminations (a column). -/
def discV (v5 : FVec Ideal S1024x64 .bf16) (v16 : FVec Ideal S64x1 .bf16) (v48 : Vec Ideal S1x1 .f32) : FVec Ideal S1024x1 .f32 :=
  logistic (addf (matmul dot_S1024x64_S64x1_S1024x1_1_0_0_1_n_n none v5 v16 (constant S1024x1 .f32 0x00000000#32))
    (broadcastTo S1024x1 (shapeCast S1x1 v48 shapeCasts_S1x1_S1x1) broadcasts_S1x1_S1024x1))

/-- The exercise factors from their pre-activation, its sign test and the splat of 0.8. -/
def efV (v31 : FVec Ideal S1024x128 .f32) (v33 : IVec S1024x128 1) (v34 : FVec Ideal S1024x128 .f32) : FVec Ideal S1024x128 .f32 :=
  select v33 v31 (mulf v34 v31)

/-- The products of the factor differences with the transposed knowledge factors. -/
def prodV (v26 v36 : FVec Ideal S1024x128 .f32) (v46 : FVec Ideal S512x128 .f32) : FVec Ideal S1024x512 .f32 :=
  matmul dot_S1024x128_S128x512_S1024x512_1_0_0_1_n_n none (truncf .bf16 (subf v26 v36) bitsLt_bf16_f32)
    (transpose S128x512 [1, 0] (truncf .bf16 v46 bitsLt_bf16_f32) transposes_S512x128_p1_0_S128x512) (constant S1024x512 .f32 0x00000000#32)

/-- The masked, scaled interaction: (disc * prod) * q. -/
def stateV (v52 : FVec Ideal S1024x1 .f32) (v57 : FVec Ideal S1024x512 .f32) (v60 : Vec Ideal S1024x512 .f32) : FVec Ideal S1024x512 .f32 :=
  mulf (mulf (broadcastTo S1024x512 v52 broadcasts_S1024x1_S1024x512) v57) (shapeCast S1024x512 v60 shapeCasts_S1024x512_S1024x512)

/-- The body's last product before the first bias: the state times M1w. -/
theorem pay13_eq (v5 : FVec Ideal S1024x64 .bf16) (v8 : FVec Ideal S512x64 .bf16) (v14 : FVec Ideal S64x128 .bf16) (v16 : FVec Ideal S64x1 .bf16)
    (v26 v31 : FVec Ideal S1024x128 .f32) (v33 : IVec S1024x128 1) (v34 : FVec Ideal S1024x128 .f32) (v38 : Vec Ideal S1x128 .f32)
    (v48 : Vec Ideal S1x1 .f32) (v60 : Vec Ideal S1024x512 .f32) (v63 : Vec Ideal S512x512 .f32) :
    k0_pay13 v5 v8 v14 v16 v26 v31 v33 v34 v38 v48 v60 v63
      = matmul dot_S1024x512_S512x512_S1024x512_1_0_0_1_n_n none
          (truncf .bf16 (stateV (discV v5 v16 v48) (prodV v26 (efV v31 v33 v34) (kfV v8 v14 v38)) v60) bitsLt_bf16_f32)
          (truncf .bf16 v63 bitsLt_bf16_f32) (constant S1024x512 .f32 0x00000000#32) := rfl

/-! ## Each stage at an index -/

section
variable (x0 x1 : Vec Ideal S1024x64 .f32) (x2 : Vec Ideal S1024x512 .f32) (x3 : Vec Ideal S512x64 .f32)
  (x4 : Vec Ideal S64x128 .f32) (x5 : Vec Ideal S1x128 .f32) (x6 : Vec Ideal S64x128 .f32) (x7 : Vec Ideal S1x128 .f32)
  (x8 : Vec Ideal S64x128 .f32) (x9 : Vec Ideal S1x128 .f32) (x10 : Vec Ideal S64x1 .f32) (x11 : Vec Ideal S1x1 .f32)
  (x12 : Vec Ideal S512x512 .f32) (x13 : Vec Ideal S1x512 .f32) (x14 : Vec Ideal S512x256 .f32) (x15 : Vec Ideal S1x256 .f32)
  (x16 : Vec Ideal S256x128 .f32) (x17 : Vec Ideal S1x128 .f32) (x18 : Vec Ideal S128x1 .f32) (x19 : Vec Ideal S1x1 .f32)

/-- The weights as the body's blocks hold them: each bias is the one row of its 1 x N block. -/
def paramsK : Params where
  Ws k j := x4 (ix2 k j)
  bs j := x5 (ix2 (0 : Fin 1) j)
  We k j := x6 (ix2 k j)
  be j := x7 (ix2 (0 : Fin 1) j)
  Wk k j := x8 (ix2 k j)
  bk j := x9 (ix2 (0 : Fin 1) j)
  Wd k j := x10 (ix2 k j)
  bd j := x11 (ix2 (0 : Fin 1) j)
  M1w k j := x12 (ix2 k j)
  M1b j := x13 (ix2 (0 : Fin 1) j)
  M2w k j := x14 (ix2 k j)
  M2b j := x15 (ix2 (0 : Fin 1) j)
  M3w k j := x16 (ix2 k j)
  M3b j := x17 (ix2 (0 : Fin 1) j)
  M4w k j := x18 (ix2 k j)
  M4b j := x19 (ix2 (0 : Fin 1) j)

local notation "PK" => paramsK x4 x5 x6 x7 x8 x9 x10 x11 x12 x13 x14 x15 x16 x17 x18 x19

/-- A loaded block passed through its identity cast and the 16-bit format is itself. -/
theorem pay2_apply (v : Vec Ideal S1024x64 .f32) (i : S1024x64.Idx) : k0_pay2 v i = v i :=
  congrFun (shapeCast_self v shapeCasts_S1024x64_S1024x64) i
theorem pay3_apply (v : Vec Ideal S512x64 .f32) (i : S512x64.Idx) : k0_pay3 v i = v i :=
  congrFun (shapeCast_self v shapeCasts_S512x64_S512x64) i

/-- The student factors of row p. -/
theorem sf_apply (p : Fin 1024) (j : Fin 128) :
    k0_pay6 x0 x4 x5 (ix2 p j) = sf PK (fun k => x0 (ix2 p k)) j :=
  lrelu_of _ _ _ (affine_apply dot_S1024x64_S64x128_S1024x128_1_0_0_1_n_n (Idealize.PlainDot.eq_plain _ rfl rfl rfl rfl rfl rfl)
    _ _ _ broadcasts_S1x128_S1024x128 p j _ _ _
    (fun k => congrFun (shapeCast_self x0 shapeCasts_S1024x64_S1024x64) (ix2 p k)) (fun _ _ => rfl)
    (fun j => congrFun (shapeCast_self x5 shapeCasts_S1x128_S1x128) (ix2 (0 : Fin 1) j)))

/-- The exercise factors' pre-activation of row p. -/
theorem efpre_apply (p : Fin 1024) (j : Fin 128) :
    k0_pay7 x1 x6 x7 (ix2 p j) = lin (fun k => x1 (ix2 p k)) (PK).We (PK).be j :=
  affine_apply dot_S1024x64_S64x128_S1024x128_1_0_0_1_n_n (Idealize.PlainDot.eq_plain _ rfl rfl rfl rfl rfl rfl)
    _ _ _ broadcasts_S1x128_S1024x128 p j _ _ _
    (fun k => pay2_apply x1 (ix2 p k)) (fun _ _ => rfl)
    (fun j => congrFun (shapeCast_self x7 shapeCasts_S1x128_S1x128) (ix2 (0 : Fin 1) j))

/-- The exercise factors of row p. -/
theorem ef_apply (p : Fin 1024) (j : Fin 128) :
    efV (k0_pay7 x1 x6 x7) (k0_pay8 x1 x6 x7) (k0_pay9 (F := Ideal)) (ix2 p j) = ef PK (fun k => x1 (ix2 p k)) j :=
  lrelu_of (k0_pay7 x1 x6 x7) (ix2 p j) _ (efpre_apply x1 x4 x5 x6 x7 x8 x9 x10 x11 x12 x13 x14 x15 x16 x17 x18 x19 p j)

/-- The knowledge factors. -/
theorem kf_apply (n : Fin 512) (j : Fin 128) :
    kfV (k0_pay3 x3) (k0_pay4 x8) x9 (ix2 n j) = kf PK (fun n k => x3 (ix2 n k)) n j :=
  lrelu_of _ _ _ (affine_apply dot_S512x64_S64x128_S512x128_1_0_0_1_n_n (Idealize.PlainDot.eq_plain _ rfl rfl rfl rfl rfl rfl)
    _ _ _ broadcasts_S1x128_S512x128 n j _ _ _
    (fun k => pay3_apply x3 (ix2 n k)) (fun _ _ => rfl)
    (fun j => congrFun (shapeCast_self x9 shapeCasts_S1x128_S1x128) (ix2 (0 : Fin 1) j)))

/-- The discrimination of row p. -/
theorem disc_apply (p : Fin 1024) :
    discV (k0_pay2 x1) (k0_pay5 x10) x11 (ix2 p (0 : Fin 1)) = disc PK (fun k => x1 (ix2 p k)) :=
  congrArg Ideal.logistic (affine_apply dot_S1024x64_S64x1_S1024x1_1_0_0_1_n_n (Idealize.PlainDot.eq_plain _ rfl rfl rfl rfl rfl rfl)
    _ _ _ broadcasts_S1x1_S1024x1 p (0 : Fin 1) _ _ _
    (fun k => pay2_apply x1 (ix2 p k)) (fun _ _ => rfl)
    (fun j => congrFun (shapeCast_self x11 shapeCasts_S1x1_S1x1) (ix2 (0 : Fin 1) j)))

/-- The interaction products of row p: the factor differences against knowledge concept n's factors. -/
theorem prod_apply (v26 v36 : FVec Ideal S1024x128 .f32) (v46 : FVec Ideal S512x128 .f32) (p : Fin 1024) (n : Fin 512) :
    prodV v26 v36 v46 (ix2 p n) = ∑ j : Fin 128, (v26 (ix2 p j) - v36 (ix2 p j)) * v46 (ix2 n j) := by
  unfold prodV
  rw [Idealize.PlainDot.matmul_zero_apply dot_S1024x128_S128x512_S1024x512_1_0_0_1_n_n
    (Idealize.PlainDot.eq_plain _ rfl rfl rfl rfl rfl rfl) none _ _ p n]
  refine Finset.sum_congr rfl fun j _ => ?_
  rw [transpose_ix2_apply (truncf .bf16 v46 bitsLt_bf16_f32) transposes_S512x128_p1_0_S128x512 j n]
  rfl

/-- The state of row p at concept n: (discrimination * interaction) * indicator. -/
theorem stateV_apply (v52 : FVec Ideal S1024x1 .f32) (v57 : FVec Ideal S1024x512 .f32) (v60 : Vec Ideal S1024x512 .f32)
    (p : Fin 1024) (n : Fin 512) :
    stateV v52 v57 v60 (ix2 p n) = (v52 (ix2 p (0 : Fin 1)) * v57 (ix2 p n)) * v60 (ix2 p n) := by
  show (broadcastTo S1024x512 v52 broadcasts_S1024x1_S1024x512 (ix2 p n) * v57 (ix2 p n) : EReal)
      * shapeCast S1024x512 v60 shapeCasts_S1024x512_S1024x512 (ix2 p n) = _
  rw [broadcastTo_a1_ab_apply v52 broadcasts_S1024x1_S1024x512 p n, shapeCast_self]

/-- The state of row p, as the head's. -/
theorem state_apply (p : Fin 1024) (n : Fin 512) :
    stateV (discV (k0_pay2 x1) (k0_pay5 x10) x11)
        (prodV (k0_pay6 x0 x4 x5) (efV (k0_pay7 x1 x6 x7) (k0_pay8 x1 x6 x7) (k0_pay9 (F := Ideal))) (kfV (k0_pay3 x3) (k0_pay4 x8) x9)) x2 (ix2 p n)
      = state PK (fun n k => x3 (ix2 n k)) (fun k => x0 (ix2 p k)) (fun k => x1 (ix2 p k)) (fun n => x2 (ix2 p n)) n := by
  rw [stateV_apply, prod_apply, disc_apply x1 x4 x5 x6 x7 x8 x9 x10 x11 x12 x13 x14 x15 x16 x17 x18 x19 p]
  unfold state
  refine congrArg (fun s => (disc PK (fun k => x1 (ix2 p k)) * s) * x2 (ix2 p n)) (Finset.sum_congr rfl fun j _ => ?_)
  rw [sf_apply x0 x4 x5 x6 x7 x8 x9 x10 x11 x12 x13 x14 x15 x16 x17 x18 x19 p j,
    ef_apply x1 x4 x5 x6 x7 x8 x9 x10 x11 x12 x13 x14 x15 x16 x17 x18 x19 p j,
    kf_apply x3 x4 x5 x6 x7 x8 x9 x10 x11 x12 x13 x14 x15 x16 x17 x18 x19 n j]

/-! ## The three hidden layers and the output, named and read -/

def h1V (v72 : FVec Ideal S1024x512 .f32) (v73 : Vec Ideal S1x512 .f32) : FVec Ideal S1024x512 .f32 :=
  tanh (addf v72 (broadcastTo S1024x512 (shapeCast S1x512 v73 shapeCasts_S1x512_S1x512) broadcasts_S1x512_S1024x512))
def h2V (h1 : FVec Ideal S1024x512 .f32) (v66 : FVec Ideal S512x256 .bf16) (v80 : Vec Ideal S1x256 .f32) : FVec Ideal S1024x256 .f32 :=
  tanh (addf (matmul dot_S1024x512_S512x256_S1024x256_1_0_0_1_n_n none (truncf .bf16 h1 bitsLt_bf16_f32) v66 (constant S1024x256 .f32 0x00000000#32))
    (broadcastTo S1024x256 (shapeCast S1x256 v80 shapeCasts_S1x256_S1x256) broadcasts_S1x256_S1024x256))
def h3V (h2 : FVec Ideal S1024x256 .f32) (v68 : FVec Ideal S256x128 .bf16) (v87 : Vec Ideal S1x128 .f32) : FVec Ideal S1024x128 .f32 :=
  tanh (addf (matmul dot_S1024x256_S256x128_S1024x128_1_0_0_1_n_n none (truncf .bf16 h2 bitsLt_bf16_f32) v68 (constant S1024x128 .f32 0x00000000#32))
    (broadcastTo S1024x128 (shapeCast S1x128 v87 shapeCasts_S1x128_S1x128) broadcasts_S1x128_S1024x128))

/-- The body's stored value: the logistic of the last affine map of the third hidden layer. -/
theorem pay1_eq (v66 : FVec Ideal S512x256 .bf16) (v68 : FVec Ideal S256x128 .bf16) (v70 : FVec Ideal S128x1 .bf16) (v72 : FVec Ideal S1024x512 .f32)
    (v73 : Vec Ideal S1x512 .f32) (v80 : Vec Ideal S1x256 .f32) (v87 : Vec Ideal S1x128 .f32) (v94 : Vec Ideal S1x1 .f32) :
    k0_pay1 v66 v68 v70 v72 v73 v80 v87 v94
      = logistic (addf (matmul dot_S1024x128_S128x1_S1024x1_1_0_0_1_n_n none (truncf .bf16 (h3V (h2V (h1V v72 v73) v66 v80) v68 v87) bitsLt_bf16_f32) v70
          (constant S1024x1 .f32 0x00000000#32))
        (broadcastTo S1024x1 (shapeCast S1x1 v94 shapeCasts_S1x1_S1x1) broadcasts_S1x1_S1024x1)) := rfl

/-- THE BODY ON ROW p: what the store writes at (p, 0) is the head of row p of the three batched blocks. -/
theorem body_row (p : Fin 1024) :
    k0_pay1 (k0_pay10 x14) (k0_pay11 x16) (k0_pay12 x18)
        (k0_pay13 (k0_pay2 x1) (k0_pay3 x3) (k0_pay4 x8) (k0_pay5 x10) (k0_pay6 x0 x4 x5) (k0_pay7 x1 x6 x7) (k0_pay8 x1 x6 x7)
          (k0_pay9 (F := Ideal)) x9 x11 x2 x12) x13 x15 x17 x19 (ix2 p (0 : Fin 1))
      = out PK (fun n k => x3 (ix2 n k)) (fun k => x0 (ix2 p k)) (fun k => x1 (ix2 p k)) (fun n => x2 (ix2 p n)) := by
  rw [pay1_eq, pay13_eq]
  -- the first hidden layer of row p
  have e1 : ∀ a : Fin 512, h1V (matmul dot_S1024x512_S512x512_S1024x512_1_0_0_1_n_n none
        (truncf .bf16 (stateV (discV (k0_pay2 x1) (k0_pay5 x10) x11)
          (prodV (k0_pay6 x0 x4 x5) (efV (k0_pay7 x1 x6 x7) (k0_pay8 x1 x6 x7) (k0_pay9 (F := Ideal))) (kfV (k0_pay3 x3) (k0_pay4 x8) x9)) x2) bitsLt_bf16_f32)
        (truncf .bf16 x12 bitsLt_bf16_f32) (constant S1024x512 .f32 0x00000000#32)) x13 (ix2 p a)
      = h1 PK (fun n k => x3 (ix2 n k)) (fun k => x0 (ix2 p k)) (fun k => x1 (ix2 p k)) (fun n => x2 (ix2 p n)) a := fun a =>
    congrArg Ideal.tanh (affine_apply dot_S1024x512_S512x512_S1024x512_1_0_0_1_n_n (Idealize.PlainDot.eq_plain _ rfl rfl rfl rfl rfl rfl)
      _ _ _ broadcasts_S1x512_S1024x512 p a _ _ _
      (fun n => state_apply x0 x1 x2 x3 x4 x5 x6 x7 x8 x9 x10 x11 x12 x13 x14 x15 x16 x17 x18 x19 p n) (fun _ _ => rfl)
      (fun j => congrFun (shapeCast_self x13 shapeCasts_S1x512_S1x512) (ix2 (0 : Fin 1) j)))
  have e2 : ∀ b : Fin 256, h2V (h1V (matmul dot_S1024x512_S512x512_S1024x512_1_0_0_1_n_n none
        (truncf .bf16 (stateV (discV (k0_pay2 x1) (k0_pay5 x10) x11)
          (prodV (k0_pay6 x0 x4 x5) (efV (k0_pay7 x1 x6 x7) (k0_pay8 x1 x6 x7) (k0_pay9 (F := Ideal))) (kfV (k0_pay3 x3) (k0_pay4 x8) x9)) x2) bitsLt_bf16_f32)
        (truncf .bf16 x12 bitsLt_bf16_f32) (constant S1024x512 .f32 0x00000000#32)) x13) (k0_pay10 x14) x15 (ix2 p b)
      = h2 PK (fun n k => x3 (ix2 n k)) (fun k => x0 (ix2 p k)) (fun k => x1 (ix2 p k)) (fun n => x2 (ix2 p n)) b := fun b =>
    congrArg Ideal.tanh (affine_apply dot_S1024x512_S512x256_S1024x256_1_0_0_1_n_n (Idealize.PlainDot.eq_plain _ rfl rfl rfl rfl rfl rfl)
      _ _ _ broadcasts_S1x256_S1024x256 p b _ _ _ (fun a => e1 a) (fun _ _ => rfl)
      (fun j => congrFun (shapeCast_self x15 shapeCasts_S1x256_S1x256) (ix2 (0 : Fin 1) j)))
  have e3 : ∀ c : Fin 128, h3V (h2V (h1V (matmul dot_S1024x512_S512x512_S1024x512_1_0_0_1_n_n none
        (truncf .bf16 (stateV (discV (k0_pay2 x1) (k0_pay5 x10) x11)
          (prodV (k0_pay6 x0 x4 x5) (efV (k0_pay7 x1 x6 x7) (k0_pay8 x1 x6 x7) (k0_pay9 (F := Ideal))) (kfV (k0_pay3 x3) (k0_pay4 x8) x9)) x2) bitsLt_bf16_f32)
        (truncf .bf16 x12 bitsLt_bf16_f32) (constant S1024x512 .f32 0x00000000#32)) x13) (k0_pay10 x14) x15) (k0_pay11 x16) x17 (ix2 p c)
      = h3 PK (fun n k => x3 (ix2 n k)) (fun k => x0 (ix2 p k)) (fun k => x1 (ix2 p k)) (fun n => x2 (ix2 p n)) c := fun c =>
    congrArg Ideal.tanh (affine_apply dot_S1024x256_S256x128_S1024x128_1_0_0_1_n_n (Idealize.PlainDot.eq_plain _ rfl rfl rfl rfl rfl rfl)
      _ _ _ broadcasts_S1x128_S1024x128 p c _ _ _ (fun b => e2 b) (fun _ _ => rfl)
      (fun j => congrFun (shapeCast_self x17 shapeCasts_S1x128_S1x128) (ix2 (0 : Fin 1) j)))
  exact congrArg Ideal.logistic (affine_apply dot_S1024x128_S128x1_S1024x1_1_0_0_1_n_n (Idealize.PlainDot.eq_plain _ rfl rfl rfl rfl rfl rfl)
    _ _ _ broadcasts_S1x1_S1024x1 p (0 : Fin 1) _ _ _ (fun c => e3 c) (fun _ _ => rfl)
    (fun j => congrFun (shapeCast_self x19 shapeCasts_S1x1_S1x1) (ix2 (0 : Fin 1) j)))

end

end Cert.KernelIdeal.Row

end
-- ==== Proof.KernelBlocksA.lean ====
/- The operands the kernel keeps resident (the propagated knowledge features and the weights): their block index is 0 at
   every one of the 16 grid points (decided over the grid), so the block the body loads is the whole array.  Operands 3 to 8. -/
import proofs.«163362_j21320217657961_1_alg».proof.Proof.Gen.KernelIdeal.Frame
import proofs.«163362_j21320217657961_1_alg».proof.Proof.KernelRow
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Hyper
open Idealize.ShloMosaic.Pipeline (Dat)

variable (m : (ℓ : Loc nD τ sig) → Buf (Elt Ideal) ℓ) (ρ : Dev nD → PrngReg)

/-- Operand 3's block index is 0 at every grid point. -/
theorem idx_res3 : ∀ t : Fin cfg0.N, win0_3.index t (0 : Fin 2) = 0 ∧ win0_3.index t (1 : Fin 2) = 0 :=
  (by decide +kernel : ∀ t : Fin grid0.N, _)
/-- So operand 3's block at any point is its whole array. -/
theorem iblk3 (c : Dev nD) (t : Fin cfg0.N) : iblk m c 3 t = V m c main_v158 := by
  funext y
  show V m c main_v158 (((cfg0.win 3).blk t).view.emb y) = V m c main_v158 y
  refine congrArg (V m c main_v158) (funext fun a => Fin.ext ?_)
  obtain ⟨e0, e1⟩ := idx_res3 t
  match a with
  | ⟨0, _⟩ => show win0_3.index t (0 : Fin 2) * _ + 1 * (y 0).val = (y 0).val; rw [e0]; omega
  | ⟨1, _⟩ => show win0_3.index t (1 : Fin 2) * _ + 1 * (y 1).val = (y 1).val; rw [e1]; omega

/-- Operand 4's block index is 0 at every grid point. -/
theorem idx_res4 : ∀ t : Fin cfg0.N, win0_4.index t (0 : Fin 2) = 0 ∧ win0_4.index t (1 : Fin 2) = 0 :=
  (by decide +kernel : ∀ t : Fin grid0.N, _)
/-- So operand 4's block at any point is its whole array. -/
theorem iblk4 (c : Dev nD) (t : Fin cfg0.N) : iblk m c 4 t = V m c main_arg15 := by
  funext y
  show V m c main_arg15 (((cfg0.win 4).blk t).view.emb y) = V m c main_arg15 y
  refine congrArg (V m c main_arg15) (funext fun a => Fin.ext ?_)
  obtain ⟨e0, e1⟩ := idx_res4 t
  match a with
  | ⟨0, _⟩ => show win0_4.index t (0 : Fin 2) * _ + 1 * (y 0).val = (y 0).val; rw [e0]; omega
  | ⟨1, _⟩ => show win0_4.index t (1 : Fin 2) * _ + 1 * (y 1).val = (y 1).val; rw [e1]; omega

/-- Operand 5's block index is 0 at every grid point. -/
theorem idx_res5 : ∀ t : Fin cfg0.N, win0_5.index t (0 : Fin 2) = 0 ∧ win0_5.index t (1 : Fin 2) = 0 :=
  (by decide +kernel : ∀ t : Fin grid0.N, _)
/-- So operand 5's block at any point is its whole array. -/
theorem iblk5 (c : Dev nD) (t : Fin cfg0.N) : iblk m c 5 t = V m c main_v180 := by
  funext y
  show V m c main_v180 (((cfg0.win 5).blk t).view.emb y) = V m c main_v180 y
  refine congrArg (V m c main_v180) (funext fun a => Fin.ext ?_)
  obtain ⟨e0, e1⟩ := idx_res5 t
  match a with
  | ⟨0, _⟩ => show win0_5.index t (0 : Fin 2) * _ + 1 * (y 0).val = (y 0).val; rw [e0]; omega
  | ⟨1, _⟩ => show win0_5.index t (1 : Fin 2) * _ + 1 * (y 1).val = (y 1).val; rw [e1]; omega

/-- Operand 6's block index is 0 at every grid point. -/
theorem idx_res6 : ∀ t : Fin cfg0.N, win0_6.index t (0 : Fin 2) = 0 ∧ win0_6.index t (1 : Fin 2) = 0 :=
  (by decide +kernel : ∀ t : Fin grid0.N, _)
/-- So operand 6's block at any point is its whole array. -/
theorem iblk6 (c : Dev nD) (t : Fin cfg0.N) : iblk m c 6 t = V m c main_arg17 := by
  funext y
  show V m c main_arg17 (((cfg0.win 6).blk t).view.emb y) = V m c main_arg17 y
  refine congrArg (V m c main_arg17) (funext fun a => Fin.ext ?_)
  obtain ⟨e0, e1⟩ := idx_res6 t
  match a with
  | ⟨0, _⟩ => show win0_6.index t (0 : Fin 2) * _ + 1 * (y 0).val = (y 0).val; rw [e0]; omega
  | ⟨1, _⟩ => show win0_6.index t (1 : Fin 2) * _ + 1 * (y 1).val = (y 1).val; rw [e1]; omega

/-- Operand 7's block index is 0 at every grid point. -/
theorem idx_res7 : ∀ t : Fin cfg0.N, win0_7.index t (0 : Fin 2) = 0 ∧ win0_7.index t (1 : Fin 2) = 0 :=
  (by decide +kernel : ∀ t : Fin grid0.N, _)
/-- So operand 7's block at any point is its whole array. -/
theorem iblk7 (c : Dev nD) (t : Fin cfg0.N) : iblk m c 7 t = V m c main_v181 := by
  funext y
  show V m c main_v181 (((cfg0.win 7).blk t).view.emb y) = V m c main_v181 y
  refine congrArg (V m c main_v181) (funext fun a => Fin.ext ?_)
  obtain ⟨e0, e1⟩ := idx_res7 t
  match a with
  | ⟨0, _⟩ => show win0_7.index t (0 : Fin 2) * _ + 1 * (y 0).val = (y 0).val; rw [e0]; omega
  | ⟨1, _⟩ => show win0_7.index t (1 : Fin 2) * _ + 1 * (y 1).val = (y 1).val; rw [e1]; omega

/-- Operand 8's block index is 0 at every grid point. -/
theorem idx_res8 : ∀ t : Fin cfg0.N, win0_8.index t (0 : Fin 2) = 0 ∧ win0_8.index t (1 : Fin 2) = 0 :=
  (by decide +kernel : ∀ t : Fin grid0.N, _)
/-- So operand 8's block at any point is its whole array. -/
theorem iblk8 (c : Dev nD) (t : Fin cfg0.N) : iblk m c 8 t = V m c main_arg19 := by
  funext y
  show V m c main_arg19 (((cfg0.win 8).blk t).view.emb y) = V m c main_arg19 y
  refine congrArg (V m c main_arg19) (funext fun a => Fin.ext ?_)
  obtain ⟨e0, e1⟩ := idx_res8 t
  match a with
  | ⟨0, _⟩ => show win0_8.index t (0 : Fin 2) * _ + 1 * (y 0).val = (y 0).val; rw [e0]; omega
  | ⟨1, _⟩ => show win0_8.index t (1 : Fin 2) * _ + 1 * (y 1).val = (y 1).val; rw [e1]; omega

end Cert.KernelIdeal.Val

end
-- ==== Proof.KernelBlocksB.lean ====
/- The operands the kernel keeps resident (the propagated knowledge features and the weights): their block index is 0 at
   every one of the 16 grid points (decided over the grid), so the block the body loads is the whole array.  Operands 9 to 14. -/
import proofs.«163362_j21320217657961_1_alg».proof.Proof.Gen.KernelIdeal.Frame
import proofs.«163362_j21320217657961_1_alg».proof.Proof.KernelRow
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Hyper
open Idealize.ShloMosaic.Pipeline (Dat)

variable (m : (ℓ : Loc nD τ sig) → Buf (Elt Ideal) ℓ) (ρ : Dev nD → PrngReg)

/-- Operand 9's block index is 0 at every grid point. -/
theorem idx_res9 : ∀ t : Fin cfg0.N, win0_9.index t (0 : Fin 2) = 0 ∧ win0_9.index t (1 : Fin 2) = 0 :=
  (by decide +kernel : ∀ t : Fin grid0.N, _)
/-- So operand 9's block at any point is its whole array. -/
theorem iblk9 (c : Dev nD) (t : Fin cfg0.N) : iblk m c 9 t = V m c main_v182 := by
  funext y
  show V m c main_v182 (((cfg0.win 9).blk t).view.emb y) = V m c main_v182 y
  refine congrArg (V m c main_v182) (funext fun a => Fin.ext ?_)
  obtain ⟨e0, e1⟩ := idx_res9 t
  match a with
  | ⟨0, _⟩ => show win0_9.index t (0 : Fin 2) * _ + 1 * (y 0).val = (y 0).val; rw [e0]; omega
  | ⟨1, _⟩ => show win0_9.index t (1 : Fin 2) * _ + 1 * (y 1).val = (y 1).val; rw [e1]; omega

/-- Operand 10's block index is 0 at every grid point. -/
theorem idx_res10 : ∀ t : Fin cfg0.N, win0_10.index t (0 : Fin 2) = 0 ∧ win0_10.index t (1 : Fin 2) = 0 :=
  (by decide +kernel : ∀ t : Fin grid0.N, _)
/-- So operand 10's block at any point is its whole array. -/
theorem iblk10 (c : Dev nD) (t : Fin cfg0.N) : iblk m c 10 t = V m c main_arg21 := by
  funext y
  show V m c main_arg21 (((cfg0.win 10).blk t).view.emb y) = V m c main_arg21 y
  refine congrArg (V m c main_arg21) (funext fun a => Fin.ext ?_)
  obtain ⟨e0, e1⟩ := idx_res10 t
  match a with
  | ⟨0, _⟩ => show win0_10.index t (0 : Fin 2) * _ + 1 * (y 0).val = (y 0).val; rw [e0]; omega
  | ⟨1, _⟩ => show win0_10.index t (1 : Fin 2) * _ + 1 * (y 1).val = (y 1).val; rw [e1]; omega

/-- Operand 11's block index is 0 at every grid point. -/
theorem idx_res11 : ∀ t : Fin cfg0.N, win0_11.index t (0 : Fin 2) = 0 ∧ win0_11.index t (1 : Fin 2) = 0 :=
  (by decide +kernel : ∀ t : Fin grid0.N, _)
/-- So operand 11's block at any point is its whole array. -/
theorem iblk11 (c : Dev nD) (t : Fin cfg0.N) : iblk m c 11 t = V m c main_v183 := by
  funext y
  show V m c main_v183 (((cfg0.win 11).blk t).view.emb y) = V m c main_v183 y
  refine congrArg (V m c main_v183) (funext fun a => Fin.ext ?_)
  obtain ⟨e0, e1⟩ := idx_res11 t
  match a with
  | ⟨0, _⟩ => show win0_11.index t (0 : Fin 2) * _ + 1 * (y 0).val = (y 0).val; rw [e0]; omega
  | ⟨1, _⟩ => show win0_11.index t (1 : Fin 2) * _ + 1 * (y 1).val = (y 1).val; rw [e1]; omega

/-- Operand 12's block index is 0 at every grid point. -/
theorem idx_res12 : ∀ t : Fin cfg0.N, win0_12.index t (0 : Fin 2) = 0 ∧ win0_12.index t (1 : Fin 2) = 0 :=
  (by decide +kernel : ∀ t : Fin grid0.N, _)
/-- So operand 12's block at any point is its whole array. -/
theorem iblk12 (c : Dev nD) (t : Fin cfg0.N) : iblk m c 12 t = V m c main_arg23 := by
  funext y
  show V m c main_arg23 (((cfg0.win 12).blk t).view.emb y) = V m c main_arg23 y
  refine congrArg (V m c main_arg23) (funext fun a => Fin.ext ?_)
  obtain ⟨e0, e1⟩ := idx_res12 t
  match a with
  | ⟨0, _⟩ => show win0_12.index t (0 : Fin 2) * _ + 1 * (y 0).val = (y 0).val; rw [e0]; omega
  | ⟨1, _⟩ => show win0_12.index t (1 : Fin 2) * _ + 1 * (y 1).val = (y 1).val; rw [e1]; omega

/-- Operand 13's block index is 0 at every grid point. -/
theorem idx_res13 : ∀ t : Fin cfg0.N, win0_13.index t (0 : Fin 2) = 0 ∧ win0_13.index t (1 : Fin 2) = 0 :=
  (by decide +kernel : ∀ t : Fin grid0.N, _)
/-- So operand 13's block at any point is its whole array. -/
theorem iblk13 (c : Dev nD) (t : Fin cfg0.N) : iblk m c 13 t = V m c main_v184 := by
  funext y
  show V m c main_v184 (((cfg0.win 13).blk t).view.emb y) = V m c main_v184 y
  refine congrArg (V m c main_v184) (funext fun a => Fin.ext ?_)
  obtain ⟨e0, e1⟩ := idx_res13 t
  match a with
  | ⟨0, _⟩ => show win0_13.index t (0 : Fin 2) * _ + 1 * (y 0).val = (y 0).val; rw [e0]; omega
  | ⟨1, _⟩ => show win0_13.index t (1 : Fin 2) * _ + 1 * (y 1).val = (y 1).val; rw [e1]; omega

/-- Operand 14's block index is 0 at every grid point. -/
theorem idx_res14 : ∀ t : Fin cfg0.N, win0_14.index t (0 : Fin 2) = 0 ∧ win0_14.index t (1 : Fin 2) = 0 :=
  (by decide +kernel : ∀ t : Fin grid0.N, _)
/-- So operand 14's block at any point is its whole array. -/
theorem iblk14 (c : Dev nD) (t : Fin cfg0.N) : iblk m c 14 t = V m c main_arg25 := by
  funext y
  show V m c main_arg25 (((cfg0.win 14).blk t).view.emb y) = V m c main_arg25 y
  refine congrArg (V m c main_arg25) (funext fun a => Fin.ext ?_)
  obtain ⟨e0, e1⟩ := idx_res14 t
  match a with
  | ⟨0, _⟩ => show win0_14.index t (0 : Fin 2) * _ + 1 * (y 0).val = (y 0).val; rw [e0]; omega
  | ⟨1, _⟩ => show win0_14.index t (1 : Fin 2) * _ + 1 * (y 1).val = (y 1).val; rw [e1]; omega

end Cert.KernelIdeal.Val

end
-- ==== Proof.KernelBlocksC.lean ====
/- The operands the kernel keeps resident (the propagated knowledge features and the weights): their block index is 0 at
   every one of the 16 grid points (decided over the grid), so the block the body loads is the whole array.  Operands 15 to 19. -/
import proofs.«163362_j21320217657961_1_alg».proof.Proof.Gen.KernelIdeal.Frame
import proofs.«163362_j21320217657961_1_alg».proof.Proof.KernelRow
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Hyper
open Idealize.ShloMosaic.Pipeline (Dat)

variable (m : (ℓ : Loc nD τ sig) → Buf (Elt Ideal) ℓ) (ρ : Dev nD → PrngReg)

/-- Operand 15's block index is 0 at every grid point. -/
theorem idx_res15 : ∀ t : Fin cfg0.N, win0_15.index t (0 : Fin 2) = 0 ∧ win0_15.index t (1 : Fin 2) = 0 :=
  (by decide +kernel : ∀ t : Fin grid0.N, _)
/-- So operand 15's block at any point is its whole array. -/
theorem iblk15 (c : Dev nD) (t : Fin cfg0.N) : iblk m c 15 t = V m c main_v185 := by
  funext y
  show V m c main_v185 (((cfg0.win 15).blk t).view.emb y) = V m c main_v185 y
  refine congrArg (V m c main_v185) (funext fun a => Fin.ext ?_)
  obtain ⟨e0, e1⟩ := idx_res15 t
  match a with
  | ⟨0, _⟩ => show win0_15.index t (0 : Fin 2) * _ + 1 * (y 0).val = (y 0).val; rw [e0]; omega
  | ⟨1, _⟩ => show win0_15.index t (1 : Fin 2) * _ + 1 * (y 1).val = (y 1).val; rw [e1]; omega

/-- Operand 16's block index is 0 at every grid point. -/
theorem idx_res16 : ∀ t : Fin cfg0.N, win0_16.index t (0 : Fin 2) = 0 ∧ win0_16.index t (1 : Fin 2) = 0 :=
  (by decide +kernel : ∀ t : Fin grid0.N, _)
/-- So operand 16's block at any point is its whole array. -/
theorem iblk16 (c : Dev nD) (t : Fin cfg0.N) : iblk m c 16 t = V m c main_arg27 := by
  funext y
  show V m c main_arg27 (((cfg0.win 16).blk t).view.emb y) = V m c main_arg27 y
  refine congrArg (V m c main_arg27) (funext fun a => Fin.ext ?_)
  obtain ⟨e0, e1⟩ := idx_res16 t
  match a with
  | ⟨0, _⟩ => show win0_16.index t (0 : Fin 2) * _ + 1 * (y 0).val = (y 0).val; rw [e0]; omega
  | ⟨1, _⟩ => show win0_16.index t (1 : Fin 2) * _ + 1 * (y 1).val = (y 1).val; rw [e1]; omega

/-- Operand 17's block index is 0 at every grid point. -/
theorem idx_res17 : ∀ t : Fin cfg0.N, win0_17.index t (0 : Fin 2) = 0 ∧ win0_17.index t (1 : Fin 2) = 0 :=
  (by decide +kernel : ∀ t : Fin grid0.N, _)
/-- So operand 17's block at any point is its whole array. -/
theorem iblk17 (c : Dev nD) (t : Fin cfg0.N) : iblk m c 17 t = V m c main_v186 := by
  funext y
  show V m c main_v186 (((cfg0.win 17).blk t).view.emb y) = V m c main_v186 y
  refine congrArg (V m c main_v186) (funext fun a => Fin.ext ?_)
  obtain ⟨e0, e1⟩ := idx_res17 t
  match a with
  | ⟨0, _⟩ => show win0_17.index t (0 : Fin 2) * _ + 1 * (y 0).val = (y 0).val; rw [e0]; omega
  | ⟨1, _⟩ => show win0_17.index t (1 : Fin 2) * _ + 1 * (y 1).val = (y 1).val; rw [e1]; omega

/-- Operand 18's block index is 0 at every grid point. -/
theorem idx_res18 : ∀ t : Fin cfg0.N, win0_18.index t (0 : Fin 2) = 0 ∧ win0_18.index t (1 : Fin 2) = 0 :=
  (by decide +kernel : ∀ t : Fin grid0.N, _)
/-- So operand 18's block at any point is its whole array. -/
theorem iblk18 (c : Dev nD) (t : Fin cfg0.N) : iblk m c 18 t = V m c main_arg29 := by
  funext y
  show V m c main_arg29 (((cfg0.win 18).blk t).view.emb y) = V m c main_arg29 y
  refine congrArg (V m c main_arg29) (funext fun a => Fin.ext ?_)
  obtain ⟨e0, e1⟩ := idx_res18 t
  match a with
  | ⟨0, _⟩ => show win0_18.index t (0 : Fin 2) * _ + 1 * (y 0).val = (y 0).val; rw [e0]; omega
  | ⟨1, _⟩ => show win0_18.index t (1 : Fin 2) * _ + 1 * (y 1).val = (y 1).val; rw [e1]; omega

/-- Operand 19's block index is 0 at every grid point. -/
theorem idx_res19 : ∀ t : Fin cfg0.N, win0_19.index t (0 : Fin 2) = 0 ∧ win0_19.index t (1 : Fin 2) = 0 :=
  (by decide +kernel : ∀ t : Fin grid0.N, _)
/-- So operand 19's block at any point is its whole array. -/
theorem iblk19 (c : Dev nD) (t : Fin cfg0.N) : iblk m c 19 t = V m c main_v187 := by
  funext y
  show V m c main_v187 (((cfg0.win 19).blk t).view.emb y) = V m c main_v187 y
  refine congrArg (V m c main_v187) (funext fun a => Fin.ext ?_)
  obtain ⟨e0, e1⟩ := idx_res19 t
  match a with
  | ⟨0, _⟩ => show win0_19.index t (0 : Fin 2) * _ + 1 * (y 0).val = (y 0).val; rw [e0]; omega
  | ⟨1, _⟩ => show win0_19.index t (1 : Fin 2) * _ + 1 * (y 1).val = (y 1).val; rw [e1]; omega

end Cert.KernelIdeal.Val

end
-- ==== Proof.KernelBlocks.lean ====
/- The grid's index maps for the batched operands and the result, and what the region finds, named: the head's weights
   (each bias the one row of its reshaped 1 x N array), the head of a batch row, and the result array. -/
import proofs.«163362_j21320217657961_1_alg».proof.Proof.KernelBlocksA
import proofs.«163362_j21320217657961_1_alg».proof.Proof.KernelBlocksB
import proofs.«163362_j21320217657961_1_alg».proof.Proof.KernelBlocksC

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Hyper
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-- The printed index maps over the grid: the three batched operands move with the result, row block t at point t. -/
theorem idx_facts : ∀ t : Fin cfg0.N,
    win0_0.index t (0 : Fin 2) = win0_20.index t (0 : Fin 2) ∧ win0_0.index t (1 : Fin 2) = 0
    ∧ win0_1.index t (0 : Fin 2) = win0_20.index t (0 : Fin 2) ∧ win0_1.index t (1 : Fin 2) = 0
    ∧ win0_2.index t (0 : Fin 2) = win0_20.index t (0 : Fin 2) ∧ win0_2.index t (1 : Fin 2) = 0
    ∧ win0_20.index t (0 : Fin 2) = t.val ∧ win0_20.index t (1 : Fin 2) = 0 :=
  (by decide +kernel : ∀ t : Fin grid0.N, _)

/-- The head's weights as the region finds them (each bias the one row of its reshaped 1 x N array). -/
def paramsV (c : Dev nD) : Params :=
  Row.paramsK (V m c main_arg15) (V m c main_v180) (V m c main_arg17) (V m c main_v181) (V m c main_arg19) (V m c main_v182)
    (V m c main_arg21) (V m c main_v183) (V m c main_arg23) (V m c main_v184) (V m c main_arg25) (V m c main_v185)
    (V m c main_arg27) (V m c main_v186) (V m c main_arg29) (V m c main_v187)

/-- The head of batch row r, of the arrays the region finds. -/
def rowOut (c : Dev nD) (r : Fin 16384) : EReal :=
  out (paramsV m c) (fun n k => V m c main_v158 (ix2 n k)) (fun k => V m c main_v165 (ix2 r k))
    (fun k => V m c main_v172 (ix2 r k)) (fun n => V m c main_v179 (ix2 r n))

/-- The result array: at (r, 0) the head of row r. -/
def Gk (c : Dev nD) : S16384x1.Idx → Elt Ideal .f32 := fun i => rowOut m c ⟨(i 0).val, (i 0).isLt⟩

/-- The program's result vector: entry r is the head of batch row r. -/
def Res (c : Dev nD) : S16384.Idx → Elt Ideal .f32 := fun i => rowOut m c ⟨(i 0).val, (i 0).isLt⟩

end Cert.KernelIdeal.Val

end
-- ==== Proof.KernelHost.lean ====
/- The host operations before the kernel's region, read where the head needs them: each bias vector [N] is reshaped to
   a 1 x N array whose one row is the vector, and the region finds the three gathered arrays and the propagated
   knowledge features at the fold of the 233 host operations over the launch contents. -/
import proofs.«163362_j21320217657961_1_alg».proof.Proof.Gen.KernelIdeal.Frame
import Idealize.ShloMosaic.Lib.ValueIdx
import Idealize.ShloMosaic.Lib.ValueLayout
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- What the region finds in a buffer is the fold of the host operations before it over the launch contents. -/
theorem V_eq (c : Dev nD) (b : Ref sig .tc) :
    V m c b = after (hostOps0 (F := Ideal)) (launchContents m c) (Proc.devRef .tc b) := rfl

set_option maxHeartbeats 4000000 in
/-- The reshaped bias main_v180: its one row is the argument vector main_arg16. -/
theorem bias180 (c : Dev nD) (j : Fin 128) :
    V m c main_v180 (ix2 (0 : Fin 1) j) = m ((c : Thread nD τ).loc main_arg16) (ix1 j) := by
  have e : (V m c main_v180 : S1x128.Idx → EReal)
      = shapeCast S1x128 (m ((c : Thread nD τ).loc main_arg16) : S128.Idx → EReal) shapeCasts_S128_S1x128 := by
    show after (hostOps0 (F := Ideal)) (fun b => m (c, b)) (Proc.devRef .tc main_v180) = _
    simp only [hostOps0]
    after_results_simp
    rfl
  rw [e]
  exact shapeCast_a_1a_apply _ _ (0 : Fin 1) j

set_option maxHeartbeats 4000000 in
/-- The reshaped bias main_v181: its one row is the argument vector main_arg18. -/
theorem bias181 (c : Dev nD) (j : Fin 128) :
    V m c main_v181 (ix2 (0 : Fin 1) j) = m ((c : Thread nD τ).loc main_arg18) (ix1 j) := by
  have e : (V m c main_v181 : S1x128.Idx → EReal)
      = shapeCast S1x128 (m ((c : Thread nD τ).loc main_arg18) : S128.Idx → EReal) shapeCasts_S128_S1x128 := by
    show after (hostOps0 (F := Ideal)) (fun b => m (c, b)) (Proc.devRef .tc main_v181) = _
    simp only [hostOps0]
    after_results_simp
    rfl
  rw [e]
  exact shapeCast_a_1a_apply _ _ (0 : Fin 1) j

set_option maxHeartbeats 4000000 in
/-- The reshaped bias main_v182: its one row is the argument vector main_arg20. -/
theorem bias182 (c : Dev nD) (j : Fin 128) :
    V m c main_v182 (ix2 (0 : Fin 1) j) = m ((c : Thread nD τ).loc main_arg20) (ix1 j) := by
  have e : (V m c main_v182 : S1x128.Idx → EReal)
      = shapeCast S1x128 (m ((c : Thread nD τ).loc main_arg20) : S128.Idx → EReal) shapeCasts_S128_S1x128 := by
    show after (hostOps0 (F := Ideal)) (fun b => m (c, b)) (Proc.devRef .tc main_v182) = _
    simp only [hostOps0]
    after_results_simp
    rfl
  rw [e]
  exact shapeCast_a_1a_apply _ _ (0 : Fin 1) j

set_option maxHeartbeats 4000000 in
/-- The reshaped bias main_v183: its one row is the argument vector main_arg22. -/
theorem bias183 (c : Dev nD) (j : Fin 1) :
    V m c main_v183 (ix2 (0 : Fin 1) j) = m ((c : Thread nD τ).loc main_arg22) (ix1 j) := by
  have e : (V m c main_v183 : S1x1.Idx → EReal)
      = shapeCast S1x1 (m ((c : Thread nD τ).loc main_arg22) : S1.Idx → EReal) shapeCasts_S1_S1x1 := by
    show after (hostOps0 (F := Ideal)) (fun b => m (c, b)) (Proc.devRef .tc main_v183) = _
    simp only [hostOps0]
    after_results_simp
    rfl
  rw [e]
  exact shapeCast_a_1a_apply _ _ (0 : Fin 1) j

set_option maxHeartbeats 4000000 in
/-- The reshaped bias main_v184: its one row is the argument vector main_arg24. -/
theorem bias184 (c : Dev nD) (j : Fin 512) :
    V m c main_v184 (ix2 (0 : Fin 1) j) = m ((c : Thread nD τ).loc main_arg24) (ix1 j) := by
  have e : (V m c main_v184 : S1x512.Idx → EReal)
      = shapeCast S1x512 (m ((c : Thread nD τ).loc main_arg24) : S512.Idx → EReal) shapeCasts_S512_S1x512 := by
    show after (hostOps0 (F := Ideal)) (fun b => m (c, b)) (Proc.devRef .tc main_v184) = _
    simp only [hostOps0]
    after_results_simp
    rfl
  rw [e]
  exact shapeCast_a_1a_apply _ _ (0 : Fin 1) j

set_option maxHeartbeats 4000000 in
/-- The reshaped bias main_v185: its one row is the argument vector main_arg26. -/
theorem bias185 (c : Dev nD) (j : Fin 256) :
    V m c main_v185 (ix2 (0 : Fin 1) j) = m ((c : Thread nD τ).loc main_arg26) (ix1 j) := by
  have e : (V m c main_v185 : S1x256.Idx → EReal)
      = shapeCast S1x256 (m ((c : Thread nD τ).loc main_arg26) : S256.Idx → EReal) shapeCasts_S256_S1x256 := by
    show after (hostOps0 (F := Ideal)) (fun b => m (c, b)) (Proc.devRef .tc main_v185) = _
    simp only [hostOps0]
    after_results_simp
    rfl
  rw [e]
  exact shapeCast_a_1a_apply _ _ (0 : Fin 1) j

set_option maxHeartbeats 4000000 in
/-- The reshaped bias main_v186: its one row is the argument vector main_arg28. -/
theorem bias186 (c : Dev nD) (j : Fin 128) :
    V m c main_v186 (ix2 (0 : Fin 1) j) = m ((c : Thread nD τ).loc main_arg28) (ix1 j) := by
  have e : (V m c main_v186 : S1x128.Idx → EReal)
      = shapeCast S1x128 (m ((c : Thread nD τ).loc main_arg28) : S128.Idx → EReal) shapeCasts_S128_S1x128 := by
    show after (hostOps0 (F := Ideal)) (fun b => m (c, b)) (Proc.devRef .tc main_v186) = _
    simp only [hostOps0]
    after_results_simp
    rfl
  rw [e]
  exact shapeCast_a_1a_apply _ _ (0 : Fin 1) j

set_option maxHeartbeats 4000000 in
/-- The reshaped bias main_v187: its one row is the argument vector main_arg30. -/
theorem bias187 (c : Dev nD) (j : Fin 1) :
    V m c main_v187 (ix2 (0 : Fin 1) j) = m ((c : Thread nD τ).loc main_arg30) (ix1 j) := by
  have e : (V m c main_v187 : S1x1.Idx → EReal)
      = shapeCast S1x1 (m ((c : Thread nD τ).loc main_arg30) : S1.Idx → EReal) shapeCasts_S1_S1x1 := by
    show after (hostOps0 (F := Ideal)) (fun b => m (c, b)) (Proc.devRef .tc main_v187) = _
    simp only [hostOps0]
    after_results_simp
    rfl
  rw [e]
  exact shapeCast_a_1a_apply _ _ (0 : Fin 1) j

end Cert.KernelIdeal.Host

end
-- ==== Proof.RefOpsTable.lean ====
/- The reference program's @main as lists of its host operations, window by window: 60 + 60 + 60 operations for
   the three graph convolutions and the first index normalisations, then the fourth window in two lists (ops3a, which
   ends with the two row gathers cs[user_id] and ce[question_id], and ops3b, which starts the perceptron with the
   product of the gathered student rows and W_s), then the fifth.  Each of the three calls of the outlined
   leaky_relu (and the _where it calls) appears as the callee's seven operations over that call's own buffers,
   as the compiler's inlining leaves them.  Beside each list: every operation touches TensorCore buffers only, and the list of the buffers its operations write. -/
import proofs.«163362_j21320217657961_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- 60 operations of the reference's @main, in order. -/
abbrev ops0 : List (HloOp τ sig (Elt F)) :=
  [ StableHlo.unary main_arg5 main_v0 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v1 (broadcastInDim S1600000 ![] bcast_S_S1600000 : (⟨S_, .i32⟩ : BufTy).Contents (Elt F) → (⟨S1600000, .i32⟩ : BufTy).Contents (Elt F)),
    StableHlo.binary main_arg4 main_v1 main_v2 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v3 (broadcastInDim S1600000 ![] bcast_S_S1600000 : (⟨S_, .i32⟩ : BufTy).Contents (Elt F) → (⟨S1600000, .i32⟩ : BufTy).Contents (Elt F)),
    StableHlo.binary main_arg4 main_v3 main_v4 (addi : (⟨S1600000, .i32⟩ : BufTy).Contents (Elt F) → (⟨S1600000, .i32⟩ : BufTy).Contents (Elt F) → (⟨S1600000, .i32⟩ : BufTy).Contents (Elt F)),
    StableHlo.ternary main_v2 main_v4 main_arg4 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v5 main_v6 (broadcastInDim S1600000x1 ![0] bcast_S1600000_S1600000x1_0 : (⟨S1600000, .i32⟩ : BufTy).Contents (Elt F) → (⟨S1600000x1, .i32⟩ : BufTy).Contents (Elt F)),
    StableHlo.binary main_arg12 main_v6 main_v7 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    StableHlo.unary main_v0 main_v8 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v8 main_v7 main_v9 (mulf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v10 (broadcastInDim S50000x64 ![] bcast_S_S50000x64 : (⟨S_, .f32⟩ : BufTy).Contents (Elt F) → (⟨S50000x64, .f32⟩ : BufTy).Contents (Elt F)),
    StableHlo.unary main_arg3 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    StableHlo.nullary main_cst_1 (constant S_ .f32 0x3F4CCCCD#32),
    StableHlo.unary main_cst_1 main_v13 (broadcastInDim S50000x64 ![] bcast_S_S50000x64 : (⟨S_, .f32⟩ : BufTy).Contents (Elt F) → (⟨S50000x64, .f32⟩ : BufTy).Contents (Elt F)),
    StableHlo.binary main_v13 main_arg12 main_v14 (mulf : (⟨S50000x64, .f32⟩ : BufTy).Contents (Elt F) → (⟨S50000x64, .f32⟩ : BufTy).Contents (Elt F) → (⟨S50000x64, .f32⟩ : BufTy).Contents (Elt F)),
    StableHlo.binary main_v12 main_v14 main_v15 (addf : (⟨S50000x64, .f32⟩ : BufTy).Contents (Elt F) → (⟨S50000x64, .f32⟩ : BufTy).Contents (Elt F) → (⟨S50000x64, .f32⟩ : BufTy).Contents (Elt F)),
    StableHlo.binary main_arg12 main_v15 main_v16 (addf : (⟨S50000x64, .f32⟩ : BufTy).Contents (Elt F) → (⟨S50000x64, .f32⟩ : BufTy).Contents (Elt F) → (⟨S50000x64, .f32⟩ : BufTy).Contents (Elt F)),
    StableHlo.unary main_arg5 main_v17 (broadcastInDim S1600000x1 ![0] bcast_S1600000_S1600000x1_0 : (⟨S1600000, .f32⟩ : BufTy).Contents (Elt F) → (⟨S1600000x1, .f32⟩ : BufTy).Contents (Elt F)),
    StableHlo.nullary main_c_2 (constantI S_ 32 0#32),
    StableHlo.unary main_c_2 main_v18 (broadcastInDim S1600000 ![] bcast_S_S1600000 : (⟨S_, .i32⟩ : BufTy).Contents (Elt F) → (⟨S1600000, .i32⟩ : BufTy).Contents (Elt F)),
    StableHlo.binary main_arg4 main_v18 main_v19 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 50000#32),
    StableHlo.unary main_c_3 main_v20 (broadcastInDim S1600000 ![] bcast_S_S1600000 : (⟨S_, .i32⟩ : BufTy).Contents (Elt F) → (⟨S1600000, .i32⟩ : BufTy).Contents (Elt F)),
    StableHlo.binary main_arg4 main_v20 main_v21 (addi : (⟨S1600000, .i32⟩ : BufTy).Contents (Elt F) → (⟨S1600000, .i32⟩ : BufTy).Contents (Elt F) → (⟨S1600000, .i32⟩ : BufTy).Contents (Elt F)),
    StableHlo.ternary main_v19 main_v21 main_arg4 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v22 main_v23 (broadcastInDim S1600000x1 ![0] bcast_S1600000_S1600000x1_0 : (⟨S1600000, .i32⟩ : BufTy).Contents (Elt F) → (⟨S1600000x1, .i32⟩ : BufTy).Contents (Elt F)),
    StableHlo.binary main_v15 main_v23 main_v24 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    StableHlo.unary main_v17 main_v25 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v25 main_v24 main_v26 (mulf : (⟨S1600000x64, .f32⟩ : BufTy).Contents (Elt F) → (⟨S1600000x64, .f32⟩ : BufTy).Contents (Elt F) → (⟨S1600000x64, .f32⟩ : BufTy).Contents (Elt F)),
    StableHlo.nullary main_cst_4 (constant S_ .f32 0x00000000#32),
    StableHlo.unary main_cst_4 main_v27 (broadcastInDim S50000x64 ![] bcast_S_S50000x64 : (⟨S_, .f32⟩ : BufTy).Contents (Elt F) → (⟨S50000x64, .f32⟩ : BufTy).Contents (Elt F)),
    StableHlo.unary main_arg3 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_v26 main_v29 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    StableHlo.nullary main_cst_5 (constant S_ .f32 0x3F4CCCCD#32),
    StableHlo.unary main_cst_5 main_v30 (broadcastInDim S50000x64 ![] bcast_S_S50000x64 : (⟨S_, .f32⟩ : BufTy).Contents (Elt F) → (⟨S50000x64, .f32⟩ : BufTy).Contents (Elt F)),
    StableHlo.binary main_v30 main_v15 main_v31 (mulf : (⟨S50000x64, .f32⟩ : BufTy).Contents (Elt F) → (⟨S50000x64, .f32⟩ : BufTy).Contents (Elt F) → (⟨S50000x64, .f32⟩ : BufTy).Contents (Elt F)),
    StableHlo.binary main_v29 main_v31 main_v32 (addf : (⟨S50000x64, .f32⟩ : BufTy).Contents (Elt F) → (⟨S50000x64, .f32⟩ : BufTy).Contents (Elt F) → (⟨S50000x64, .f32⟩ : BufTy).Contents (Elt F)),
    StableHlo.binary main_v16 main_v32 main_v33 (addf : (⟨S50000x64, .f32⟩ : BufTy).Contents (Elt F) → (⟨S50000x64, .f32⟩ : BufTy).Contents (Elt F) → (⟨S50000x64, .f32⟩ : BufTy).Contents (Elt F)),
    StableHlo.unary main_arg5 main_v34 (broadcastInDim S1600000x1 ![0] bcast_S1600000_S1600000x1_0 : (⟨S1600000, .f32⟩ : BufTy).Contents (Elt F) → (⟨S1600000x1, .f32⟩ : BufTy).Contents (Elt F)),
    StableHlo.nullary main_c_6 (constantI S_ 32 0#32),
    StableHlo.unary main_c_6 main_v35 (broadcastInDim S1600000 ![] bcast_S_S1600000 : (⟨S_, .i32⟩ : BufTy).Contents (Elt F) → (⟨S1600000, .i32⟩ : BufTy).Contents (Elt F)),
    StableHlo.binary main_arg4 main_v35 main_v36 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 50000#32),
    StableHlo.unary main_c_7 main_v37 (broadcastInDim S1600000 ![] bcast_S_S1600000 : (⟨S_, .i32⟩ : BufTy).Contents (Elt F) → (⟨S1600000, .i32⟩ : BufTy).Contents (Elt F)),
    StableHlo.binary main_arg4 main_v37 main_v38 (addi : (⟨S1600000, .i32⟩ : BufTy).Contents (Elt F) → (⟨S1600000, .i32⟩ : BufTy).Contents (Elt F) → (⟨S1600000, .i32⟩ : BufTy).Contents (Elt F)),
    StableHlo.ternary main_v36 main_v38 main_arg4 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v39 main_v40 (broadcastInDim S1600000x1 ![0] bcast_S1600000_S1600000x1_0 : (⟨S1600000, .i32⟩ : BufTy).Contents (Elt F) → (⟨S1600000x1, .i32⟩ : BufTy).Contents (Elt F)),
    StableHlo.binary main_v32 main_v40 main_v41 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    StableHlo.unary main_v34 main_v42 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v42 main_v41 main_v43 (mulf : (⟨S1600000x64, .f32⟩ : BufTy).Contents (Elt F) → (⟨S1600000x64, .f32⟩ : BufTy).Contents (Elt F) → (⟨S1600000x64, .f32⟩ : BufTy).Contents (Elt F)),
    StableHlo.nullary main_cst_8 (constant S_ .f32 0x00000000#32),
    StableHlo.unary main_cst_8 main_v44 (broadcastInDim S50000x64 ![] bcast_S_S50000x64 : (⟨S_, .f32⟩ : BufTy).Contents (Elt F) → (⟨S50000x64, .f32⟩ : BufTy).Contents (Elt F)),
    StableHlo.unary main_arg3 main_v45 (broadcastInDim S1600000x1 ![0] bcast_S1600000_S1600000x1_0 : (⟨S1600000, .i32⟩ : BufTy).Contents (Elt F) → (⟨S1600000x1, .i32⟩ : BufTy).Contents (Elt F)),
    StableHlo.ternary main_v44 main_v45 main_v43 main_v46 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    StableHlo.nullary main_cst_9 (constant S_ .f32 0x3F4CCCCD#32),
    StableHlo.unary main_cst_9 main_v47 (broadcastInDim S50000x64 ![] bcast_S_S50000x64 : (⟨S_, .f32⟩ : BufTy).Contents (Elt F) → (⟨S50000x64, .f32⟩ : BufTy).Contents (Elt F)) ]

set_option maxRecDepth 8192 in
theorem ops0_sub : (ops0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub ..⟩

/-- The buffers ops0's operations write, in order. -/
abbrev ops0_W : List (Ref sig .tc) := [main_v0, main_c, main_v1, main_v2, main_c_0, main_v3, main_v4, main_v5, main_v6, main_v7, main_v8, main_v9, main_cst, main_v10, main_v11, main_v12, main_cst_1, main_v13, main_v14, main_v15, main_v16, main_v17, main_c_2, main_v18, main_v19, main_c_3, main_v20, main_v21, main_v22, main_v23, main_v24, main_v25, main_v26, main_cst_4, main_v27, main_v28, main_v29, main_cst_5, main_v30, main_v31, main_v32, main_v33, main_v34, main_c_6, main_v35, main_v36, main_c_7, main_v37, main_v38, main_v39, main_v40, main_v41, main_v42, main_v43, main_cst_8, main_v44, main_v45, main_v46, main_cst_9, main_v47]
set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- 60 operations of the reference's @main, in order. -/
abbrev ops1 : List (HloOp τ sig (Elt F)) :=
  [ StableHlo.binary main_v47 main_v32 main_v48 (mulf : (⟨S50000x64, .f32⟩ : BufTy).Contents (Elt F) → (⟨S50000x64, .f32⟩ : BufTy).Contents (Elt F) → (⟨S50000x64, .f32⟩ : BufTy).Contents (Elt F)),
    StableHlo.binary main_v46 main_v48 main_v49 (addf : (⟨S50000x64, .f32⟩ : BufTy).Contents (Elt F) → (⟨S50000x64, .f32⟩ : BufTy).Contents (Elt F) → (⟨S50000x64, .f32⟩ : BufTy).Contents (Elt F)),
    StableHlo.binary main_v33 main_v49 main_v50 (addf : (⟨S50000x64, .f32⟩ : BufTy).Contents (Elt F) → (⟨S50000x64, .f32⟩ : BufTy).Contents (Elt F) → (⟨S50000x64, .f32⟩ : BufTy).Contents (Elt F)),
    StableHlo.nullary main_cst_10 (constant S_ .f32 0x40800000#32),
    StableHlo.unary main_cst_10 main_v51 (broadcastInDim S50000x64 ![] bcast_S_S50000x64 : (⟨S_, .f32⟩ : BufTy).Contents (Elt F) → (⟨S50000x64, .f32⟩ : BufTy).Contents (Elt F)),
    StableHlo.binary main_v50 main_v51 main_v52 (Host.divf : (⟨S50000x64, .f32⟩ : BufTy).Contents (Elt F) → (⟨S50000x64, .f32⟩ : BufTy).Contents (Elt F) → (⟨S50000x64, .f32⟩ : BufTy).Contents (Elt F)),
    StableHlo.unary main_arg8 main_v53 (broadcastInDim S640000x1 ![0] bcast_S640000_S640000x1_0 : (⟨S640000, .f32⟩ : BufTy).Contents (Elt F) → (⟨S640000x1, .f32⟩ : BufTy).Contents (Elt F)),
    StableHlo.nullary main_c_11 (constantI S_ 32 0#32),
    StableHlo.unary main_c_11 main_v54 (broadcastInDim S640000 ![] bcast_S_S640000 : (⟨S_, .i32⟩ : BufTy).Contents (Elt F) → (⟨S640000, .i32⟩ : BufTy).Contents (Elt F)),
    StableHlo.binary main_arg7 main_v54 main_v55 (cmpi .slt : (⟨S640000, .i32⟩ : BufTy).Contents (Elt F) → (⟨S640000, .i32⟩ : BufTy).Contents (Elt F) → (⟨S640000, .i1⟩ : BufTy).Contents (Elt F)),
    StableHlo.nullary main_c_12 (constantI S_ 32 20000#32),
    StableHlo.unary main_c_12 main_v56 (broadcastInDim S640000 ![] bcast_S_S640000 : (⟨S_, .i32⟩ : BufTy).Contents (Elt F) → (⟨S640000, .i32⟩ : BufTy).Contents (Elt F)),
    StableHlo.binary main_arg7 main_v56 main_v57 (addi : (⟨S640000, .i32⟩ : BufTy).Contents (Elt F) → (⟨S640000, .i32⟩ : BufTy).Contents (Elt F) → (⟨S640000, .i32⟩ : BufTy).Contents (Elt F)),
    StableHlo.ternary main_v55 main_v57 main_arg7 main_v58 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v58 main_v59 (broadcastInDim S640000x1 ![0] bcast_S640000_S640000x1_0 : (⟨S640000, .i32⟩ : BufTy).Contents (Elt F) → (⟨S640000x1, .i32⟩ : BufTy).Contents (Elt F)),
    StableHlo.binary main_arg13 main_v59 main_v60 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    StableHlo.unary main_v53 main_v61 (broadcastInDim S640000x64 ![0, 1] bcast_S640000x1_S640000x64_0_1 : (⟨S640000x1, .f32⟩ : BufTy).Contents (Elt F) → (⟨S640000x64, .f32⟩ : BufTy).Contents (Elt F)),
    StableHlo.binary main_v61 main_v60 main_v62 (mulf : (⟨S640000x64, .f32⟩ : BufTy).Contents (Elt F) → (⟨S640000x64, .f32⟩ : BufTy).Contents (Elt F) → (⟨S640000x64, .f32⟩ : BufTy).Contents (Elt F)),
    StableHlo.nullary main_cst_13 (constant S_ .f32 0x00000000#32),
    StableHlo.unary main_cst_13 main_v63 (broadcastInDim S20000x64 ![] bcast_S_S20000x64 : (⟨S_, .f32⟩ : BufTy).Contents (Elt F) → (⟨S20000x64, .f32⟩ : BufTy).Contents (Elt F)),
    StableHlo.unary main_arg6 main_v64 (broadcastInDim S640000x1 ![0] bcast_S640000_S640000x1_0 : (⟨S640000, .i32⟩ : BufTy).Contents (Elt F) → (⟨S640000x1, .i32⟩ : BufTy).Contents (Elt F)),
    StableHlo.ternary main_v63 main_v64 main_v62 main_v65 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    StableHlo.nullary main_cst_14 (constant S_ .f32 0x3F4CCCCD#32),
    StableHlo.unary main_cst_14 main_v66 (broadcastInDim S20000x64 ![] bcast_S_S20000x64 : (⟨S_, .f32⟩ : BufTy).Contents (Elt F) → (⟨S20000x64, .f32⟩ : BufTy).Contents (Elt F)),
    StableHlo.binary main_v66 main_arg13 main_v67 (mulf : (⟨S20000x64, .f32⟩ : BufTy).Contents (Elt F) → (⟨S20000x64, .f32⟩ : BufTy).Contents (Elt F) → (⟨S20000x64, .f32⟩ : BufTy).Contents (Elt F)),
    StableHlo.binary main_v65 main_v67 main_v68 (addf : (⟨S20000x64, .f32⟩ : BufTy).Contents (Elt F) → (⟨S20000x64, .f32⟩ : BufTy).Contents (Elt F) → (⟨S20000x64, .f32⟩ : BufTy).Contents (Elt F)),
    StableHlo.binary main_arg13 main_v68 main_v69 (addf : (⟨S20000x64, .f32⟩ : BufTy).Contents (Elt F) → (⟨S20000x64, .f32⟩ : BufTy).Contents (Elt F) → (⟨S20000x64, .f32⟩ : BufTy).Contents (Elt F)),
    StableHlo.unary main_arg8 main_v70 (broadcastInDim S640000x1 ![0] bcast_S640000_S640000x1_0 : (⟨S640000, .f32⟩ : BufTy).Contents (Elt F) → (⟨S640000x1, .f32⟩ : BufTy).Contents (Elt F)),
    StableHlo.nullary main_c_15 (constantI S_ 32 0#32),
    StableHlo.unary main_c_15 main_v71 (broadcastInDim S640000 ![] bcast_S_S640000 : (⟨S_, .i32⟩ : BufTy).Contents (Elt F) → (⟨S640000, .i32⟩ : BufTy).Contents (Elt F)),
    StableHlo.binary main_arg7 main_v71 main_v72 (cmpi .slt : (⟨S640000, .i32⟩ : BufTy).Contents (Elt F) → (⟨S640000, .i32⟩ : BufTy).Contents (Elt F) → (⟨S640000, .i1⟩ : BufTy).Contents (Elt F)),
    StableHlo.nullary main_c_16 (constantI S_ 32 20000#32),
    StableHlo.unary main_c_16 main_v73 (broadcastInDim S640000 ![] bcast_S_S640000 : (⟨S_, .i32⟩ : BufTy).Contents (Elt F) → (⟨S640000, .i32⟩ : BufTy).Contents (Elt F)),
    StableHlo.binary main_arg7 main_v73 main_v74 (addi : (⟨S640000, .i32⟩ : BufTy).Contents (Elt F) → (⟨S640000, .i32⟩ : BufTy).Contents (Elt F) → (⟨S640000, .i32⟩ : BufTy).Contents (Elt F)),
    StableHlo.ternary main_v72 main_v74 main_arg7 main_v75 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v75 main_v76 (broadcastInDim S640000x1 ![0] bcast_S640000_S640000x1_0 : (⟨S640000, .i32⟩ : BufTy).Contents (Elt F) → (⟨S640000x1, .i32⟩ : BufTy).Contents (Elt F)),
    StableHlo.binary main_v68 main_v76 main_v77 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    StableHlo.unary main_v70 main_v78 (broadcastInDim S640000x64 ![0, 1] bcast_S640000x1_S640000x64_0_1 : (⟨S640000x1, .f32⟩ : BufTy).Contents (Elt F) → (⟨S640000x64, .f32⟩ : BufTy).Contents (Elt F)),
    StableHlo.binary main_v78 main_v77 main_v79 (mulf : (⟨S640000x64, .f32⟩ : BufTy).Contents (Elt F) → (⟨S640000x64, .f32⟩ : BufTy).Contents (Elt F) → (⟨S640000x64, .f32⟩ : BufTy).Contents (Elt F)),
    StableHlo.nullary main_cst_17 (constant S_ .f32 0x00000000#32),
    StableHlo.unary main_cst_17 main_v80 (broadcastInDim S20000x64 ![] bcast_S_S20000x64 : (⟨S_, .f32⟩ : BufTy).Contents (Elt F) → (⟨S20000x64, .f32⟩ : BufTy).Contents (Elt F)),
    StableHlo.unary main_arg6 main_v81 (broadcastInDim S640000x1 ![0] bcast_S640000_S640000x1_0 : (⟨S640000, .i32⟩ : BufTy).Contents (Elt F) → (⟨S640000x1, .i32⟩ : BufTy).Contents (Elt F)),
    StableHlo.ternary main_v80 main_v81 main_v79 main_v82 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    StableHlo.nullary main_cst_18 (constant S_ .f32 0x3F4CCCCD#32),
    StableHlo.unary main_cst_18 main_v83 (broadcastInDim S20000x64 ![] bcast_S_S20000x64 : (⟨S_, .f32⟩ : BufTy).Contents (Elt F) → (⟨S20000x64, .f32⟩ : BufTy).Contents (Elt F)),
    StableHlo.binary main_v83 main_v68 main_v84 (mulf : (⟨S20000x64, .f32⟩ : BufTy).Contents (Elt F) → (⟨S20000x64, .f32⟩ : BufTy).Contents (Elt F) → (⟨S20000x64, .f32⟩ : BufTy).Contents (Elt F)),
    StableHlo.binary main_v82 main_v84 main_v85 (addf : (⟨S20000x64, .f32⟩ : BufTy).Contents (Elt F) → (⟨S20000x64, .f32⟩ : BufTy).Contents (Elt F) → (⟨S20000x64, .f32⟩ : BufTy).Contents (Elt F)),
    StableHlo.binary main_v69 main_v85 main_v86 (addf : (⟨S20000x64, .f32⟩ : BufTy).Contents (Elt F) → (⟨S20000x64, .f32⟩ : BufTy).Contents (Elt F) → (⟨S20000x64, .f32⟩ : BufTy).Contents (Elt F)),
    StableHlo.unary main_arg8 main_v87 (broadcastInDim S640000x1 ![0] bcast_S640000_S640000x1_0 : (⟨S640000, .f32⟩ : BufTy).Contents (Elt F) → (⟨S640000x1, .f32⟩ : BufTy).Contents (Elt F)),
    StableHlo.nullary main_c_19 (constantI S_ 32 0#32),
    StableHlo.unary main_c_19 main_v88 (broadcastInDim S640000 ![] bcast_S_S640000 : (⟨S_, .i32⟩ : BufTy).Contents (Elt F) → (⟨S640000, .i32⟩ : BufTy).Contents (Elt F)),
    StableHlo.binary main_arg7 main_v88 main_v89 (cmpi .slt : (⟨S640000, .i32⟩ : BufTy).Contents (Elt F) → (⟨S640000, .i32⟩ : BufTy).Contents (Elt F) → (⟨S640000, .i1⟩ : BufTy).Contents (Elt F)),
    StableHlo.nullary main_c_20 (constantI S_ 32 20000#32),
    StableHlo.unary main_c_20 main_v90 (broadcastInDim S640000 ![] bcast_S_S640000 : (⟨S_, .i32⟩ : BufTy).Contents (Elt F) → (⟨S640000, .i32⟩ : BufTy).Contents (Elt F)),
    StableHlo.binary main_arg7 main_v90 main_v91 (addi : (⟨S640000, .i32⟩ : BufTy).Contents (Elt F) → (⟨S640000, .i32⟩ : BufTy).Contents (Elt F) → (⟨S640000, .i32⟩ : BufTy).Contents (Elt F)),
    StableHlo.ternary main_v89 main_v91 main_arg7 main_v92 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v92 main_v93 (broadcastInDim S640000x1 ![0] bcast_S640000_S640000x1_0 : (⟨S640000, .i32⟩ : BufTy).Contents (Elt F) → (⟨S640000x1, .i32⟩ : BufTy).Contents (Elt F)),
    StableHlo.binary main_v85 main_v93 main_v94 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    StableHlo.unary main_v87 main_v95 (broadcastInDim S640000x64 ![0, 1] bcast_S640000x1_S640000x64_0_1 : (⟨S640000x1, .f32⟩ : BufTy).Contents (Elt F) → (⟨S640000x64, .f32⟩ : BufTy).Contents (Elt F)),
    StableHlo.binary main_v95 main_v94 main_v96 (mulf : (⟨S640000x64, .f32⟩ : BufTy).Contents (Elt F) → (⟨S640000x64, .f32⟩ : BufTy).Contents (Elt F) → (⟨S640000x64, .f32⟩ : BufTy).Contents (Elt F)) ]

set_option maxRecDepth 8192 in
theorem ops1_sub : (ops1 : List (HloOp τ sig (Elt F))).Forall fun op => op.bufs ⊆ tcRefs τ sig :=
  ⟨binary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

/-- The buffers ops1's operations write, in order. -/
abbrev ops1_W : List (Ref sig .tc) := [main_v48, main_v49, main_v50, main_cst_10, main_v51, main_v52, main_v53, main_c_11, main_v54, main_v55, main_c_12, main_v56, main_v57, main_v58, main_v59, main_v60, main_v61, main_v62, main_cst_13, main_v63, main_v64, main_v65, main_cst_14, main_v66, main_v67, main_v68, main_v69, main_v70, main_c_15, main_v71, main_v72, main_c_16, main_v73, main_v74, main_v75, main_v76, main_v77, main_v78, main_v79, main_cst_17, main_v80, main_v81, main_v82, main_cst_18, main_v83, main_v84, main_v85, main_v86, main_v87, main_c_19, main_v88, main_v89, main_c_20, main_v90, main_v91, main_v92, main_v93, main_v94, main_v95, main_v96]
set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- 60 operations of the reference's @main, in order. -/
abbrev ops2 : List (HloOp τ sig (Elt F)) :=
  [ StableHlo.nullary main_cst_21 (constant S_ .f32 0x00000000#32),
    StableHlo.unary main_cst_21 main_v97 (broadcastInDim S20000x64 ![] bcast_S_S20000x64 : (⟨S_, .f32⟩ : BufTy).Contents (Elt F) → (⟨S20000x64, .f32⟩ : BufTy).Contents (Elt F)),
    StableHlo.unary main_arg6 main_v98 (broadcastInDim S640000x1 ![0] bcast_S640000_S640000x1_0 : (⟨S640000, .i32⟩ : BufTy).Contents (Elt F) → (⟨S640000x1, .i32⟩ : BufTy).Contents (Elt F)),
    StableHlo.ternary main_v97 main_v98 main_v96 main_v99 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    StableHlo.nullary main_cst_22 (constant S_ .f32 0x3F4CCCCD#32),
    StableHlo.unary main_cst_22 main_v100 (broadcastInDim S20000x64 ![] bcast_S_S20000x64 : (⟨S_, .f32⟩ : BufTy).Contents (Elt F) → (⟨S20000x64, .f32⟩ : BufTy).Contents (Elt F)),
    StableHlo.binary main_v100 main_v85 main_v101 (mulf : (⟨S20000x64, .f32⟩ : BufTy).Contents (Elt F) → (⟨S20000x64, .f32⟩ : BufTy).Contents (Elt F) → (⟨S20000x64, .f32⟩ : BufTy).Contents (Elt F)),
    StableHlo.binary main_v99 main_v101 main_v102 (addf : (⟨S20000x64, .f32⟩ : BufTy).Contents (Elt F) → (⟨S20000x64, .f32⟩ : BufTy).Contents (Elt F) → (⟨S20000x64, .f32⟩ : BufTy).Contents (Elt F)),
    StableHlo.binary main_v86 main_v102 main_v103 (addf : (⟨S20000x64, .f32⟩ : BufTy).Contents (Elt F) → (⟨S20000x64, .f32⟩ : BufTy).Contents (Elt F) → (⟨S20000x64, .f32⟩ : BufTy).Contents (Elt F)),
    StableHlo.nullary main_cst_23 (constant S_ .f32 0x40800000#32),
    StableHlo.unary main_cst_23 main_v104 (broadcastInDim S20000x64 ![] bcast_S_S20000x64 : (⟨S_, .f32⟩ : BufTy).Contents (Elt F) → (⟨S20000x64, .f32⟩ : BufTy).Contents (Elt F)),
    StableHlo.binary main_v103 main_v104 main_v105 (Host.divf : (⟨S20000x64, .f32⟩ : BufTy).Contents (Elt F) → (⟨S20000x64, .f32⟩ : BufTy).Contents (Elt F) → (⟨S20000x64, .f32⟩ : BufTy).Contents (Elt F)),
    StableHlo.unary main_arg11 main_v106 (broadcastInDim S16384x1 ![0] bcast_S16384_S16384x1_0 : (⟨S16384, .f32⟩ : BufTy).Contents (Elt F) → (⟨S16384x1, .f32⟩ : BufTy).Contents (Elt F)),
    StableHlo.nullary main_c_24 (constantI S_ 32 0#32),
    StableHlo.unary main_c_24 main_v107 (broadcastInDim S16384 ![] bcast_S_S16384 : (⟨S_, .i32⟩ : BufTy).Contents (Elt F) → (⟨S16384, .i32⟩ : BufTy).Contents (Elt F)),
    StableHlo.binary main_arg10 main_v107 main_v108 (cmpi .slt : (⟨S16384, .i32⟩ : BufTy).Contents (Elt F) → (⟨S16384, .i32⟩ : BufTy).Contents (Elt F) → (⟨S16384, .i1⟩ : BufTy).Contents (Elt F)),
    StableHlo.nullary main_c_25 (constantI S_ 32 512#32),
    StableHlo.unary main_c_25 main_v109 (broadcastInDim S16384 ![] bcast_S_S16384 : (⟨S_, .i32⟩ : BufTy).Contents (Elt F) → (⟨S16384, .i32⟩ : BufTy).Contents (Elt F)),
    StableHlo.binary main_arg10 main_v109 main_v110 (addi : (⟨S16384, .i32⟩ : BufTy).Contents (Elt F) → (⟨S16384, .i32⟩ : BufTy).Contents (Elt F) → (⟨S16384, .i32⟩ : BufTy).Contents (Elt F)),
    StableHlo.ternary main_v108 main_v110 main_arg10 main_v111 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v111 main_v112 (broadcastInDim S16384x1 ![0] bcast_S16384_S16384x1_0 : (⟨S16384, .i32⟩ : BufTy).Contents (Elt F) → (⟨S16384x1, .i32⟩ : BufTy).Contents (Elt F)),
    StableHlo.binary main_arg14 main_v112 main_v113 ((fun x i => Host.gather gather_S512x64_S16384x1_S16384x64_1_0_n_n_0_1_164 x i) : (⟨S512x64, .f32⟩ : BufTy).Contents (Elt F) → (⟨S16384x1, .i32⟩ : BufTy).Contents (Elt F) → (⟨S16384x64, .f32⟩ : BufTy).Contents (Elt F)),
    StableHlo.unary main_v106 main_v114 (broadcastInDim S16384x64 ![0, 1] bcast_S16384x1_S16384x64_0_1 : (⟨S16384x1, .f32⟩ : BufTy).Contents (Elt F) → (⟨S16384x64, .f32⟩ : BufTy).Contents (Elt F)),
    StableHlo.binary main_v114 main_v113 main_v115 (mulf : (⟨S16384x64, .f32⟩ : BufTy).Contents (Elt F) → (⟨S16384x64, .f32⟩ : BufTy).Contents (Elt F) → (⟨S16384x64, .f32⟩ : BufTy).Contents (Elt F)),
    StableHlo.nullary main_cst_26 (constant S_ .f32 0x00000000#32),
    StableHlo.unary main_cst_26 main_v116 (broadcastInDim S512x64 ![] bcast_S_S512x64 : (⟨S_, .f32⟩ : BufTy).Contents (Elt F) → (⟨S512x64, .f32⟩ : BufTy).Contents (Elt F)),
    StableHlo.unary main_arg9 main_v117 (broadcastInDim S16384x1 ![0] bcast_S16384_S16384x1_0 : (⟨S16384, .i32⟩ : BufTy).Contents (Elt F) → (⟨S16384x1, .i32⟩ : BufTy).Contents (Elt F)),
    StableHlo.ternary main_v116 main_v117 main_v115 main_v118 ((fun x i u => Host.scatterAdd scatter_S512x64_S16384x1_S16384x64_1_0_0_1 x i u) : (⟨S512x64, .f32⟩ : BufTy).Contents (Elt F) → (⟨S16384x1, .i32⟩ : BufTy).Contents (Elt F) → (⟨S16384x64, .f32⟩ : BufTy).Contents (Elt F) → (⟨S512x64, .f32⟩ : BufTy).Contents (Elt F)),
    StableHlo.nullary main_cst_27 (constant S_ .f32 0x3F4CCCCD#32),
    StableHlo.unary main_cst_27 main_v119 (broadcastInDim S512x64 ![] bcast_S_S512x64 : (⟨S_, .f32⟩ : BufTy).Contents (Elt F) → (⟨S512x64, .f32⟩ : BufTy).Contents (Elt F)),
    StableHlo.binary main_v119 main_arg14 main_v120 (mulf : (⟨S512x64, .f32⟩ : BufTy).Contents (Elt F) → (⟨S512x64, .f32⟩ : BufTy).Contents (Elt F) → (⟨S512x64, .f32⟩ : BufTy).Contents (Elt F)),
    StableHlo.binary main_v118 main_v120 main_v121 (addf : (⟨S512x64, .f32⟩ : BufTy).Contents (Elt F) → (⟨S512x64, .f32⟩ : BufTy).Contents (Elt F) → (⟨S512x64, .f32⟩ : BufTy).Contents (Elt F)),
    StableHlo.binary main_arg14 main_v121 main_v122 (addf : (⟨S512x64, .f32⟩ : BufTy).Contents (Elt F) → (⟨S512x64, .f32⟩ : BufTy).Contents (Elt F) → (⟨S512x64, .f32⟩ : BufTy).Contents (Elt F)),
    StableHlo.unary main_arg11 main_v123 (broadcastInDim S16384x1 ![0] bcast_S16384_S16384x1_0 : (⟨S16384, .f32⟩ : BufTy).Contents (Elt F) → (⟨S16384x1, .f32⟩ : BufTy).Contents (Elt F)),
    StableHlo.nullary main_c_28 (constantI S_ 32 0#32),
    StableHlo.unary main_c_28 main_v124 (broadcastInDim S16384 ![] bcast_S_S16384 : (⟨S_, .i32⟩ : BufTy).Contents (Elt F) → (⟨S16384, .i32⟩ : BufTy).Contents (Elt F)),
    StableHlo.binary main_arg10 main_v124 main_v125 (cmpi .slt : (⟨S16384, .i32⟩ : BufTy).Contents (Elt F) → (⟨S16384, .i32⟩ : BufTy).Contents (Elt F) → (⟨S16384, .i1⟩ : BufTy).Contents (Elt F)),
    StableHlo.nullary main_c_29 (constantI S_ 32 512#32),
    StableHlo.unary main_c_29 main_v126 (broadcastInDim S16384 ![] bcast_S_S16384 : (⟨S_, .i32⟩ : BufTy).Contents (Elt F) → (⟨S16384, .i32⟩ : BufTy).Contents (Elt F)),
    StableHlo.binary main_arg10 main_v126 main_v127 (addi : (⟨S16384, .i32⟩ : BufTy).Contents (Elt F) → (⟨S16384, .i32⟩ : BufTy).Contents (Elt F) → (⟨S16384, .i32⟩ : BufTy).Contents (Elt F)),
    StableHlo.ternary main_v125 main_v127 main_arg10 main_v128 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v128 main_v129 (broadcastInDim S16384x1 ![0] bcast_S16384_S16384x1_0 : (⟨S16384, .i32⟩ : BufTy).Contents (Elt F) → (⟨S16384x1, .i32⟩ : BufTy).Contents (Elt F)),
    StableHlo.binary main_v121 main_v129 main_v130 ((fun x i => Host.gather gather_S512x64_S16384x1_S16384x64_1_0_n_n_0_1_164 x i) : (⟨S512x64, .f32⟩ : BufTy).Contents (Elt F) → (⟨S16384x1, .i32⟩ : BufTy).Contents (Elt F) → (⟨S16384x64, .f32⟩ : BufTy).Contents (Elt F)),
    StableHlo.unary main_v123 main_v131 (broadcastInDim S16384x64 ![0, 1] bcast_S16384x1_S16384x64_0_1 : (⟨S16384x1, .f32⟩ : BufTy).Contents (Elt F) → (⟨S16384x64, .f32⟩ : BufTy).Contents (Elt F)),
    StableHlo.binary main_v131 main_v130 main_v132 (mulf : (⟨S16384x64, .f32⟩ : BufTy).Contents (Elt F) → (⟨S16384x64, .f32⟩ : BufTy).Contents (Elt F) → (⟨S16384x64, .f32⟩ : BufTy).Contents (Elt F)),
    StableHlo.nullary main_cst_30 (constant S_ .f32 0x00000000#32),
    StableHlo.unary main_cst_30 main_v133 (broadcastInDim S512x64 ![] bcast_S_S512x64 : (⟨S_, .f32⟩ : BufTy).Contents (Elt F) → (⟨S512x64, .f32⟩ : BufTy).Contents (Elt F)),
    StableHlo.unary main_arg9 main_v134 (broadcastInDim S16384x1 ![0] bcast_S16384_S16384x1_0 : (⟨S16384, .i32⟩ : BufTy).Contents (Elt F) → (⟨S16384x1, .i32⟩ : BufTy).Contents (Elt F)),
    StableHlo.ternary main_v133 main_v134 main_v132 main_v135 ((fun x i u => Host.scatterAdd scatter_S512x64_S16384x1_S16384x64_1_0_0_1 x i u) : (⟨S512x64, .f32⟩ : BufTy).Contents (Elt F) → (⟨S16384x1, .i32⟩ : BufTy).Contents (Elt F) → (⟨S16384x64, .f32⟩ : BufTy).Contents (Elt F) → (⟨S512x64, .f32⟩ : BufTy).Contents (Elt F)),
    StableHlo.nullary main_cst_31 (constant S_ .f32 0x3F4CCCCD#32),
    StableHlo.unary main_cst_31 main_v136 (broadcastInDim S512x64 ![] bcast_S_S512x64 : (⟨S_, .f32⟩ : BufTy).Contents (Elt F) → (⟨S512x64, .f32⟩ : BufTy).Contents (Elt F)),
    StableHlo.binary main_v136 main_v121 main_v137 (mulf : (⟨S512x64, .f32⟩ : BufTy).Contents (Elt F) → (⟨S512x64, .f32⟩ : BufTy).Contents (Elt F) → (⟨S512x64, .f32⟩ : BufTy).Contents (Elt F)),
    StableHlo.binary main_v135 main_v137 main_v138 (addf : (⟨S512x64, .f32⟩ : BufTy).Contents (Elt F) → (⟨S512x64, .f32⟩ : BufTy).Contents (Elt F) → (⟨S512x64, .f32⟩ : BufTy).Contents (Elt F)),
    StableHlo.binary main_v122 main_v138 main_v139 (addf : (⟨S512x64, .f32⟩ : BufTy).Contents (Elt F) → (⟨S512x64, .f32⟩ : BufTy).Contents (Elt F) → (⟨S512x64, .f32⟩ : BufTy).Contents (Elt F)),
    StableHlo.unary main_arg11 main_v140 (broadcastInDim S16384x1 ![0] bcast_S16384_S16384x1_0 : (⟨S16384, .f32⟩ : BufTy).Contents (Elt F) → (⟨S16384x1, .f32⟩ : BufTy).Contents (Elt F)),
    StableHlo.nullary main_c_32 (constantI S_ 32 0#32),
    StableHlo.unary main_c_32 main_v141 (broadcastInDim S16384 ![] bcast_S_S16384 : (⟨S_, .i32⟩ : BufTy).Contents (Elt F) → (⟨S16384, .i32⟩ : BufTy).Contents (Elt F)),
    StableHlo.binary main_arg10 main_v141 main_v142 (cmpi .slt : (⟨S16384, .i32⟩ : BufTy).Contents (Elt F) → (⟨S16384, .i32⟩ : BufTy).Contents (Elt F) → (⟨S16384, .i1⟩ : BufTy).Contents (Elt F)),
    StableHlo.nullary main_c_33 (constantI S_ 32 512#32),
    StableHlo.unary main_c_33 main_v143 (broadcastInDim S16384 ![] bcast_S_S16384 : (⟨S_, .i32⟩ : BufTy).Contents (Elt F) → (⟨S16384, .i32⟩ : BufTy).Contents (Elt F)) ]

set_option maxRecDepth 8192 in
theorem ops2_sub : (ops2 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub ..⟩

/-- The buffers ops2's operations write, in order. -/
abbrev ops2_W : List (Ref sig .tc) := [main_cst_21, main_v97, main_v98, main_v99, main_cst_22, main_v100, main_v101, main_v102, main_v103, main_cst_23, main_v104, main_v105, main_v106, main_c_24, main_v107, main_v108, main_c_25, main_v109, main_v110, main_v111, main_v112, main_v113, main_v114, main_v115, main_cst_26, main_v116, main_v117, main_v118, main_cst_27, main_v119, main_v120, main_v121, main_v122, main_v123, main_c_28, main_v124, main_v125, main_c_29, main_v126, main_v127, main_v128, main_v129, main_v130, main_v131, main_v132, main_cst_30, main_v133, main_v134, main_v135, main_cst_31, main_v136, main_v137, main_v138, main_v139, main_v140, main_c_32, main_v141, main_v142, main_c_33, main_v143]
set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- 36 operations of the reference's @main, in order. -/
abbrev ops3a : List (HloOp τ sig (Elt F)) :=
  [ StableHlo.binary main_arg10 main_v143 main_v144 (addi : (⟨S16384, .i32⟩ : BufTy).Contents (Elt F) → (⟨S16384, .i32⟩ : BufTy).Contents (Elt F) → (⟨S16384, .i32⟩ : BufTy).Contents (Elt F)),
    StableHlo.ternary main_v142 main_v144 main_arg10 main_v145 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v145 main_v146 (broadcastInDim S16384x1 ![0] bcast_S16384_S16384x1_0 : (⟨S16384, .i32⟩ : BufTy).Contents (Elt F) → (⟨S16384x1, .i32⟩ : BufTy).Contents (Elt F)),
    StableHlo.binary main_v138 main_v146 main_v147 ((fun x i => Host.gather gather_S512x64_S16384x1_S16384x64_1_0_n_n_0_1_164 x i) : (⟨S512x64, .f32⟩ : BufTy).Contents (Elt F) → (⟨S16384x1, .i32⟩ : BufTy).Contents (Elt F) → (⟨S16384x64, .f32⟩ : BufTy).Contents (Elt F)),
    StableHlo.unary main_v140 main_v148 (broadcastInDim S16384x64 ![0, 1] bcast_S16384x1_S16384x64_0_1 : (⟨S16384x1, .f32⟩ : BufTy).Contents (Elt F) → (⟨S16384x64, .f32⟩ : BufTy).Contents (Elt F)),
    StableHlo.binary main_v148 main_v147 main_v149 (mulf : (⟨S16384x64, .f32⟩ : BufTy).Contents (Elt F) → (⟨S16384x64, .f32⟩ : BufTy).Contents (Elt F) → (⟨S16384x64, .f32⟩ : BufTy).Contents (Elt F)),
    StableHlo.nullary main_cst_34 (constant S_ .f32 0x00000000#32),
    StableHlo.unary main_cst_34 main_v150 (broadcastInDim S512x64 ![] bcast_S_S512x64 : (⟨S_, .f32⟩ : BufTy).Contents (Elt F) → (⟨S512x64, .f32⟩ : BufTy).Contents (Elt F)),
    StableHlo.unary main_arg9 main_v151 (broadcastInDim S16384x1 ![0] bcast_S16384_S16384x1_0 : (⟨S16384, .i32⟩ : BufTy).Contents (Elt F) → (⟨S16384x1, .i32⟩ : BufTy).Contents (Elt F)),
    StableHlo.ternary main_v150 main_v151 main_v149 main_v152 ((fun x i u => Host.scatterAdd scatter_S512x64_S16384x1_S16384x64_1_0_0_1 x i u) : (⟨S512x64, .f32⟩ : BufTy).Contents (Elt F) → (⟨S16384x1, .i32⟩ : BufTy).Contents (Elt F) → (⟨S16384x64, .f32⟩ : BufTy).Contents (Elt F) → (⟨S512x64, .f32⟩ : BufTy).Contents (Elt F)),
    StableHlo.nullary main_cst_35 (constant S_ .f32 0x3F4CCCCD#32),
    StableHlo.unary main_cst_35 main_v153 (broadcastInDim S512x64 ![] bcast_S_S512x64 : (⟨S_, .f32⟩ : BufTy).Contents (Elt F) → (⟨S512x64, .f32⟩ : BufTy).Contents (Elt F)),
    StableHlo.binary main_v153 main_v138 main_v154 (mulf : (⟨S512x64, .f32⟩ : BufTy).Contents (Elt F) → (⟨S512x64, .f32⟩ : BufTy).Contents (Elt F) → (⟨S512x64, .f32⟩ : BufTy).Contents (Elt F)),
    StableHlo.binary main_v152 main_v154 main_v155 (addf : (⟨S512x64, .f32⟩ : BufTy).Contents (Elt F) → (⟨S512x64, .f32⟩ : BufTy).Contents (Elt F) → (⟨S512x64, .f32⟩ : BufTy).Contents (Elt F)),
    StableHlo.binary main_v139 main_v155 main_v156 (addf : (⟨S512x64, .f32⟩ : BufTy).Contents (Elt F) → (⟨S512x64, .f32⟩ : BufTy).Contents (Elt F) → (⟨S512x64, .f32⟩ : BufTy).Contents (Elt F)),
    StableHlo.nullary main_cst_36 (constant S_ .f32 0x40800000#32),
    StableHlo.unary main_cst_36 main_v157 (broadcastInDim S512x64 ![] bcast_S_S512x64 : (⟨S_, .f32⟩ : BufTy).Contents (Elt F) → (⟨S512x64, .f32⟩ : BufTy).Contents (Elt F)),
    StableHlo.binary main_v156 main_v157 main_v158 (Host.divf : (⟨S512x64, .f32⟩ : BufTy).Contents (Elt F) → (⟨S512x64, .f32⟩ : BufTy).Contents (Elt F) → (⟨S512x64, .f32⟩ : BufTy).Contents (Elt F)),
    StableHlo.nullary main_c_37 (constantI S_ 32 0#32),
    StableHlo.unary main_c_37 main_v159 (broadcastInDim S16384 ![] bcast_S_S16384 : (⟨S_, .i32⟩ : BufTy).Contents (Elt F) → (⟨S16384, .i32⟩ : BufTy).Contents (Elt F)),
    StableHlo.binary main_arg0 main_v159 main_v160 (cmpi .slt : (⟨S16384, .i32⟩ : BufTy).Contents (Elt F) → (⟨S16384, .i32⟩ : BufTy).Contents (Elt F) → (⟨S16384, .i1⟩ : BufTy).Contents (Elt F)),
    StableHlo.nullary main_c_38 (constantI S_ 32 50000#32),
    StableHlo.unary main_c_38 main_v161 (broadcastInDim S16384 ![] bcast_S_S16384 : (⟨S_, .i32⟩ : BufTy).Contents (Elt F) → (⟨S16384, .i32⟩ : BufTy).Contents (Elt F)),
    StableHlo.binary main_arg0 main_v161 main_v162 (addi : (⟨S16384, .i32⟩ : BufTy).Contents (Elt F) → (⟨S16384, .i32⟩ : BufTy).Contents (Elt F) → (⟨S16384, .i32⟩ : BufTy).Contents (Elt F)),
    StableHlo.ternary main_v160 main_v162 main_arg0 main_v163 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v163 main_v164 (broadcastInDim S16384x1 ![0] bcast_S16384_S16384x1_0 : (⟨S16384, .i32⟩ : BufTy).Contents (Elt F) → (⟨S16384x1, .i32⟩ : BufTy).Contents (Elt F)),
    StableHlo.binary main_v52 main_v164 main_v165 ((fun x i => Host.gather gather_S50000x64_S16384x1_S16384x64_1_0_n_n_0_1_164 x i) : (⟨S50000x64, .f32⟩ : BufTy).Contents (Elt F) → (⟨S16384x1, .i32⟩ : BufTy).Contents (Elt F) → (⟨S16384x64, .f32⟩ : BufTy).Contents (Elt F)),
    StableHlo.nullary main_c_39 (constantI S_ 32 0#32),
    StableHlo.unary main_c_39 main_v166 (broadcastInDim S16384 ![] bcast_S_S16384 : (⟨S_, .i32⟩ : BufTy).Contents (Elt F) → (⟨S16384, .i32⟩ : BufTy).Contents (Elt F)),
    StableHlo.binary main_arg1 main_v166 main_v167 (cmpi .slt : (⟨S16384, .i32⟩ : BufTy).Contents (Elt F) → (⟨S16384, .i32⟩ : BufTy).Contents (Elt F) → (⟨S16384, .i1⟩ : BufTy).Contents (Elt F)),
    StableHlo.nullary main_c_40 (constantI S_ 32 20000#32),
    StableHlo.unary main_c_40 main_v168 (broadcastInDim S16384 ![] bcast_S_S16384 : (⟨S_, .i32⟩ : BufTy).Contents (Elt F) → (⟨S16384, .i32⟩ : BufTy).Contents (Elt F)),
    StableHlo.binary main_arg1 main_v168 main_v169 (addi : (⟨S16384, .i32⟩ : BufTy).Contents (Elt F) → (⟨S16384, .i32⟩ : BufTy).Contents (Elt F) → (⟨S16384, .i32⟩ : BufTy).Contents (Elt F)),
    StableHlo.ternary main_v167 main_v169 main_arg1 main_v170 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v170 main_v171 (broadcastInDim S16384x1 ![0] bcast_S16384_S16384x1_0 : (⟨S16384, .i32⟩ : BufTy).Contents (Elt F) → (⟨S16384x1, .i32⟩ : BufTy).Contents (Elt F)),
    StableHlo.binary main_v105 main_v171 main_v172 ((fun x i => Host.gather gather_S20000x64_S16384x1_S16384x64_1_0_n_n_0_1_164 x i) : (⟨S20000x64, .f32⟩ : BufTy).Contents (Elt F) → (⟨S16384x1, .i32⟩ : BufTy).Contents (Elt F) → (⟨S16384x64, .f32⟩ : BufTy).Contents (Elt F)) ]

set_option maxRecDepth 8192 in
theorem ops3a_sub : (ops3a : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The buffers ops3a's operations write, in order. -/
abbrev ops3a_W : List (Ref sig .tc) := [main_v144, main_v145, main_v146, main_v147, main_v148, main_v149, main_cst_34, main_v150, main_v151, main_v152, main_cst_35, main_v153, main_v154, main_v155, main_v156, main_cst_36, main_v157, main_v158, main_c_37, main_v159, main_v160, main_c_38, main_v161, main_v162, main_v163, main_v164, main_v165, main_c_39, main_v166, main_v167, main_c_40, main_v168, main_v169, main_v170, main_v171, main_v172]
set_option maxRecDepth 8192 in
theorem ops3a_writes : (ops3a : List (HloOp τ sig (Elt F))).Forall fun op => op.writes ⊆ (ops3a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- 42 operations of the reference's @main, in order. -/
abbrev ops3b : List (HloOp τ sig (Elt F)) :=
  [ StableHlo.binary main_v165 main_arg15 main_v173 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    StableHlo.unary main_arg16 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S16384x128 ![0, 1] bcast_S1x128_S16384x128_0_1 : (⟨S1x128, .f32⟩ : BufTy).Contents (Elt F) → (⟨S16384x128, .f32⟩ : BufTy).Contents (Elt F)),
    StableHlo.binary main_v173 main_v175 main_v176 (addf : (⟨S16384x128, .f32⟩ : BufTy).Contents (Elt F) → (⟨S16384x128, .f32⟩ : BufTy).Contents (Elt F) → (⟨S16384x128, .f32⟩ : BufTy).Contents (Elt F)),
    StableHlo.nullary main_cst_41 (constant S_ .f32 0x3F4CCCCD#32),
    StableHlo.TRef.nullary main_call0.cst (constant S_ .f32 0x00000000#32),
    StableHlo.TRef.unary main_call0.cst main_call0.v0 (broadcastInDim S16384x128 ![] bcast_S_S16384x128),
    StableHlo.TRef.binary (.of main_v176) main_call0.v0 main_call0.v1 (cmpf .oge),
    StableHlo.TRef.unary (.of main_cst_41) main_call0.v2 id,
    StableHlo.TRef.unary main_call0.v2 main_call0.v3 (broadcastInDim S16384x128 ![] bcast_S_S16384x128),
    StableHlo.TRef.binary main_call0.v3 (.of main_v176) main_call0.v4 mulf,
    StableHlo.TRef.ternary main_call0.v1 (.of main_v176) main_call0.v4 main_call0.call0.v0 select,
    StableHlo.binary main_v172 main_arg17 main_v178 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    StableHlo.unary main_arg18 main_v179 (broadcastInDim S1x128 ![1] bcast_S128_S1x128_1 : (⟨S128, .f32⟩ : BufTy).Contents (Elt F) → (⟨S1x128, .f32⟩ : BufTy).Contents (Elt F)),
    StableHlo.unary main_v179 main_v180 (broadcastInDim S16384x128 ![0, 1] bcast_S1x128_S16384x128_0_1 : (⟨S1x128, .f32⟩ : BufTy).Contents (Elt F) → (⟨S16384x128, .f32⟩ : BufTy).Contents (Elt F)),
    StableHlo.binary main_v178 main_v180 main_v181 (addf : (⟨S16384x128, .f32⟩ : BufTy).Contents (Elt F) → (⟨S16384x128, .f32⟩ : BufTy).Contents (Elt F) → (⟨S16384x128, .f32⟩ : BufTy).Contents (Elt F)),
    StableHlo.nullary main_cst_42 (constant S_ .f32 0x3F4CCCCD#32),
    StableHlo.TRef.nullary main_call1.cst (constant S_ .f32 0x00000000#32),
    StableHlo.TRef.unary main_call1.cst main_call1.v0 (broadcastInDim S16384x128 ![] bcast_S_S16384x128),
    StableHlo.TRef.binary (.of main_v181) main_call1.v0 main_call1.v1 (cmpf .oge),
    StableHlo.TRef.unary (.of main_cst_42) main_call1.v2 id,
    StableHlo.TRef.unary main_call1.v2 main_call1.v3 (broadcastInDim S16384x128 ![] bcast_S_S16384x128),
    StableHlo.TRef.binary main_call1.v3 (.of main_v181) main_call1.v4 mulf,
    StableHlo.TRef.ternary main_call1.v1 (.of main_v181) main_call1.v4 main_call1.call0.v0 select,
    StableHlo.binary main_v158 main_arg19 main_v183 ((fun l r => Host.dotGeneral dot_S512x64_S64x128_S512x128_1_0_0_1_n_n none l r) : (⟨S512x64, .f32⟩ : BufTy).Contents (Elt F) → (⟨S64x128, .f32⟩ : BufTy).Contents (Elt F) → (⟨S512x128, .f32⟩ : BufTy).Contents (Elt F)),
    StableHlo.unary main_arg20 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S512x128 ![0, 1] bcast_S1x128_S512x128_0_1 : (⟨S1x128, .f32⟩ : BufTy).Contents (Elt F) → (⟨S512x128, .f32⟩ : BufTy).Contents (Elt F)),
    StableHlo.binary main_v183 main_v185 main_v186 (addf : (⟨S512x128, .f32⟩ : BufTy).Contents (Elt F) → (⟨S512x128, .f32⟩ : BufTy).Contents (Elt F) → (⟨S512x128, .f32⟩ : BufTy).Contents (Elt F)),
    StableHlo.nullary main_cst_43 (constant S_ .f32 0x3F4CCCCD#32),
    StableHlo.TRef.nullary main_call2.cst (constant S_ .f32 0x00000000#32),
    StableHlo.TRef.unary main_call2.cst main_call2.v0 (broadcastInDim S512x128 ![] bcast_S_S512x128),
    StableHlo.TRef.binary (.of main_v186) main_call2.v0 main_call2.v1 (cmpf .oge),
    StableHlo.TRef.unary (.of main_cst_43) main_call2.v2 id,
    StableHlo.TRef.unary main_call2.v2 main_call2.v3 (broadcastInDim S512x128 ![] bcast_S_S512x128),
    StableHlo.TRef.binary main_call2.v3 (.of main_v186) main_call2.v4 mulf,
    StableHlo.TRef.ternary main_call2.v1 (.of main_v186) main_call2.v4 main_call2.call0.v0 select,
    StableHlo.binary main_v172 main_arg21 main_v188 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    StableHlo.unary main_arg22 main_v189 (broadcastInDim S1x1 ![1] bcast_S1_S1x1_1 : (⟨S1, .f32⟩ : BufTy).Contents (Elt F) → (⟨S1x1, .f32⟩ : BufTy).Contents (Elt F)),
    StableHlo.unary main_v189 main_v190 (broadcastInDim S16384x1 ![0, 1] bcast_S1x1_S16384x1_0_1 : (⟨S1x1, .f32⟩ : BufTy).Contents (Elt F) → (⟨S16384x1, .f32⟩ : BufTy).Contents (Elt F)),
    StableHlo.binary main_v188 main_v190 main_v191 (addf : (⟨S16384x1, .f32⟩ : BufTy).Contents (Elt F) → (⟨S16384x1, .f32⟩ : BufTy).Contents (Elt F) → (⟨S16384x1, .f32⟩ : BufTy).Contents (Elt F)),
    StableHlo.unary main_v191 main_v192 (Host.negf : (⟨S16384x1, .f32⟩ : BufTy).Contents (Elt F) → (⟨S16384x1, .f32⟩ : BufTy).Contents (Elt F)),
    StableHlo.unary main_v192 main_v193 (Host.exp : (⟨S16384x1, .f32⟩ : BufTy).Contents (Elt F) → (⟨S16384x1, .f32⟩ : BufTy).Contents (Elt F)) ]

set_option maxRecDepth 8192 in
theorem ops3b_sub : (ops3b : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub ..⟩

/-- The buffers ops3b's operations write, in order. -/
abbrev ops3b_W : List (Ref sig .tc) := [main_v173, main_v174, main_v175, main_v176, main_cst_41, main_call0.cst.ref, main_call0.v0.ref, main_call0.v1.ref, main_call0.v2.ref, main_call0.v3.ref, main_call0.v4.ref, main_call0.call0.v0.ref, main_v178, main_v179, main_v180, main_v181, main_cst_42, main_call1.cst.ref, main_call1.v0.ref, main_call1.v1.ref, main_call1.v2.ref, main_call1.v3.ref, main_call1.v4.ref, main_call1.call0.v0.ref, main_v183, main_v184, main_v185, main_v186, main_cst_43, main_call2.cst.ref, main_call2.v0.ref, main_call2.v1.ref, main_call2.v2.ref, main_call2.v3.ref, main_call2.v4.ref, main_call2.call0.v0.ref, main_v188, main_v189, main_v190, main_v191, main_v192, main_v193]
set_option maxRecDepth 8192 in
theorem ops3b_writes : (ops3b : List (HloOp τ sig (Elt F))).Forall fun op => op.writes ⊆ (ops3b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- 49 operations of the reference's @main, in order. -/
abbrev ops4 : List (HloOp τ sig (Elt F)) :=
  [ StableHlo.nullary main_cst_44 (constant S_ .f32 0x3F800000#32),
    StableHlo.unary main_cst_44 main_v194 (broadcastInDim S16384x1 ![] bcast_S_S16384x1 : (⟨S_, .f32⟩ : BufTy).Contents (Elt F) → (⟨S16384x1, .f32⟩ : BufTy).Contents (Elt F)),
    StableHlo.binary main_v194 main_v193 main_v195 (addf : (⟨S16384x1, .f32⟩ : BufTy).Contents (Elt F) → (⟨S16384x1, .f32⟩ : BufTy).Contents (Elt F) → (⟨S16384x1, .f32⟩ : BufTy).Contents (Elt F)),
    StableHlo.nullary main_cst_45 (constant S_ .f32 0x3F800000#32),
    StableHlo.unary main_cst_45 main_v196 (broadcastInDim S16384x1 ![] bcast_S_S16384x1 : (⟨S_, .f32⟩ : BufTy).Contents (Elt F) → (⟨S16384x1, .f32⟩ : BufTy).Contents (Elt F)),
    StableHlo.binary main_v196 main_v195 main_v197 (Host.divf : (⟨S16384x1, .f32⟩ : BufTy).Contents (Elt F) → (⟨S16384x1, .f32⟩ : BufTy).Contents (Elt F) → (⟨S16384x1, .f32⟩ : BufTy).Contents (Elt F)),
    StableHlo.binary main_v177 main_v182 main_v198 (subf : (⟨S16384x128, .f32⟩ : BufTy).Contents (Elt F) → (⟨S16384x128, .f32⟩ : BufTy).Contents (Elt F) → (⟨S16384x128, .f32⟩ : BufTy).Contents (Elt F)),
    StableHlo.unary main_v187 main_v199 ((transpose S128x512 [1, 0] · transposes_S512x128_S128x512_1_0) : (⟨S512x128, .f32⟩ : BufTy).Contents (Elt F) → (⟨S128x512, .f32⟩ : BufTy).Contents (Elt F)),
    StableHlo.binary main_v198 main_v199 main_v200 ((fun l r => Host.dotGeneral dot_S16384x128_S128x512_S16384x512_1_0_0_1_n_n none l r) : (⟨S16384x128, .f32⟩ : BufTy).Contents (Elt F) → (⟨S128x512, .f32⟩ : BufTy).Contents (Elt F) → (⟨S16384x512, .f32⟩ : BufTy).Contents (Elt F)),
    StableHlo.unary main_v197 main_v201 (broadcastInDim S16384x512 ![0, 1] bcast_S16384x1_S16384x512_0_1 : (⟨S16384x1, .f32⟩ : BufTy).Contents (Elt F) → (⟨S16384x512, .f32⟩ : BufTy).Contents (Elt F)),
    StableHlo.binary main_v201 main_v200 main_v202 (mulf : (⟨S16384x512, .f32⟩ : BufTy).Contents (Elt F) → (⟨S16384x512, .f32⟩ : BufTy).Contents (Elt F) → (⟨S16384x512, .f32⟩ : BufTy).Contents (Elt F)),
    StableHlo.nullary main_c_46 (constantI S_ 32 0#32),
    StableHlo.unary main_c_46 main_v203 (broadcastInDim S16384 ![] bcast_S_S16384 : (⟨S_, .i32⟩ : BufTy).Contents (Elt F) → (⟨S16384, .i32⟩ : BufTy).Contents (Elt F)),
    StableHlo.binary main_arg1 main_v203 main_v204 (cmpi .slt : (⟨S16384, .i32⟩ : BufTy).Contents (Elt F) → (⟨S16384, .i32⟩ : BufTy).Contents (Elt F) → (⟨S16384, .i1⟩ : BufTy).Contents (Elt F)),
    StableHlo.nullary main_c_47 (constantI S_ 32 20000#32),
    StableHlo.unary main_c_47 main_v205 (broadcastInDim S16384 ![] bcast_S_S16384 : (⟨S_, .i32⟩ : BufTy).Contents (Elt F) → (⟨S16384, .i32⟩ : BufTy).Contents (Elt F)),
    StableHlo.binary main_arg1 main_v205 main_v206 (addi : (⟨S16384, .i32⟩ : BufTy).Contents (Elt F) → (⟨S16384, .i32⟩ : BufTy).Contents (Elt F) → (⟨S16384, .i32⟩ : BufTy).Contents (Elt F)),
    StableHlo.ternary main_v204 main_v206 main_arg1 main_v207 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v207 main_v208 (broadcastInDim S16384x1 ![0] bcast_S16384_S16384x1_0 : (⟨S16384, .i32⟩ : BufTy).Contents (Elt F) → (⟨S16384x1, .i32⟩ : BufTy).Contents (Elt F)),
    StableHlo.binary main_arg2 main_v208 main_v209 ((fun x i => Host.gather gather_S20000x512_S16384x1_S16384x512_1_0_n_n_0_1_1512 x i) : (⟨S20000x512, .f32⟩ : BufTy).Contents (Elt F) → (⟨S16384x1, .i32⟩ : BufTy).Contents (Elt F) → (⟨S16384x512, .f32⟩ : BufTy).Contents (Elt F)),
    StableHlo.binary main_v202 main_v209 main_v210 (mulf : (⟨S16384x512, .f32⟩ : BufTy).Contents (Elt F) → (⟨S16384x512, .f32⟩ : BufTy).Contents (Elt F) → (⟨S16384x512, .f32⟩ : BufTy).Contents (Elt F)),
    StableHlo.binary main_v210 main_arg23 main_v211 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg24 main_v212 (broadcastInDim S1x512 ![1] bcast_S512_S1x512_1 : (⟨S512, .f32⟩ : BufTy).Contents (Elt F) → (⟨S1x512, .f32⟩ : BufTy).Contents (Elt F)),
    StableHlo.unary main_v212 main_v213 (broadcastInDim S16384x512 ![0, 1] bcast_S1x512_S16384x512_0_1 : (⟨S1x512, .f32⟩ : BufTy).Contents (Elt F) → (⟨S16384x512, .f32⟩ : BufTy).Contents (Elt F)),
    StableHlo.binary main_v211 main_v213 main_v214 (addf : (⟨S16384x512, .f32⟩ : BufTy).Contents (Elt F) → (⟨S16384x512, .f32⟩ : BufTy).Contents (Elt F) → (⟨S16384x512, .f32⟩ : BufTy).Contents (Elt F)),
    StableHlo.unary main_v214 main_v215 (Host.tanh : (⟨S16384x512, .f32⟩ : BufTy).Contents (Elt F) → (⟨S16384x512, .f32⟩ : BufTy).Contents (Elt F)),
    StableHlo.binary main_v215 main_arg25 main_v216 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    StableHlo.unary main_arg26 main_v217 (broadcastInDim S1x256 ![1] bcast_S256_S1x256_1 : (⟨S256, .f32⟩ : BufTy).Contents (Elt F) → (⟨S1x256, .f32⟩ : BufTy).Contents (Elt F)),
    StableHlo.unary main_v217 main_v218 (broadcastInDim S16384x256 ![0, 1] bcast_S1x256_S16384x256_0_1 : (⟨S1x256, .f32⟩ : BufTy).Contents (Elt F) → (⟨S16384x256, .f32⟩ : BufTy).Contents (Elt F)),
    StableHlo.binary main_v216 main_v218 main_v219 (addf : (⟨S16384x256, .f32⟩ : BufTy).Contents (Elt F) → (⟨S16384x256, .f32⟩ : BufTy).Contents (Elt F) → (⟨S16384x256, .f32⟩ : BufTy).Contents (Elt F)),
    StableHlo.unary main_v219 main_v220 (Host.tanh : (⟨S16384x256, .f32⟩ : BufTy).Contents (Elt F) → (⟨S16384x256, .f32⟩ : BufTy).Contents (Elt F)),
    StableHlo.binary main_v220 main_arg27 main_v221 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    StableHlo.unary main_arg28 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S16384x128 ![0, 1] bcast_S1x128_S16384x128_0_1 : (⟨S1x128, .f32⟩ : BufTy).Contents (Elt F) → (⟨S16384x128, .f32⟩ : BufTy).Contents (Elt F)),
    StableHlo.binary main_v221 main_v223 main_v224 (addf : (⟨S16384x128, .f32⟩ : BufTy).Contents (Elt F) → (⟨S16384x128, .f32⟩ : BufTy).Contents (Elt F) → (⟨S16384x128, .f32⟩ : BufTy).Contents (Elt F)),
    StableHlo.unary main_v224 main_v225 (Host.tanh : (⟨S16384x128, .f32⟩ : BufTy).Contents (Elt F) → (⟨S16384x128, .f32⟩ : BufTy).Contents (Elt F)),
    StableHlo.binary main_v225 main_arg29 main_v226 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    StableHlo.unary main_arg30 main_v227 (broadcastInDim S1x1 ![1] bcast_S1_S1x1_1 : (⟨S1, .f32⟩ : BufTy).Contents (Elt F) → (⟨S1x1, .f32⟩ : BufTy).Contents (Elt F)),
    StableHlo.unary main_v227 main_v228 (broadcastInDim S16384x1 ![0, 1] bcast_S1x1_S16384x1_0_1 : (⟨S1x1, .f32⟩ : BufTy).Contents (Elt F) → (⟨S16384x1, .f32⟩ : BufTy).Contents (Elt F)),
    StableHlo.binary main_v226 main_v228 main_v229 (addf : (⟨S16384x1, .f32⟩ : BufTy).Contents (Elt F) → (⟨S16384x1, .f32⟩ : BufTy).Contents (Elt F) → (⟨S16384x1, .f32⟩ : BufTy).Contents (Elt F)),
    StableHlo.unary main_v229 main_v230 (Host.negf : (⟨S16384x1, .f32⟩ : BufTy).Contents (Elt F) → (⟨S16384x1, .f32⟩ : BufTy).Contents (Elt F)),
    StableHlo.unary main_v230 main_v231 (Host.exp : (⟨S16384x1, .f32⟩ : BufTy).Contents (Elt F) → (⟨S16384x1, .f32⟩ : BufTy).Contents (Elt F)),
    StableHlo.nullary main_cst_48 (constant S_ .f32 0x3F800000#32),
    StableHlo.unary main_cst_48 main_v232 (broadcastInDim S16384x1 ![] bcast_S_S16384x1 : (⟨S_, .f32⟩ : BufTy).Contents (Elt F) → (⟨S16384x1, .f32⟩ : BufTy).Contents (Elt F)),
    StableHlo.binary main_v232 main_v231 main_v233 (addf : (⟨S16384x1, .f32⟩ : BufTy).Contents (Elt F) → (⟨S16384x1, .f32⟩ : BufTy).Contents (Elt F) → (⟨S16384x1, .f32⟩ : BufTy).Contents (Elt F)),
    StableHlo.nullary main_cst_49 (constant S_ .f32 0x3F800000#32),
    StableHlo.unary main_cst_49 main_v234 (broadcastInDim S16384x1 ![] bcast_S_S16384x1 : (⟨S_, .f32⟩ : BufTy).Contents (Elt F) → (⟨S16384x1, .f32⟩ : BufTy).Contents (Elt F)),
    StableHlo.binary main_v234 main_v233 main_v235 (Host.divf : (⟨S16384x1, .f32⟩ : BufTy).Contents (Elt F) → (⟨S16384x1, .f32⟩ : BufTy).Contents (Elt F) → (⟨S16384x1, .f32⟩ : BufTy).Contents (Elt F)),
    StableHlo.reshape main_v235 main_v236 rfl shapeCasts_S16384x1_S16384 ]

set_option maxRecDepth 8192 in
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

/-- The buffers ops4's operations write, in order. -/
abbrev ops4_W : List (Ref sig .tc) := [main_cst_44, main_v194, main_v195, main_cst_45, main_v196, main_v197, main_v198, main_v199, main_v200, main_v201, main_v202, main_c_46, main_v203, main_v204, main_c_47, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_cst_48, main_v232, main_v233, main_cst_49, main_v234, main_v235, main_v236]
set_option maxRecDepth 8192 in
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.ReferenceIdeal.Run

end
-- ==== Proof.RefRun.lean ====
/- The reference's run.  Its @main is the straight line of the 307 host operations listed window by window in
   RefOpsTable (each window of @main is the sequence of its list, the outlined leaky_relu opened at its three
   calls; the windows in order are the concatenation), it scopes no buffer and no semaphore, and every operation
   determines its results: so every weakly fair execution terminates and leaves each TensorCore buffer at the fold
   of the operations' results over the launch contents. -/
import proofs.«163362_j21320217657961_1_alg».proof.Proof.RefOpsTable

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The convolutions and the two row gathers: everything before the perceptron. -/
abbrev opsPre : List (HloOp τ sig (Elt F)) := ops0 ++ (ops1 ++ (ops2 ++ ops3a))
/-- The perceptron, the gather of the question's knowledge row included. -/
abbrev opsMlp : List (HloOp τ sig (Elt F)) := ops3b ++ ops4
/-- @main's operations, in order. -/
abbrev ops : List (HloOp τ sig (Elt F)) := opsPre ++ opsMlp

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
/-- The fourth window: the three calls unfold to their callees' operations over the calls' records. -/
theorem main_part3_eq (c : Dev nD) : main_part3 (F := F) c = seq (ops3a ++ ops3b) := by
  simp only [main_part3, fn_leaky_relu.body, fn_where.body, fn_leaky_relu_0.body, fn_where_1.body, seq, bind_assoc, pure_bind,
    List.cons_append, List.nil_append]
  rfl
set_option maxRecDepth 8192 in
theorem main_part4_eq (c : Dev nD) : main_part4 (F := F) c = seq ops4 := rfl

theorem main_eq (c : Dev nD) : main (F := F) c = seq ops := by
  have e : (seq ops : Prog (TpuEff nD τ sig (Elt F) (Pipeline.Sig Λ₀ (Fin 0) fun p => (pcfgs (F := F) p).Adm) .tc) PUnit)
      = (seq ops0 >>= fun _ => seq ops1 >>= fun _ => seq ops2 >>= fun _ => seq (ops3a ++ ops3b) >>= fun _ => seq ops4) := by
    show seq ((ops0 ++ (ops1 ++ (ops2 ++ ops3a))) ++ (ops3b ++ ops4)) = _
    rw [show ((ops0 ++ (ops1 ++ (ops2 ++ ops3a))) ++ (ops3b ++ ops4) : List (HloOp τ sig (Elt F)))
          = ops0 ++ (ops1 ++ (ops2 ++ ((ops3a ++ ops3b) ++ ops4))) from by simp only [List.append_assoc]]
    rw [seq_append, seq_append, seq_append, seq_append]
  rw [e, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, opsPre, opsMlp, List.mem_append] at h
    rcases h with (h | h | h | h) | h | h
    exacts [List.forall_iff_forall_mem.mp ops0_sub op h, List.forall_iff_forall_mem.mp ops1_sub op h,
      List.forall_iff_forall_mem.mp ops2_sub op h, List.forall_iff_forall_mem.mp ops3a_sub op h,
      List.forall_iff_forall_mem.mp ops3b_sub op h, List.forall_iff_forall_mem.mp ops4_sub op h]

/-- Every weakly fair execution of the reference terminates with each TensorCore buffer at the operations' fold over
    its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Run

end
-- ==== Proof.RefKeep.lean ====
/- The reference leaves its arguments as launched: none of its 307 operations writes an argument buffer (each list's
   written buffers are listed beside it, and an argument is in none of the lists), so the fold of the operations'
   results reads each argument buffer at its launch contents. -/
import proofs.«163362_j21320217657961_1_alg».proof.Proof.RefRun
import Idealize.ShloMosaic.Lib.Pipeline.Frame

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- A buffer none of the six lists writes keeps its contents through the whole program. -/
theorem keep_all (V : Valuation τ sig (Elt F)) (r : Ref sig .tc) (h0 : r ∉ ops0_W) (h1 : r ∉ ops1_W) (h2 : r ∉ ops2_W)
    (h3a : r ∉ ops3a_W) (h3b : r ∉ ops3b_W) (h4 : r ∉ ops4_W) :
    after (ops (F := F)) V (Proc.devRef .tc r) = V (Proc.devRef .tc r) := by
  show after ((ops0 ++ (ops1 ++ (ops2 ++ ops3a))) ++ (ops3b ++ ops4)) V (Proc.devRef .tc r) = _
  rw [StableHlo.after_append, StableHlo.after_append, StableHlo.after_append, StableHlo.after_append, StableHlo.after_append,
    after_of_writes_sub ops4 _ ops4_writes h4, after_of_writes_sub ops3b _ ops3b_writes h3b,
    after_of_writes_sub ops3a _ ops3a_writes h3a, after_of_writes_sub ops2 _ ops2_writes h2,
    after_of_writes_sub ops1 _ ops1_writes h1, after_of_writes_sub ops0 _ ops0_writes h0]

/-- A buffer the convolutions do not write keeps its contents through them. -/
theorem keep_pre (V : Valuation τ sig (Elt F)) (r : Ref sig .tc) (h0 : r ∉ ops0_W) (h1 : r ∉ ops1_W) (h2 : r ∉ ops2_W)
    (h3a : r ∉ ops3a_W) : after (opsPre (F := F)) V (Proc.devRef .tc r) = V (Proc.devRef .tc r) := by
  show after (ops0 ++ (ops1 ++ (ops2 ++ ops3a))) V (Proc.devRef .tc r) = _
  rw [StableHlo.after_append, StableHlo.after_append, StableHlo.after_append,
    after_of_writes_sub ops3a _ ops3a_writes h3a, after_of_writes_sub ops2 _ ops2_writes h2,
    after_of_writes_sub ops1 _ ops1_writes h1, after_of_writes_sub ops0 _ ops0_writes h0]

/-- The whole program is the head after the convolutions. -/
theorem after_ops (V : Valuation τ sig (Elt F)) : after (ops (F := F)) V = after opsMlp (after opsPre V) :=
  StableHlo.after_append _ _ V

/-- The reference's frame: every weakly fair execution terminates with the 31 arguments as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) :=
  (θ_run defs _ _).mono (fun _ h c => ⟨(h c main_arg0).trans (keep_all _ main_arg0 (by decide) (by decide) (by decide) (by decide) (by decide) (by decide)),
      (h c main_arg1).trans (keep_all _ main_arg1 (by decide) (by decide) (by decide) (by decide) (by decide) (by decide)),
      (h c main_arg2).trans (keep_all _ main_arg2 (by decide) (by decide) (by decide) (by decide) (by decide) (by decide)),
      (h c main_arg3).trans (keep_all _ main_arg3 (by decide) (by decide) (by decide) (by decide) (by decide) (by decide)),
      (h c main_arg4).trans (keep_all _ main_arg4 (by decide) (by decide) (by decide) (by decide) (by decide) (by decide)),
      (h c main_arg5).trans (keep_all _ main_arg5 (by decide) (by decide) (by decide) (by decide) (by decide) (by decide)),
      (h c main_arg6).trans (keep_all _ main_arg6 (by decide) (by decide) (by decide) (by decide) (by decide) (by decide)),
      (h c main_arg7).trans (keep_all _ main_arg7 (by decide) (by decide) (by decide) (by decide) (by decide) (by decide)),
      (h c main_arg8).trans (keep_all _ main_arg8 (by decide) (by decide) (by decide) (by decide) (by decide) (by decide)),
      (h c main_arg9).trans (keep_all _ main_arg9 (by decide) (by decide) (by decide) (by decide) (by decide) (by decide)),
      (h c main_arg10).trans (keep_all _ main_arg10 (by decide) (by decide) (by decide) (by decide) (by decide) (by decide)),
      (h c main_arg11).trans (keep_all _ main_arg11 (by decide) (by decide) (by decide) (by decide) (by decide) (by decide)),
      (h c main_arg12).trans (keep_all _ main_arg12 (by decide) (by decide) (by decide) (by decide) (by decide) (by decide)),
      (h c main_arg13).trans (keep_all _ main_arg13 (by decide) (by decide) (by decide) (by decide) (by decide) (by decide)),
      (h c main_arg14).trans (keep_all _ main_arg14 (by decide) (by decide) (by decide) (by decide) (by decide) (by decide)),
      (h c main_arg15).trans (keep_all _ main_arg15 (by decide) (by decide) (by decide) (by decide) (by decide) (by decide)),
      (h c main_arg16).trans (keep_all _ main_arg16 (by decide) (by decide) (by decide) (by decide) (by decide) (by decide)),
      (h c main_arg17).trans (keep_all _ main_arg17 (by decide) (by decide) (by decide) (by decide) (by decide) (by decide)),
      (h c main_arg18).trans (keep_all _ main_arg18 (by decide) (by decide) (by decide) (by decide) (by decide) (by decide)),
      (h c main_arg19).trans (keep_all _ main_arg19 (by decide) (by decide) (by decide) (by decide) (by decide) (by decide)),
      (h c main_arg20).trans (keep_all _ main_arg20 (by decide) (by decide) (by decide) (by decide) (by decide) (by decide)),
      (h c main_arg21).trans (keep_all _ main_arg21 (by decide) (by decide) (by decide) (by decide) (by decide) (by decide)),
      (h c main_arg22).trans (keep_all _ main_arg22 (by decide) (by decide) (by decide) (by decide) (by decide) (by decide)),
      (h c main_arg23).trans (keep_all _ main_arg23 (by decide) (by decide) (by decide) (by decide) (by decide) (by decide)),
      (h c main_arg24).trans (keep_all _ main_arg24 (by decide) (by decide) (by decide) (by decide) (by decide) (by decide)),
      (h c main_arg25).trans (keep_all _ main_arg25 (by decide) (by decide) (by decide) (by decide) (by decide) (by decide)),
      (h c main_arg26).trans (keep_all _ main_arg26 (by decide) (by decide) (by decide) (by decide) (by decide) (by decide)),
      (h c main_arg27).trans (keep_all _ main_arg27 (by decide) (by decide) (by decide) (by decide) (by decide) (by decide)),
      (h c main_arg28).trans (keep_all _ main_arg28 (by decide) (by decide) (by decide) (by decide) (by decide) (by decide)),
      (h c main_arg29).trans (keep_all _ main_arg29 (by decide) (by decide) (by decide) (by decide) (by decide) (by decide)),
      (h c main_arg30).trans (keep_all _ main_arg30 (by decide) (by decide) (by decide) (by decide) (by decide) (by decide))⟩)
    (run_all m ρ)

end Cert.ReferenceIdeal.Run

end
-- ==== Proof.RefRow.lean ====
/- Arrays of the head's shapes read at an index.

   Each statement takes an array expression exactly as the reference's operations build it (a matrix product plus a
   bias laid along one row and then down the rows; the leaky rectifier and the logistic function spelt with
   broadcast scalars; a product against a transposed matrix; a one-column matrix laid along the columns; a
   one-column matrix flattened) and reads it at an index written with explicit coordinates, as the corresponding
   expression of the row functions of Spec. -/
import proofs.«163362_j21320217657961_1_alg».proof.Proof.Spec
import proofs.«163362_j21320217657961_1_alg».proof.Proof.LibPlainDot
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

namespace Cert.ReferenceIdeal.Mlp

open Idealize.ShloMosaic Idealize.ShloMosaic.ValueIdx Cert.Hyper

variable {M K N : Nat}

/-- A vector laid along one row, and that row down M rows, reads at (p, j) the vector at j. -/
theorem bias_apply {α : Type} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α)
    (p : Fin M) (j : Fin N) :
    broadcastInDim ⟨2, ![M, N]⟩ ![0, 1] h2 (broadcastInDim ⟨2, ![1, N]⟩ ![1] h1 b) (ix2 p j) = b (ix1 j) := by
  rw [broadcastInDim_oneRow_apply]
  refine broadcastInDim_apply ![1] h1 b (ix2 (0 : Fin 1) j) (ix1 j) fun a => ?_
  match a with
  | ⟨0, _⟩ =>
    show j.val = if N = 1 then 0 else j.val
    split_ifs with hn
    · have := j.isLt; omega
    · rfl

/-- A one-column matrix laid along N columns reads at (p, n) the column at p. -/
theorem col_apply {α : Type} (h : (⟨2, ![M, 1]⟩ : Shape).BroadcastsInDim ⟨2, ![M, N]⟩ ![0, 1])
    (x : (⟨2, ![M, 1]⟩ : Shape).Idx → α) (p : Fin M) (n : Fin N) :
    broadcastInDim ⟨2, ![M, N]⟩ ![0, 1] h x (ix2 p n) = x (ix2 p (0 : Fin 1)) := by
  refine broadcastInDim_apply ![0, 1] h x (ix2 p n) (ix2 p (0 : Fin 1)) fun a => ?_
  match a with
  | ⟨0, _⟩ =>
    show p.val = if M = 1 then 0 else p.val
    split_ifs with hm
    · have := p.isLt; omega
    · rfl
  | ⟨1, _⟩ =>
    show (0 : ℕ) = if (1 : ℕ) = 1 then 0 else n.val
    rfl

/-- A one-column matrix flattened reads at r the column at r. -/
theorem flat_apply {α : Type} (h : (⟨2, ![M, 1]⟩ : Shape).ShapeCasts ⟨1, ![M]⟩)
    (x : (⟨2, ![M, 1]⟩ : Shape).Idx → α) (r : Fin M) :
    shapeCast ⟨1, ![M]⟩ x h (ix1 r) = x (ix2 r (0 : Fin 1)) :=
  shapeCast_apply x h _ _ (by
    rw [Shape.rowMajor_val_two, Shape.rowMajor_val_one]
    show r.val * 1 + 0 = r.val
    omega)

/-- An affine map: the product of x and w plus the bias b, at (p, j), is the row function lin of row p of x. -/
theorem aff_apply (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32)
    (p : Fin M) (j : Fin N) :
    addf (Host.dotGeneral d none x w) (broadcastInDim ⟨2, ![M, N]⟩ ![0, 1] h2 (broadcastInDim ⟨2, ![1, N]⟩ ![1] h1 b)) (ix2 p j)
      = lin (fun k => x (ix2 p k)) (fun k j => w (ix2 k j)) (fun j => b (ix1 j)) j := by
  rw [addf_apply, Idealize.PlainDot.dotGeneral_apply d hd, bias_apply]
  rfl

/-- The leaky rectifier as the reference spells it (compare with a broadcast zero, multiply by a broadcast 0.8,
    select), at any index, is lrelu of the element. -/
theorem lrelu_apply {s : Shape} (h : (⟨0, ![]⟩ : Shape).BroadcastsInDim s ![]) (z : FVec Ideal s .f32) (i : s.Idx) :
    select (cmpf .oge z (broadcastInDim s ![] h (constant (F := Ideal) ⟨0, ![]⟩ .f32 0x00000000#32))) z
        (mulf (broadcastInDim s ![] h (id (constant (F := Ideal) ⟨0, ![]⟩ .f32 0x3F4CCCCD#32))) z) i
      = lrelu (z i) := by
  rw [select_apply, cmpf_apply, mulf_apply, broadcastInDim_scalar_apply, broadcastInDim_scalar_apply]
  rfl

/-- The binary32 word of one is 1. -/
theorem ofBits_one : Ideal.ofBits .f32 0x3F800000#32 = 1 := IdealRules.sign_bit.ideal_onePat .f32

/-- The logistic function as the reference spells it (1 / (1 + exp (-z)) with broadcast ones), at any index, is
    the logistic function of the element. -/
theorem sig_apply {s : Shape} (h : (⟨0, ![]⟩ : Shape).BroadcastsInDim s ![]) (z : FVec Ideal s .f32) (i : s.Idx) :
    Host.divf (broadcastInDim s ![] h (constant (F := Ideal) ⟨0, ![]⟩ .f32 0x3F800000#32))
        (addf (broadcastInDim s ![] h (constant (F := Ideal) ⟨0, ![]⟩ .f32 0x3F800000#32)) (Host.exp (Host.negf z))) i
      = Ideal.logistic (z i) := by
  show Ideal.div (broadcastInDim s ![] h (constant (F := Ideal) ⟨0, ![]⟩ .f32 0x3F800000#32) i)
      (broadcastInDim s ![] h (constant (F := Ideal) ⟨0, ![]⟩ .f32 0x3F800000#32) i + Ideal.exp (-(z i))) = _
  rw [broadcastInDim_scalar_apply, constant_apply, ofBits_one]
  rfl

/-- The hyperbolic tangent at an index. -/
theorem tanh_apply {s : Shape} (z : FVec Ideal s .f32) (i : s.Idx) : Host.tanh z i = Ideal.tanh (z i) := rfl

/-- The product of a difference against a transposed matrix, at (p, n): the sum over j of the difference at
    (p, j) times the matrix at (n, j). -/
theorem prodT_apply {B D C : Nat} (d : DotDims ⟨2, ![B, D]⟩ ⟨2, ![D, C]⟩ ⟨2, ![B, C]⟩) (hd : d = DotDims.plain B D C)
    (ht : (⟨2, ![C, D]⟩ : Shape).Transposes [1, 0] ⟨2, ![D, C]⟩)
    (s e : FVec Ideal ⟨2, ![B, D]⟩ .f32) (k : FVec Ideal ⟨2, ![C, D]⟩ .f32) (p : Fin B) (n : Fin C) :
    Host.dotGeneral d none (subf s e) (transpose ⟨2, ![D, C]⟩ [1, 0] k ht) (ix2 p n)
      = ∑ j : Fin D, (s (ix2 p j) - e (ix2 p j)) * k (ix2 n j) := by
  rw [Idealize.PlainDot.dotGeneral_apply d hd]
  refine Finset.sum_congr rfl fun j _ => ?_
  rw [subf_apply, transpose_ix2_apply]

/-- The student's state: the discrimination column laid along the columns, times the product, times the indicators. -/
theorem state_apply {B C : Nat} (hb : (⟨2, ![B, 1]⟩ : Shape).BroadcastsInDim ⟨2, ![B, C]⟩ ![0, 1])
    (dc : FVec Ideal ⟨2, ![B, 1]⟩ .f32) (pr q : FVec Ideal ⟨2, ![B, C]⟩ .f32) (p : Fin B) (n : Fin C) :
    mulf (mulf (broadcastInDim ⟨2, ![B, C]⟩ ![0, 1] hb dc) pr) q (ix2 p n)
      = (dc (ix2 p (0 : Fin 1)) * pr (ix2 p n)) * q (ix2 p n) := by
  rw [mulf_apply, mulf_apply, col_apply]

end Cert.ReferenceIdeal.Mlp
-- ==== Proof.RefMlp.lean ====
/- The reference's head read row by row.

   The head's operations, run from any buffer contents W, leave in the result buffer the array that the reference's
   text builds from W's weights, the knowledge features, the gathered student and exercise features and the gathered
   knowledge indicators. Each intermediate array is named here with the operations' own text (the student, exercise
   and knowledge factors, the discrimination, the state, the three hidden layers, the output), and read at an index
   with explicit coordinates it is the row function of Spec of the same name, at row r of the gathered arrays. -/
import proofs.«163362_j21320217657961_1_alg».proof.Proof.RefRun
import proofs.«163362_j21320217657961_1_alg».proof.Proof.RefRow
import Idealize.ShloMosaic.Lib.StableHlo.Run

noncomputable section

namespace Cert.ReferenceIdeal.Mlp

open Cert.ReferenceIdeal Cert.ReferenceIdeal.Gen Cert.ReferenceIdeal.Run Idealize.ShloMosaic Idealize.ShloMosaic.TcCoe Idealize.ShloMosaic.StableHlo Idealize.ShloMosaic.ValueIdx

/-- The weights as the reference's memory holds them. -/
def paramsOf (W : Valuation τ sig (Elt Ideal)) : Cert.Hyper.Params where
  Ws k j := W (Proc.devRef .tc main_arg15) (ix2 k j)
  bs j := W (Proc.devRef .tc main_arg16) (ix1 j)
  We k j := W (Proc.devRef .tc main_arg17) (ix2 k j)
  be j := W (Proc.devRef .tc main_arg18) (ix1 j)
  Wk k j := W (Proc.devRef .tc main_arg19) (ix2 k j)
  bk j := W (Proc.devRef .tc main_arg20) (ix1 j)
  Wd k j := W (Proc.devRef .tc main_arg21) (ix2 k j)
  bd j := W (Proc.devRef .tc main_arg22) (ix1 j)
  M1w k j := W (Proc.devRef .tc main_arg23) (ix2 k j)
  M1b j := W (Proc.devRef .tc main_arg24) (ix1 j)
  M2w k j := W (Proc.devRef .tc main_arg25) (ix2 k j)
  M2b j := W (Proc.devRef .tc main_arg26) (ix1 j)
  M3w k j := W (Proc.devRef .tc main_arg27) (ix2 k j)
  M3b j := W (Proc.devRef .tc main_arg28) (ix1 j)
  M4w k j := W (Proc.devRef .tc main_arg29) (ix2 k j)
  M4b j := W (Proc.devRef .tc main_arg30) (ix1 j)

variable (W : Valuation τ sig (Elt Ideal))

/-! ## The arrays, in the operations' own text -/

/-- The gathered student features times W_s, plus b_s. -/
def zsA : FVec Ideal S16384x128 .f32 :=
  addf (Host.dotGeneral (φ₁ := .f32) (φ₂ := .f32) dot_S16384x64_S64x128_S16384x128_1_0_0_1_n_n none (W (Proc.devRef .tc main_v165)) (W (Proc.devRef .tc main_arg15)))
    (broadcastInDim S16384x128 ![0, 1] bcast_S1x128_S16384x128_0_1 (broadcastInDim S1x128 ![1] bcast_S128_S1x128_1 (W (Proc.devRef .tc main_arg16) : FVec Ideal S128 .f32)))
/-- The student factors. -/
def sfA : FVec Ideal S16384x128 .f32 :=
  select (cmpf .oge (zsA W) (broadcastInDim S16384x128 ![] bcast_S_S16384x128 (constant S_ .f32 0x00000000#32))) (zsA W)
    (mulf (broadcastInDim S16384x128 ![] bcast_S_S16384x128 (id (constant S_ .f32 0x3F4CCCCD#32))) (zsA W))
/-- The gathered exercise features times W_e, plus b_e. -/
def zeA : FVec Ideal S16384x128 .f32 :=
  addf (Host.dotGeneral (φ₁ := .f32) (φ₂ := .f32) dot_S16384x64_S64x128_S16384x128_1_0_0_1_n_n none (W (Proc.devRef .tc main_v172)) (W (Proc.devRef .tc main_arg17)))
    (broadcastInDim S16384x128 ![0, 1] bcast_S1x128_S16384x128_0_1 (broadcastInDim S1x128 ![1] bcast_S128_S1x128_1 (W (Proc.devRef .tc main_arg18) : FVec Ideal S128 .f32)))
/-- The exercise factors. -/
def efA : FVec Ideal S16384x128 .f32 :=
  select (cmpf .oge (zeA W) (broadcastInDim S16384x128 ![] bcast_S_S16384x128 (constant S_ .f32 0x00000000#32))) (zeA W)
    (mulf (broadcastInDim S16384x128 ![] bcast_S_S16384x128 (id (constant S_ .f32 0x3F4CCCCD#32))) (zeA W))
/-- The knowledge features times W_k, plus b_k. -/
def zkA : FVec Ideal S512x128 .f32 :=
  addf (Host.dotGeneral (φ₁ := .f32) (φ₂ := .f32) dot_S512x64_S64x128_S512x128_1_0_0_1_n_n none (W (Proc.devRef .tc main_v158)) (W (Proc.devRef .tc main_arg19)))
    (broadcastInDim S512x128 ![0, 1] bcast_S1x128_S512x128_0_1 (broadcastInDim S1x128 ![1] bcast_S128_S1x128_1 (W (Proc.devRef .tc main_arg20) : FVec Ideal S128 .f32)))
/-- The knowledge factors. -/
def kfA : FVec Ideal S512x128 .f32 :=
  select (cmpf .oge (zkA W) (broadcastInDim S512x128 ![] bcast_S_S512x128 (constant S_ .f32 0x00000000#32))) (zkA W)
    (mulf (broadcastInDim S512x128 ![] bcast_S_S512x128 (id (constant S_ .f32 0x3F4CCCCD#32))) (zkA W))
/-- The gathered exercise features times W_d, plus b_d. -/
def zdA : FVec Ideal S16384x1 .f32 :=
  addf (Host.dotGeneral (φ₁ := .f32) (φ₂ := .f32) dot_S16384x64_S64x1_S16384x1_1_0_0_1_n_n none (W (Proc.devRef .tc main_v172)) (W (Proc.devRef .tc main_arg21)))
    (broadcastInDim S16384x1 ![0, 1] bcast_S1x1_S16384x1_0_1 (broadcastInDim S1x1 ![1] bcast_S1_S1x1_1 (W (Proc.devRef .tc main_arg22) : FVec Ideal S1 .f32)))
/-- The discriminations. -/
def discA : FVec Ideal S16384x1 .f32 :=
  Host.divf (broadcastInDim S16384x1 ![] bcast_S_S16384x1 (constant S_ .f32 0x3F800000#32))
    (addf (broadcastInDim S16384x1 ![] bcast_S_S16384x1 (constant S_ .f32 0x3F800000#32)) (Host.exp (Host.negf (zdA W))))
/-- The states, over the gathered indicators q. -/
def stateA (q : FVec Ideal S16384x512 .f32) : FVec Ideal S16384x512 .f32 :=
  mulf (mulf (broadcastInDim S16384x512 ![0, 1] bcast_S16384x1_S16384x512_0_1 (discA W))
      (Host.dotGeneral (φ₁ := .f32) (φ₂ := .f32) dot_S16384x128_S128x512_S16384x512_1_0_0_1_n_n none (subf (sfA W) (efA W))
        (transpose S128x512 [1, 0] (kfA W) transposes_S512x128_S128x512_1_0))) q
/-- The first hidden layer. -/
def h1A (q : FVec Ideal S16384x512 .f32) : FVec Ideal S16384x512 .f32 :=
  Host.tanh (addf (Host.dotGeneral (φ₁ := .f32) (φ₂ := .f32) dot_S16384x512_S512x512_S16384x512_1_0_0_1_n_n none (stateA W q) (W (Proc.devRef .tc main_arg23)))
    (broadcastInDim S16384x512 ![0, 1] bcast_S1x512_S16384x512_0_1 (broadcastInDim S1x512 ![1] bcast_S512_S1x512_1 (W (Proc.devRef .tc main_arg24) : FVec Ideal S512 .f32))))
/-- The second hidden layer. -/
def h2A (q : FVec Ideal S16384x512 .f32) : FVec Ideal S16384x256 .f32 :=
  Host.tanh (addf (Host.dotGeneral (φ₁ := .f32) (φ₂ := .f32) dot_S16384x512_S512x256_S16384x256_1_0_0_1_n_n none (h1A W q) (W (Proc.devRef .tc main_arg25)))
    (broadcastInDim S16384x256 ![0, 1] bcast_S1x256_S16384x256_0_1 (broadcastInDim S1x256 ![1] bcast_S256_S1x256_1 (W (Proc.devRef .tc main_arg26) : FVec Ideal S256 .f32))))
/-- The third hidden layer. -/
def h3A (q : FVec Ideal S16384x512 .f32) : FVec Ideal S16384x128 .f32 :=
  Host.tanh (addf (Host.dotGeneral (φ₁ := .f32) (φ₂ := .f32) dot_S16384x256_S256x128_S16384x128_1_0_0_1_n_n none (h2A W q) (W (Proc.devRef .tc main_arg27)))
    (broadcastInDim S16384x128 ![0, 1] bcast_S1x128_S16384x128_0_1 (broadcastInDim S1x128 ![1] bcast_S128_S1x128_1 (W (Proc.devRef .tc main_arg28) : FVec Ideal S128 .f32))))
/-- The third hidden layer times M4_w, plus M4_b. -/
def z4A (q : FVec Ideal S16384x512 .f32) : FVec Ideal S16384x1 .f32 :=
  addf (Host.dotGeneral (φ₁ := .f32) (φ₂ := .f32) dot_S16384x128_S128x1_S16384x1_1_0_0_1_n_n none (h3A W q) (W (Proc.devRef .tc main_arg29)))
    (broadcastInDim S16384x1 ![0, 1] bcast_S1x1_S16384x1_0_1 (broadcastInDim S1x1 ![1] bcast_S1_S1x1_1 (W (Proc.devRef .tc main_arg30) : FVec Ideal S1 .f32)))
/-- The predicted probabilities, as one column. -/
def oA (q : FVec Ideal S16384x512 .f32) : FVec Ideal S16384x1 .f32 :=
  Host.divf (broadcastInDim S16384x1 ![] bcast_S_S16384x1 (constant S_ .f32 0x3F800000#32))
    (addf (broadcastInDim S16384x1 ![] bcast_S_S16384x1 (constant S_ .f32 0x3F800000#32)) (Host.exp (Host.negf (z4A W q))))
/-- The predicted probabilities, flattened. -/
def outA (q : FVec Ideal S16384x512 .f32) : FVec Ideal S16384 .f32 :=
  shapeCast S16384 (oA W q) shapeCasts_S16384x1_S16384

/-! ## The head's result buffer holds the named array -/

set_option maxRecDepth 16384 in
set_option maxHeartbeats 4000000 in
/-- After the head's operations the result buffer holds the flattened predictions, over the indicators the head
    itself gathers. -/
theorem v236_eq : after (opsMlp (F := Ideal)) W (Proc.devRef .tc main_v236)
    = outA W (after (opsMlp (F := Ideal)) W (Proc.devRef .tc main_v209)) := by
  simp only [opsMlp, ops3b, ops4, List.cons_append, List.nil_append]
  after_results_simp
  rfl

/-! ## The arrays read at an index -/

/-- Row r of the gathered student features. -/
abbrev xr (r : Fin 16384) : Fin 64 → EReal := fun k => W (Proc.devRef .tc main_v165) (ix2 r k)
/-- Row r of the gathered exercise features. -/
abbrev yr (r : Fin 16384) : Fin 64 → EReal := fun k => W (Proc.devRef .tc main_v172) (ix2 r k)
/-- The knowledge features. -/
abbrev ckf : Fin 512 → Fin 64 → EReal := fun n k => W (Proc.devRef .tc main_v158) (ix2 n k)

theorem sfA_apply (p : Fin 16384) (j : Fin 128) : sfA W (ix2 p j) = Cert.Hyper.sf (paramsOf W) (xr W p) j :=
  (lrelu_apply _ _ _).trans (congrArg Cert.Hyper.lrelu
    (aff_apply _ (Idealize.PlainDot.eq_plain _ rfl rfl rfl rfl rfl rfl) _ _ _ _ _ p j))

theorem efA_apply (p : Fin 16384) (j : Fin 128) : efA W (ix2 p j) = Cert.Hyper.ef (paramsOf W) (yr W p) j :=
  (lrelu_apply _ _ _).trans (congrArg Cert.Hyper.lrelu
    (aff_apply _ (Idealize.PlainDot.eq_plain _ rfl rfl rfl rfl rfl rfl) _ _ _ _ _ p j))

theorem kfA_apply (n : Fin 512) (j : Fin 128) : kfA W (ix2 n j) = Cert.Hyper.kf (paramsOf W) (ckf W) n j :=
  (lrelu_apply _ _ _).trans (congrArg Cert.Hyper.lrelu
    (aff_apply _ (Idealize.PlainDot.eq_plain _ rfl rfl rfl rfl rfl rfl) _ _ _ _ _ n j))

theorem discA_apply (p : Fin 16384) : discA W (ix2 p (0 : Fin 1)) = Cert.Hyper.disc (paramsOf W) (yr W p) :=
  (sig_apply _ _ _).trans (congrArg Ideal.logistic
    (aff_apply _ (Idealize.PlainDot.eq_plain _ rfl rfl rfl rfl rfl rfl) _ _ _ _ _ p (0 : Fin 1)))

variable (q : FVec Ideal S16384x512 .f32)

theorem stateA_apply (p : Fin 16384) (n : Fin 512) :
    stateA W q (ix2 p n)
      = Cert.Hyper.state (paramsOf W) (ckf W) (xr W p) (yr W p) (fun n => q (ix2 p n)) n := by
  refine (state_apply _ _ _ _ p n).trans ?_
  rw [discA_apply, prodT_apply _ (Idealize.PlainDot.eq_plain _ rfl rfl rfl rfl rfl rfl)]
  refine congrArg (fun t => (Cert.Hyper.disc (paramsOf W) (yr W p) * t) * q (ix2 p n)) (Finset.sum_congr rfl fun j _ => ?_)
  rw [sfA_apply, efA_apply, kfA_apply]

theorem h1A_apply (p : Fin 16384) (a : Fin 512) :
    h1A W q (ix2 p a) = Cert.Hyper.h1 (paramsOf W) (ckf W) (xr W p) (yr W p) (fun n => q (ix2 p n)) a :=
  (tanh_apply _ _).trans (congrArg Ideal.tanh
    ((aff_apply _ (Idealize.PlainDot.eq_plain _ rfl rfl rfl rfl rfl rfl) _ _ _ _ _ p a).trans
      (congrArg (fun v => Cert.Hyper.lin v (paramsOf W).M1w (paramsOf W).M1b a) (funext fun k => stateA_apply W q p k))))

theorem h2A_apply (p : Fin 16384) (b : Fin 256) :
    h2A W q (ix2 p b) = Cert.Hyper.h2 (paramsOf W) (ckf W) (xr W p) (yr W p) (fun n => q (ix2 p n)) b :=
  (tanh_apply _ _).trans (congrArg Ideal.tanh
    ((aff_apply _ (Idealize.PlainDot.eq_plain _ rfl rfl rfl rfl rfl rfl) _ _ _ _ _ p b).trans
      (congrArg (fun v => Cert.Hyper.lin v (paramsOf W).M2w (paramsOf W).M2b b) (funext fun k => h1A_apply W q p k))))

theorem h3A_apply (p : Fin 16384) (c : Fin 128) :
    h3A W q (ix2 p c) = Cert.Hyper.h3 (paramsOf W) (ckf W) (xr W p) (yr W p) (fun n => q (ix2 p n)) c :=
  (tanh_apply _ _).trans (congrArg Ideal.tanh
    ((aff_apply _ (Idealize.PlainDot.eq_plain _ rfl rfl rfl rfl rfl rfl) _ _ _ _ _ p c).trans
      (congrArg (fun v => Cert.Hyper.lin v (paramsOf W).M3w (paramsOf W).M3b c) (funext fun k => h2A_apply W q p k))))

theorem outA_apply (r : Fin 16384) :
    outA W q (ix1 r) = Cert.Hyper.out (paramsOf W) (ckf W) (xr W r) (yr W r) (fun n => q (ix2 r n)) :=
  (flat_apply _ _ r).trans ((sig_apply _ _ _).trans (congrArg Ideal.logistic
    ((aff_apply _ (Idealize.PlainDot.eq_plain _ rfl rfl rfl rfl rfl rfl) _ _ _ _ _ r (0 : Fin 1)).trans
      (congrArg (fun v => Cert.Hyper.lin v (paramsOf W).M4w (paramsOf W).M4b (0 : Fin 1)) (funext fun k => h3A_apply W q r k)))))

/-! ## The statement -/

/-- From ANY buffer contents W (in the use: the contents after opsPre), the head's result buffer read at row r is the row
    function of the weights, the knowledge features main_v158, row r of the gathered student and exercise features
    main_v165 / main_v172, and row r of the gathered knowledge indicators main_v209 (which the head itself computes). -/
theorem mlp_apply (W : Valuation τ sig (Elt Ideal)) (r : Fin 16384) :
    after (opsMlp (F := Ideal)) W (Proc.devRef .tc main_v236) (ix1 r)
      = Cert.Hyper.out (paramsOf W)
          (fun n k => W (Proc.devRef .tc main_v158) (ix2 n k))
          (fun k => W (Proc.devRef .tc main_v165) (ix2 r k))
          (fun k => W (Proc.devRef .tc main_v172) (ix2 r k))
          (fun n => after (opsMlp (F := Ideal)) W (Proc.devRef .tc main_v209) (ix2 r n)) := by
  rw [v236_eq]
  exact outA_apply W _ r

end Cert.ReferenceIdeal.Mlp

end
-- ==== Proof.CrossBs.lean ====
/- The gathered student rows cs[user_id] are one function of the arguments in both programs: the kernel's host
   operations before its region and the reference's first operations are the same graph convolution of student_emb
   over (u_row, u_col, u_val) followed by the same row gather at user_id; each side is unfolded to that composed
   term of its own argument buffers, and the arguments agree. -/
import proofs.«163362_j21320217657961_1_alg».proof.Proof.Gen.KernelIdeal.Launch
import proofs.«163362_j21320217657961_1_alg».proof.Proof.RefRun
import Idealize.ShloMosaic.PureOps.Ideal.Laws

noncomputable section

namespace Cert.Bridge

open Idealize.ShloMosaic Idealize.ShloMosaic.TcCoe Idealize.SL.Sem Idealize.ShloMosaic.StableHlo

set_option maxRecDepth 16384 in
set_option maxHeartbeats 8000000 in
theorem bs_eq (VK : Valuation Cert.KernelIdeal.τ Cert.KernelIdeal.sig (Elt Ideal))
    (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h3 : VR (Proc.devRef .tc Cert.ReferenceIdeal.main_arg3) = VK (Proc.devRef .tc Cert.KernelIdeal.main_arg3))
    (h4 : VR (Proc.devRef .tc Cert.ReferenceIdeal.main_arg4) = VK (Proc.devRef .tc Cert.KernelIdeal.main_arg4))
    (h5 : VR (Proc.devRef .tc Cert.ReferenceIdeal.main_arg5) = VK (Proc.devRef .tc Cert.KernelIdeal.main_arg5))
    (h12 : VR (Proc.devRef .tc Cert.ReferenceIdeal.main_arg12) = VK (Proc.devRef .tc Cert.KernelIdeal.main_arg12)) :
    after (Cert.KernelIdeal.Gen.hostOps0 (F := Ideal)) VK (Proc.devRef .tc Cert.KernelIdeal.main_v165)
      = after (Cert.ReferenceIdeal.Run.opsPre (F := Ideal)) VR (Proc.devRef .tc Cert.ReferenceIdeal.main_v165) := by
  simp only [Cert.KernelIdeal.Gen.hostOps0, Cert.ReferenceIdeal.Run.opsPre, Cert.ReferenceIdeal.Run.ops0, Cert.ReferenceIdeal.Run.ops1, Cert.ReferenceIdeal.Run.ops2, Cert.ReferenceIdeal.Run.ops3a, List.cons_append, List.nil_append]
  after_results_simp
  simp only [h0, h3, h4, h5, h12]
  rfl

end Cert.Bridge

end
-- ==== Proof.CrossBe.lean ====
/- The gathered exercise rows ce[question_id] are one function of the arguments in both programs (the graph
   convolution of exercise_emb over (e_row, e_col, e_val), then the row gather at question_id). -/
import proofs.«163362_j21320217657961_1_alg».proof.Proof.Gen.KernelIdeal.Launch
import proofs.«163362_j21320217657961_1_alg».proof.Proof.RefRun
import Idealize.ShloMosaic.PureOps.Ideal.Laws

noncomputable section

namespace Cert.Bridge

open Idealize.ShloMosaic Idealize.ShloMosaic.TcCoe Idealize.SL.Sem Idealize.ShloMosaic.StableHlo

set_option maxRecDepth 16384 in
set_option maxHeartbeats 8000000 in
theorem be_eq (VK : Valuation Cert.KernelIdeal.τ Cert.KernelIdeal.sig (Elt Ideal))
    (VR : Valuation Cert.ReferenceIdeal.τ Cert.ReferenceIdeal.sig (Elt Ideal))
    (h1 : VR (Proc.devRef .tc Cert.ReferenceIdeal.main_arg1) = VK (Proc.devRef .tc Cert.KernelIdeal.main_arg1))
    (h6 : VR (Proc.devRef .tc Cert.ReferenceIdeal.main_arg6) = VK (Proc.devRef .tc Cert.KernelIdeal.main_arg6))
    (h7 : VR (Proc.devRef .tc Cert.ReferenceIdeal.main_arg7) = VK (Proc.devRef .tc Cert.KernelIdeal.main_arg7))
    (h8 : VR (Proc.devRef .tc Cert.ReferenceIdeal.main_arg8) = VK (Proc.devRef .tc Cert.KernelIdeal.main_arg8))
    (h13 : VR (Proc.devRef .tc Cert.ReferenceIdeal.main_arg13) = VK (Proc.devRef .tc Cert.KernelIdeal.main_arg13)) :
    after (Cert.KernelIdeal.Gen.hostOps0 (F := Ideal)) VK (Proc.devRef .tc Cert.KernelIdeal.main_v172)
      = after (Cert.ReferenceIdeal.Run.opsPre (F := Ideal)) VR (Proc.devRef .tc Cert.ReferenceIdeal.main_v172) := by
  simp only [Cert.KernelIdeal.Gen.hostOps0, Cert.ReferenceIdeal.Run.opsPre, Cert.ReferenceIdeal.Run.ops0, Cert.ReferenceIdeal.Run.ops1, Cert.ReferenceIdeal.Run.ops2, Cert.ReferenceIdeal.Run.ops3a, List.cons_append, List.nil_append]
  after_results_simp
  simp only [h1, h6, h7, h8, h13]
  rfl

end Cert.Bridge

end
-- ==== Proof.CrossCk.lean ====
/- The propagated knowledge features ck are one function of the arguments in both programs (the graph convolution
   of knowledge_emb over (k_row, k_col, k_val)). -/
import proofs.«163362_j21320217657961_1_alg».proof.Proof.Gen.KernelIdeal.Launch
import proofs.«163362_j21320217657961_1_alg».proof.Proof.RefRun
import Idealize.ShloMosaic.PureOps.Ideal.Laws

noncomputable section

namespace Cert.Bridge

open Idealize.ShloMosaic Idealize.ShloMosaic.TcCoe Idealize.SL.Sem Idealize.ShloMosaic.StableHlo

set_option maxRecDepth 16384 in
set_option maxHeartbeats 8000000 in
theorem ck_eq (VK : Valuation Cert.KernelIdeal.τ Cert.KernelIdeal.sig (Elt Ideal))
    (VR : Valuation Cert.ReferenceIdeal.τ Cert.ReferenceIdeal.sig (Elt Ideal))
    (h9 : VR (Proc.devRef .tc Cert.ReferenceIdeal.main_arg9) = VK (Proc.devRef .tc Cert.KernelIdeal.main_arg9))
    (h10 : VR (Proc.devRef .tc Cert.ReferenceIdeal.main_arg10) = VK (Proc.devRef .tc Cert.KernelIdeal.main_arg10))
    (h11 : VR (Proc.devRef .tc Cert.ReferenceIdeal.main_arg11) = VK (Proc.devRef .tc Cert.KernelIdeal.main_arg11))
    (h14 : VR (Proc.devRef .tc Cert.ReferenceIdeal.main_arg14) = VK (Proc.devRef .tc Cert.KernelIdeal.main_arg14)) :
    after (Cert.KernelIdeal.Gen.hostOps0 (F := Ideal)) VK (Proc.devRef .tc Cert.KernelIdeal.main_v158)
      = after (Cert.ReferenceIdeal.Run.opsPre (F := Ideal)) VR (Proc.devRef .tc Cert.ReferenceIdeal.main_v158) := by
  simp only [Cert.KernelIdeal.Gen.hostOps0, Cert.ReferenceIdeal.Run.opsPre, Cert.ReferenceIdeal.Run.ops0, Cert.ReferenceIdeal.Run.ops1, Cert.ReferenceIdeal.Run.ops2, Cert.ReferenceIdeal.Run.ops3a, List.cons_append, List.nil_append]
  after_results_simp
  simp only [h9, h10, h11, h14]
  rfl

end Cert.Bridge

end
-- ==== Proof.CrossQt.lean ====
/- The gathered knowledge indicators q_table[question_id]: the kernel's program gathers them before its region, the
   reference inside its head; from any contents that agree on question_id and q_table the two gathers agree. -/
import proofs.«163362_j21320217657961_1_alg».proof.Proof.Gen.KernelIdeal.Launch
import proofs.«163362_j21320217657961_1_alg».proof.Proof.RefRun
import Idealize.ShloMosaic.PureOps.Ideal.Laws

noncomputable section

namespace Cert.Bridge

open Idealize.ShloMosaic Idealize.ShloMosaic.TcCoe Idealize.SL.Sem Idealize.ShloMosaic.StableHlo

set_option maxRecDepth 16384 in
set_option maxHeartbeats 8000000 in
theorem qt_eq (VK : Valuation Cert.KernelIdeal.τ Cert.KernelIdeal.sig (Elt Ideal))
    (VR : Valuation Cert.ReferenceIdeal.τ Cert.ReferenceIdeal.sig (Elt Ideal))
    (h1 : VR (Proc.devRef .tc Cert.ReferenceIdeal.main_arg1) = VK (Proc.devRef .tc Cert.KernelIdeal.main_arg1))
    (h2 : VR (Proc.devRef .tc Cert.ReferenceIdeal.main_arg2) = VK (Proc.devRef .tc Cert.KernelIdeal.main_arg2)) :
    after (Cert.KernelIdeal.Gen.hostOps0 (F := Ideal)) VK (Proc.devRef .tc Cert.KernelIdeal.main_v179)
      = after (Cert.ReferenceIdeal.Run.opsMlp (F := Ideal)) VR (Proc.devRef .tc Cert.ReferenceIdeal.main_v209) := by
  simp only [Cert.KernelIdeal.Gen.hostOps0, Cert.ReferenceIdeal.Run.opsMlp, Cert.ReferenceIdeal.Run.ops3b, Cert.ReferenceIdeal.Run.ops4, List.cons_append, List.nil_append]
  after_results_simp
  simp only [h1, h2]
  rfl

end Cert.Bridge

end
-- ==== Proof.Bridge.lean ====
/- The two programs' results agree.

   From launch memories that agree on the 31 arguments: the reference's result buffer is the head (Spec.lean) applied
   row by row to its own weights, propagated knowledge features, gathered student and exercise rows and gathered
   knowledge indicators; the kernel program's result is the same head applied to what its region finds.  The weights
   are the arguments themselves on both sides (a bias is read through its 1 x N reshape on the kernel's side), and the
   four computed arrays are the same functions of the arguments in both programs. -/
import proofs.«163362_j21320217657961_1_alg».proof.Proof.KernelBlocks
import proofs.«163362_j21320217657961_1_alg».proof.Proof.KernelHost
import proofs.«163362_j21320217657961_1_alg».proof.Proof.RefKeep
import proofs.«163362_j21320217657961_1_alg».proof.Proof.RefMlp
import proofs.«163362_j21320217657961_1_alg».proof.Proof.CrossBs
import proofs.«163362_j21320217657961_1_alg».proof.Proof.CrossBe
import proofs.«163362_j21320217657961_1_alg».proof.Proof.CrossCk
import proofs.«163362_j21320217657961_1_alg».proof.Proof.CrossQt

set_option maxRecDepth 16384

noncomputable section

namespace Cert.Bridge

open Idealize.ShloMosaic Idealize.ShloMosaic.TcCoe Idealize.SL.Sem Idealize.ShloMosaic.StableHlo Idealize.ShloMosaic.ValueIdx Cert.Hyper

/-- The head is a function of its five arguments. -/
theorem out_congr (P : Params) {ck ck' : Fin 512 → Fin 64 → EReal} {x x' y y' : Fin 64 → EReal} {q q' : Fin 512 → EReal}
    (h1 : ck = ck') (h2 : x = x') (h3 : y = y') (h4 : q = q') : out P ck x y q = out P ck' x' y' q' := by
  subst h1 h2 h3 h4; rfl

set_option maxHeartbeats 4000000 in
/-- THE RESULTS AGREE: the reference's result buffer, from a launch memory agreeing with the kernel program's on the
    arguments, is the kernel program's result vector. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    after (Cert.ReferenceIdeal.Run.ops (F := Ideal)) (launchContents m' c) (Proc.devRef .tc Cert.ReferenceIdeal.main_v236) = Cert.KernelIdeal.Val.Res m c := by
  obtain ⟨a0, a1, a2, a3, a4, a5, a6, a7, a8, a9, a10, a11, a12, a13, a14, a15, a16, a17, a18, a19, a20, a21, a22, a23, a24, a25, a26, a27, a28, a29, a30⟩ := h
  rw [Cert.ReferenceIdeal.Run.after_ops]
  -- the arguments the head reads are as launched after the convolutions
  have kw1 : after (Cert.ReferenceIdeal.Run.opsPre (F := Ideal)) (launchContents m' c) (Proc.devRef .tc Cert.ReferenceIdeal.main_arg1) = m ((c.tc : Thread Cert.KernelIdeal.nD Cert.KernelIdeal.τ).loc Cert.KernelIdeal.main_arg1) :=
    (Cert.ReferenceIdeal.Run.keep_pre _ Cert.ReferenceIdeal.main_arg1 (by decide) (by decide) (by decide) (by decide)).trans a1
  have kw2 : after (Cert.ReferenceIdeal.Run.opsPre (F := Ideal)) (launchContents m' c) (Proc.devRef .tc Cert.ReferenceIdeal.main_arg2) = m ((c.tc : Thread Cert.KernelIdeal.nD Cert.KernelIdeal.τ).loc Cert.KernelIdeal.main_arg2) :=
    (Cert.ReferenceIdeal.Run.keep_pre _ Cert.ReferenceIdeal.main_arg2 (by decide) (by decide) (by decide) (by decide)).trans a2
  have kw15 : after (Cert.ReferenceIdeal.Run.opsPre (F := Ideal)) (launchContents m' c) (Proc.devRef .tc Cert.ReferenceIdeal.main_arg15) = m ((c.tc : Thread Cert.KernelIdeal.nD Cert.KernelIdeal.τ).loc Cert.KernelIdeal.main_arg15) :=
    (Cert.ReferenceIdeal.Run.keep_pre _ Cert.ReferenceIdeal.main_arg15 (by decide) (by decide) (by decide) (by decide)).trans a15
  have kw16 : after (Cert.ReferenceIdeal.Run.opsPre (F := Ideal)) (launchContents m' c) (Proc.devRef .tc Cert.ReferenceIdeal.main_arg16) = m ((c.tc : Thread Cert.KernelIdeal.nD Cert.KernelIdeal.τ).loc Cert.KernelIdeal.main_arg16) :=
    (Cert.ReferenceIdeal.Run.keep_pre _ Cert.ReferenceIdeal.main_arg16 (by decide) (by decide) (by decide) (by decide)).trans a16
  have kw17 : after (Cert.ReferenceIdeal.Run.opsPre (F := Ideal)) (launchContents m' c) (Proc.devRef .tc Cert.ReferenceIdeal.main_arg17) = m ((c.tc : Thread Cert.KernelIdeal.nD Cert.KernelIdeal.τ).loc Cert.KernelIdeal.main_arg17) :=
    (Cert.ReferenceIdeal.Run.keep_pre _ Cert.ReferenceIdeal.main_arg17 (by decide) (by decide) (by decide) (by decide)).trans a17
  have kw18 : after (Cert.ReferenceIdeal.Run.opsPre (F := Ideal)) (launchContents m' c) (Proc.devRef .tc Cert.ReferenceIdeal.main_arg18) = m ((c.tc : Thread Cert.KernelIdeal.nD Cert.KernelIdeal.τ).loc Cert.KernelIdeal.main_arg18) :=
    (Cert.ReferenceIdeal.Run.keep_pre _ Cert.ReferenceIdeal.main_arg18 (by decide) (by decide) (by decide) (by decide)).trans a18
  have kw19 : after (Cert.ReferenceIdeal.Run.opsPre (F := Ideal)) (launchContents m' c) (Proc.devRef .tc Cert.ReferenceIdeal.main_arg19) = m ((c.tc : Thread Cert.KernelIdeal.nD Cert.KernelIdeal.τ).loc Cert.KernelIdeal.main_arg19) :=
    (Cert.ReferenceIdeal.Run.keep_pre _ Cert.ReferenceIdeal.main_arg19 (by decide) (by decide) (by decide) (by decide)).trans a19
  have kw20 : after (Cert.ReferenceIdeal.Run.opsPre (F := Ideal)) (launchContents m' c) (Proc.devRef .tc Cert.ReferenceIdeal.main_arg20) = m ((c.tc : Thread Cert.KernelIdeal.nD Cert.KernelIdeal.τ).loc Cert.KernelIdeal.main_arg20) :=
    (Cert.ReferenceIdeal.Run.keep_pre _ Cert.ReferenceIdeal.main_arg20 (by decide) (by decide) (by decide) (by decide)).trans a20
  have kw21 : after (Cert.ReferenceIdeal.Run.opsPre (F := Ideal)) (launchContents m' c) (Proc.devRef .tc Cert.ReferenceIdeal.main_arg21) = m ((c.tc : Thread Cert.KernelIdeal.nD Cert.KernelIdeal.τ).loc Cert.KernelIdeal.main_arg21) :=
    (Cert.ReferenceIdeal.Run.keep_pre _ Cert.ReferenceIdeal.main_arg21 (by decide) (by decide) (by decide) (by decide)).trans a21
  have kw22 : after (Cert.ReferenceIdeal.Run.opsPre (F := Ideal)) (launchContents m' c) (Proc.devRef .tc Cert.ReferenceIdeal.main_arg22) = m ((c.tc : Thread Cert.KernelIdeal.nD Cert.KernelIdeal.τ).loc Cert.KernelIdeal.main_arg22) :=
    (Cert.ReferenceIdeal.Run.keep_pre _ Cert.ReferenceIdeal.main_arg22 (by decide) (by decide) (by decide) (by decide)).trans a22
  have kw23 : after (Cert.ReferenceIdeal.Run.opsPre (F := Ideal)) (launchContents m' c) (Proc.devRef .tc Cert.ReferenceIdeal.main_arg23) = m ((c.tc : Thread Cert.KernelIdeal.nD Cert.KernelIdeal.τ).loc Cert.KernelIdeal.main_arg23) :=
    (Cert.ReferenceIdeal.Run.keep_pre _ Cert.ReferenceIdeal.main_arg23 (by decide) (by decide) (by decide) (by decide)).trans a23
  have kw24 : after (Cert.ReferenceIdeal.Run.opsPre (F := Ideal)) (launchContents m' c) (Proc.devRef .tc Cert.ReferenceIdeal.main_arg24) = m ((c.tc : Thread Cert.KernelIdeal.nD Cert.KernelIdeal.τ).loc Cert.KernelIdeal.main_arg24) :=
    (Cert.ReferenceIdeal.Run.keep_pre _ Cert.ReferenceIdeal.main_arg24 (by decide) (by decide) (by decide) (by decide)).trans a24
  have kw25 : after (Cert.ReferenceIdeal.Run.opsPre (F := Ideal)) (launchContents m' c) (Proc.devRef .tc Cert.ReferenceIdeal.main_arg25) = m ((c.tc : Thread Cert.KernelIdeal.nD Cert.KernelIdeal.τ).loc Cert.KernelIdeal.main_arg25) :=
    (Cert.ReferenceIdeal.Run.keep_pre _ Cert.ReferenceIdeal.main_arg25 (by decide) (by decide) (by decide) (by decide)).trans a25
  have kw26 : after (Cert.ReferenceIdeal.Run.opsPre (F := Ideal)) (launchContents m' c) (Proc.devRef .tc Cert.ReferenceIdeal.main_arg26) = m ((c.tc : Thread Cert.KernelIdeal.nD Cert.KernelIdeal.τ).loc Cert.KernelIdeal.main_arg26) :=
    (Cert.ReferenceIdeal.Run.keep_pre _ Cert.ReferenceIdeal.main_arg26 (by decide) (by decide) (by decide) (by decide)).trans a26
  have kw27 : after (Cert.ReferenceIdeal.Run.opsPre (F := Ideal)) (launchContents m' c) (Proc.devRef .tc Cert.ReferenceIdeal.main_arg27) = m ((c.tc : Thread Cert.KernelIdeal.nD Cert.KernelIdeal.τ).loc Cert.KernelIdeal.main_arg27) :=
    (Cert.ReferenceIdeal.Run.keep_pre _ Cert.ReferenceIdeal.main_arg27 (by decide) (by decide) (by decide) (by decide)).trans a27
  have kw28 : after (Cert.ReferenceIdeal.Run.opsPre (F := Ideal)) (launchContents m' c) (Proc.devRef .tc Cert.ReferenceIdeal.main_arg28) = m ((c.tc : Thread Cert.KernelIdeal.nD Cert.KernelIdeal.τ).loc Cert.KernelIdeal.main_arg28) :=
    (Cert.ReferenceIdeal.Run.keep_pre _ Cert.ReferenceIdeal.main_arg28 (by decide) (by decide) (by decide) (by decide)).trans a28
  have kw29 : after (Cert.ReferenceIdeal.Run.opsPre (F := Ideal)) (launchContents m' c) (Proc.devRef .tc Cert.ReferenceIdeal.main_arg29) = m ((c.tc : Thread Cert.KernelIdeal.nD Cert.KernelIdeal.τ).loc Cert.KernelIdeal.main_arg29) :=
    (Cert.ReferenceIdeal.Run.keep_pre _ Cert.ReferenceIdeal.main_arg29 (by decide) (by decide) (by decide) (by decide)).trans a29
  have kw30 : after (Cert.ReferenceIdeal.Run.opsPre (F := Ideal)) (launchContents m' c) (Proc.devRef .tc Cert.ReferenceIdeal.main_arg30) = m ((c.tc : Thread Cert.KernelIdeal.nD Cert.KernelIdeal.τ).loc Cert.KernelIdeal.main_arg30) :=
    (Cert.ReferenceIdeal.Run.keep_pre _ Cert.ReferenceIdeal.main_arg30 (by decide) (by decide) (by decide) (by decide)).trans a30
  -- the computed arrays are the same functions of the arguments
  have hx : after (Cert.ReferenceIdeal.Run.opsPre (F := Ideal)) (launchContents m' c) (Proc.devRef .tc Cert.ReferenceIdeal.main_v165) = Cert.KernelIdeal.Gen.V m c Cert.KernelIdeal.main_v165 :=
    (bs_eq (launchContents m c) (launchContents m' c) a0 a3 a4 a5 a12).symm
  have hy : after (Cert.ReferenceIdeal.Run.opsPre (F := Ideal)) (launchContents m' c) (Proc.devRef .tc Cert.ReferenceIdeal.main_v172) = Cert.KernelIdeal.Gen.V m c Cert.KernelIdeal.main_v172 :=
    (be_eq (launchContents m c) (launchContents m' c) a1 a6 a7 a8 a13).symm
  have hck : after (Cert.ReferenceIdeal.Run.opsPre (F := Ideal)) (launchContents m' c) (Proc.devRef .tc Cert.ReferenceIdeal.main_v158) = Cert.KernelIdeal.Gen.V m c Cert.KernelIdeal.main_v158 :=
    (ck_eq (launchContents m c) (launchContents m' c) a9 a10 a11 a14).symm
  have hq : after (Cert.ReferenceIdeal.Run.opsMlp (F := Ideal)) (after (Cert.ReferenceIdeal.Run.opsPre (F := Ideal)) (launchContents m' c)) (Proc.devRef .tc Cert.ReferenceIdeal.main_v209)
      = Cert.KernelIdeal.Gen.V m c Cert.KernelIdeal.main_v179 :=
    (qt_eq (launchContents m c) (after (Cert.ReferenceIdeal.Run.opsPre (F := Ideal)) (launchContents m' c)) kw1 kw2).symm
  -- the weights
  have hP : Cert.ReferenceIdeal.Mlp.paramsOf (after (Cert.ReferenceIdeal.Run.opsPre (F := Ideal)) (launchContents m' c)) = Cert.KernelIdeal.Val.paramsV m c := by
    unfold Cert.ReferenceIdeal.Mlp.paramsOf Cert.KernelIdeal.Val.paramsV Cert.KernelIdeal.Row.paramsK
    rw [Params.mk.injEq]
    exact ⟨funext fun k => funext fun j => congrFun (kw15.trans (Cert.KernelIdeal.Gen.V_main_arg15 m c).symm) (ix2 k j),
      funext fun j => (congrFun kw16 (ix1 j)).trans (Cert.KernelIdeal.Host.bias180 m c j).symm,
      funext fun k => funext fun j => congrFun (kw17.trans (Cert.KernelIdeal.Gen.V_main_arg17 m c).symm) (ix2 k j),
      funext fun j => (congrFun kw18 (ix1 j)).trans (Cert.KernelIdeal.Host.bias181 m c j).symm,
      funext fun k => funext fun j => congrFun (kw19.trans (Cert.KernelIdeal.Gen.V_main_arg19 m c).symm) (ix2 k j),
      funext fun j => (congrFun kw20 (ix1 j)).trans (Cert.KernelIdeal.Host.bias182 m c j).symm,
      funext fun k => funext fun j => congrFun (kw21.trans (Cert.KernelIdeal.Gen.V_main_arg21 m c).symm) (ix2 k j),
      funext fun j => (congrFun kw22 (ix1 j)).trans (Cert.KernelIdeal.Host.bias183 m c j).symm,
      funext fun k => funext fun j => congrFun (kw23.trans (Cert.KernelIdeal.Gen.V_main_arg23 m c).symm) (ix2 k j),
      funext fun j => (congrFun kw24 (ix1 j)).trans (Cert.KernelIdeal.Host.bias184 m c j).symm,
      funext fun k => funext fun j => congrFun (kw25.trans (Cert.KernelIdeal.Gen.V_main_arg25 m c).symm) (ix2 k j),
      funext fun j => (congrFun kw26 (ix1 j)).trans (Cert.KernelIdeal.Host.bias185 m c j).symm,
      funext fun k => funext fun j => congrFun (kw27.trans (Cert.KernelIdeal.Gen.V_main_arg27 m c).symm) (ix2 k j),
      funext fun j => (congrFun kw28 (ix1 j)).trans (Cert.KernelIdeal.Host.bias186 m c j).symm,
      funext fun k => funext fun j => congrFun (kw29.trans (Cert.KernelIdeal.Gen.V_main_arg29 m c).symm) (ix2 k j),
      funext fun j => (congrFun kw30 (ix1 j)).trans (Cert.KernelIdeal.Host.bias187 m c j).symm⟩
  funext i
  obtain ⟨r, rfl⟩ : ∃ r : Fin 16384, i = ix1 r := ⟨i 0, eq_ix1 i⟩
  rw [Cert.ReferenceIdeal.Mlp.mlp_apply, hP]
  exact out_congr _ (funext fun n => funext fun k => congrFun hck (ix2 n k)) (funext fun k => congrFun hx (ix2 r k))
    (funext fun k => congrFun hy (ix2 r k)) (funext fun n => congrFun hq (ix2 r n))

end Cert.Bridge

end
-- ==== Proof.KernelValue.lean ====
/- The kernel's result array, row by row.

   The pallas_call runs on a grid of 16 points; point t stages rows 1024 t .. 1024 t + 1023 of the gathered student
   features, exercise features and knowledge indicators, and the whole of every other operand, and writes back rows
   1024 t .. 1024 t + 1023 of the 16384 x 1 result.  By the body's row lemma the written block is, row by row, the
   head of Spec.lean applied to the corresponding rows of the three batched arrays; the 16 blocks tile the result, so
   the result array after the region is that function of the arrays the region finds, and the reshape after the
   region reads it as a vector. -/
import proofs.«163362_j21320217657961_1_alg».proof.Proof.KernelBlocks

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Hyper
open Idealize.ShloMosaic.Pipeline (Dat)

variable (m : (ℓ : Loc nD τ sig) → Buf (Elt Ideal) ℓ) (ρ : Dev nD → PrngReg)

/-! ## What a point writes back -/

/-- The weights' blocks at a point are the weights the region finds. -/
theorem params_blk (c : Dev nD) (t : Fin cfg0.N) :
    Row.paramsK (iblk m c 4 t) (iblk m c 5 t) (iblk m c 6 t) (iblk m c 7 t) (iblk m c 8 t) (iblk m c 9 t) (iblk m c 10 t) (iblk m c 11 t)
        (iblk m c 12 t) (iblk m c 13 t) (iblk m c 14 t) (iblk m c 15 t) (iblk m c 16 t) (iblk m c 17 t) (iblk m c 18 t) (iblk m c 19 t)
      = paramsV m c := by
  rw [iblk4, iblk5, iblk6, iblk7, iblk8, iblk9, iblk10, iblk11, iblk12, iblk13, iblk14, iblk15, iblk16, iblk17, iblk18, iblk19]
  rfl

/-- The row of the result array that row p of point t's block is. -/
theorem out_row (t : Fin cfg0.N) (p : Fin 1024) :
    ((((cfg0.win 20).blk t).view.emb (ix2 p (0 : Fin 1))) 0).val = t.val * 1024 + p.val := by
  obtain ⟨-, -, -, -, -, -, e6, -⟩ := idx_facts t
  show win0_20.index t (0 : Fin 2) * 1024 + 1 * p.val = _
  rw [e6]; omega

/-- Row p of a batched operand's block at point t is row 1024 t + p of its array. -/
theorem blk0_row (c : Dev nD) (t : Fin cfg0.N) (p : Fin 1024) (k : Fin 64) (r : Fin 16384) (hr : r.val = t.val * 1024 + p.val) :
    iblk m c 0 t (ix2 p k) = V m c main_v165 (ix2 r k) := by
  show V m c main_v165 (((cfg0.win 0).blk t).view.emb (ix2 p k)) = _
  refine congrArg (V m c main_v165) (funext fun a => Fin.ext ?_)
  obtain ⟨e0, e1, -, -, -, -, e6, -⟩ := idx_facts t
  match a with
  | ⟨0, _⟩ => show win0_0.index t (0 : Fin 2) * 1024 + 1 * p.val = r.val; rw [e0, e6, hr]; omega
  | ⟨1, _⟩ => show win0_0.index t (1 : Fin 2) * 64 + 1 * k.val = k.val; rw [e1]; omega
theorem blk1_row (c : Dev nD) (t : Fin cfg0.N) (p : Fin 1024) (k : Fin 64) (r : Fin 16384) (hr : r.val = t.val * 1024 + p.val) :
    iblk m c 1 t (ix2 p k) = V m c main_v172 (ix2 r k) := by
  show V m c main_v172 (((cfg0.win 1).blk t).view.emb (ix2 p k)) = _
  refine congrArg (V m c main_v172) (funext fun a => Fin.ext ?_)
  obtain ⟨-, -, e2, e3, -, -, e6, -⟩ := idx_facts t
  match a with
  | ⟨0, _⟩ => show win0_1.index t (0 : Fin 2) * 1024 + 1 * p.val = r.val; rw [e2, e6, hr]; omega
  | ⟨1, _⟩ => show win0_1.index t (1 : Fin 2) * 64 + 1 * k.val = k.val; rw [e3]; omega
theorem blk2_row (c : Dev nD) (t : Fin cfg0.N) (p : Fin 1024) (n : Fin 512) (r : Fin 16384) (hr : r.val = t.val * 1024 + p.val) :
    iblk m c 2 t (ix2 p n) = V m c main_v179 (ix2 r n) := by
  show V m c main_v179 (((cfg0.win 2).blk t).view.emb (ix2 p n)) = _
  refine congrArg (V m c main_v179) (funext fun a => Fin.ext ?_)
  obtain ⟨-, -, -, -, e4, e5, e6, -⟩ := idx_facts t
  match a with
  | ⟨0, _⟩ => show win0_2.index t (0 : Fin 2) * 1024 + 1 * p.val = r.val; rw [e4, e6, hr]; omega
  | ⟨1, _⟩ => show win0_2.index t (1 : Fin 2) * 512 + 1 * n.val = n.val; rw [e5]; omega

/-- The head is a function of its five arguments. -/
theorem out_congr (P : Params) {ck ck' : Fin 512 → Fin 64 → EReal} {x x' y y' : Fin 64 → EReal} {q q' : Fin 512 → EReal}
    (h1 : ck = ck') (h2 : x = x') (h3 : y = y') (h4 : q = q') : out P ck x y q = out P ck' x' y' q' := by
  subst h1 h2 h3 h4; rfl

/-- The result array at an index. -/
theorem Gk_apply (c : Dev nD) (i : S16384x1.Idx) : Gk m c i = rowOut m c ⟨(i 0).val, (i 0).isLt⟩ := rfl

attribute [local irreducible] rowOut Gk in
/-- The result array read through point t's block at row p: the head of batch row 1024 t + p. -/
theorem Gk_read (c : Dev nD) (t : Fin cfg0.N) (p : Fin 1024) (hlt : t.val * 1024 + p.val < 16384) :
    ((cfg0.win 20).blk t).view.read (Elt Ideal) (Gk m c) (ix2 p (0 : Fin 1)) = rowOut m c ⟨t.val * 1024 + p.val, hlt⟩ := by
  have h1 : ((cfg0.win 20).blk t).view.read (Elt Ideal) (Gk m c) (ix2 p (0 : Fin 1))
      = Gk m c (((cfg0.win 20).blk t).view.emb (ix2 p (0 : Fin 1))) := rfl
  rw [h1, Gk_apply]
  exact congrArg (rowOut m c) (Fin.ext (out_row t p))

/-- The body's row lemma at point t's blocks, the blocks read off the arrays. -/
theorem body_at (c : Dev nD) (t : Fin cfg0.N) (p : Fin 1024) (hlt : t.val * 1024 + p.val < 16384) :
    out (Row.paramsK (iblk m c 4 t) (iblk m c 5 t) (iblk m c 6 t) (iblk m c 7 t) (iblk m c 8 t) (iblk m c 9 t) (iblk m c 10 t) (iblk m c 11 t)
        (iblk m c 12 t) (iblk m c 13 t) (iblk m c 14 t) (iblk m c 15 t) (iblk m c 16 t) (iblk m c 17 t) (iblk m c 18 t) (iblk m c 19 t))
      (fun n k => iblk m c 3 t (ix2 n k)) (fun k => iblk m c 0 t (ix2 p k)) (fun k => iblk m c 1 t (ix2 p k)) (fun n => iblk m c 2 t (ix2 p n))
      = rowOut m c ⟨t.val * 1024 + p.val, hlt⟩ := by
  rw [params_blk]
  unfold rowOut
  exact out_congr (paramsV m c) (funext fun n => funext fun k => congrFun (iblk3 m c t) (ix2 n k))
    (funext fun k => blk0_row m c t p k ⟨_, hlt⟩ rfl) (funext fun k => blk1_row m c t p k ⟨_, hlt⟩ rfl)
    (funext fun n => blk2_row m c t p n ⟨_, hlt⟩ rfl)

attribute [local irreducible] rowOut Gk in
/-- WHAT POINT t WRITES BACK is block t of the result array Gk. -/
theorem flushed_eq (c : Dev nD) (t : Fin cfg0.N) :
    (dats m 0 c).flushed 20 t = ((cfg0.win 20).blk t).view.read (Elt Ideal) (Gk m c) := by
  show (cfg0.win 20).cut (grid0.coords t) ((dats m 0 c).after 20 t) = _
  rw [after0_20]
  unfold out0_20
  rw [View.canon_unit_zero hz2]
  simp only [View.ld_unit_zero (S := S1024x64) hz2, View.ld_unit_zero (S := S512x64) hz2, View.ld_unit_zero (S := S64x128) hz2, View.ld_unit_zero (S := S64x1) hz2, View.ld_unit_zero (S := S1x128) hz2, View.ld_unit_zero (S := S1x1) hz2, View.ld_unit_zero (S := S1024x512) hz2, View.ld_unit_zero (S := S512x512) hz2, View.ld_unit_zero (S := S512x256) hz2, View.ld_unit_zero (S := S256x128) hz2, View.ld_unit_zero (S := S128x1) hz2, View.ld_unit_zero (S := S1x512) hz2, View.ld_unit_zero (S := S1x256) hz2]
  funext y
  obtain ⟨p, q, rfl⟩ : ∃ (p : Fin 1024) (q : Fin 1), y = ix2 p q := ⟨y 0, y 1, eq_ix2 y⟩
  obtain rfl : q = 0 := Subsingleton.elim _ _
  have hlt : t.val * 1024 + p.val < 16384 := by have := t.isLt; have := p.isLt; have hN : cfg0.N = 16 := N_0; omega
  refine (Row.body_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p).trans ?_
  exact (body_at m c t p hlt).trans (Gk_read m c t p hlt).symm

/-- An index of the result array is in point t's block iff each coordinate is in the block's range on its axis. -/
theorem mem_blk (t : Fin cfg0.N) (i : S16384x1.Idx) :
    i ∈ ((cfg0.win 20).blk t).view.set ↔ ∀ a : Fin 2, win0_20.index t a * S1024x1.size a ≤ (i a).val ∧ (i a).val < win0_20.index t a * S1024x1.size a + S1024x1.size a := by
  show i ∈ ((View.whole main_v188).slice (win0_20.rect t)).set ↔ _
  rw [View.set_slice_whole, Rect.mem_set_unit]
  exact Iff.rfl

/-- The 16 blocks cover the result array: row r is in the block of point r / 1024. -/
theorem cover (i : S16384x1.Idx) : ∃ t : Fin cfg0.N, (cfg0.win 20).flush t = true ∧ i ∈ ((cfg0.win 20).blk t).view.set := by
  have hi0 : (i 0).val < 16384 := (i 0).isLt
  have hi1 : (i 1).val < 1 := (i 1).isLt
  have hN : cfg0.N = 16 := N_0
  refine ⟨⟨(i 0).val / 1024, by omega⟩, flush0_20 _, ?_⟩
  rw [mem_blk]
  obtain ⟨-, -, -, -, -, -, e6, e7⟩ := idx_facts ⟨(i 0).val / 1024, by omega⟩
  intro a
  match a with
  | ⟨0, _⟩ =>
    show win0_20.index _ (0 : Fin 2) * 1024 ≤ (i 0).val ∧ (i 0).val < win0_20.index _ (0 : Fin 2) * 1024 + 1024
    rw [e6]; show (i 0).val / 1024 * 1024 ≤ (i 0).val ∧ (i 0).val < (i 0).val / 1024 * 1024 + 1024; omega
  | ⟨1, _⟩ =>
    show win0_20.index _ (1 : Fin 2) * 1 ≤ (i 1).val ∧ (i 1).val < win0_20.index _ (1 : Fin 2) * 1 + 1
    rw [e7]; omega

/-- THE RESULT ARRAY after the region. -/
theorem final (c : Dev nD) : (dats m 0 c).arrAt 20 cfg0.N = Gk m c :=
  (dats m 0 c).arrAt_eq_of_cover 20 (Gk m c) (fun t _ => flushed_eq m c t) cover

end Cert.KernelIdeal.Val

end
-- ==== Proof.KernelTail.lean ====
/- The one host operation after the kernel's region reshapes the 16384 x 1 result array to the vector of 16384 results:
   entry r of the vector is the array's entry (r, 0). -/
import proofs.«163362_j21320217657961_1_alg».proof.Proof.KernelBlocks
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Hyper Idealize.ShloMosaic.StableHlo
open Idealize.ShloMosaic.Pipeline (Dat)

variable (m : (ℓ : Loc nD τ sig) → Buf (Elt Ideal) ℓ) (ρ : Dev nD → PrngReg)

/-- What the operation after the region leaves in the result buffer, given what the region leaves in its result array. -/
theorem tail_eq (c : Dev nD) (hfinal : (dats m 0 c).arrAt 20 cfg0.N = Gk m c) :
    Pipeline.afterTail₀ cfgs (dats m) 0 (V0 m) [hostOps1] c main_v189 = Res m c := by
  unfold Pipeline.afterTail₀
  show after hostOps1 _ (Proc.devRef .tc main_v189) = _
  after_results
  have hw := (Pipeline.withArrays_arr spec0 launch0.win.arr_inj c (V0 m c) (fun w => (dats m 0 c).arrAt w cfg0.N) 20).trans hfinal
  funext i
  obtain ⟨r, rfl⟩ : ∃ r : Fin 16384, i = ix1 r := ⟨i 0, eq_ix1 i⟩
  show shapeCast S16384 (Pipeline.withArrays spec0 c (V0 m c) (fun w => (dats m 0 c).arrAt w cfg0.N) (Proc.devRef .tc main_v188)) shapeCasts_S16384x1_S16384 (ix1 r) = _
  rw [hw]
  refine (shapeCast_apply (Gk m c) shapeCasts_S16384x1_S16384 (ix1 r) (ix2 r (0 : Fin 1)) ?_).trans rfl
  rw [Shape.rowMajor_val_two, Shape.rowMajor_val_one]
  show r.val * 1 + 0 = r.val
  omega

end Cert.KernelIdeal.Val

end
-- ==== Proof.KernelRun.lean ====
/- The kernel program's run: every weakly fair execution terminates with the result buffer holding, at entry r, the head
   of batch row r of what the region finds. -/
import proofs.«163362_j21320217657961_1_alg».proof.Proof.KernelValue
import proofs.«163362_j21320217657961_1_alg».proof.Proof.KernelTail

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem run_value : θ_run defs (onTc (τ := τ) (main (F := Ideal))) ⟨m, fun _ => 0, ρ⟩ fun r => ∀ c : Dev nD,
    r.2.mem ((c.tc : Thread nD τ).loc main_v189) = Res m c :=
  (θ_run defs _ _).mono (fun r h c =>
    ((h c).2 main_v189 (Pipeline.mem_restRefs_of main_v189 (by decide) (by decide))).trans (tail_eq m c (final m c))) (run_main m ρ)

end Cert.KernelIdeal.Val

end
-- ==== Proof.LibRunAnd.lean ====
/-
  TWO POSTCONDITIONS OF ONE RUN HOLD TOGETHER.

  "Every weakly fair execution terminates, faultless, in a final state satisfying Q" is, spelled out, three facts: every
  final state reached satisfies Q, no reached state is stuck, and no infinite execution is weakly fair.  Only the first
  mentions Q, so two such observations of the same program from the same start give the observation of the conjunction.
-/
import Idealize.ShloMosaic.Machine.Run

namespace Idealize.ShloMosaic

open Idealize.SL.Sem

/-- The observation of a conjunction from the two observations. -/
theorem MeshRun.and {nD : Nat} {τ : Topo} {sig : RefSig} {Val : EltTy → Type} {Λ : Labels} {defs : Defs nD τ sig Val Λ}
    {Q₁ Q₂ : MemSt nD τ sig Val → Prop} {s : RunSt nD τ sig Val Λ} (h₁ : MeshRun defs Q₁ s) (h₂ : MeshRun defs Q₂ s) :
    MeshRun defs (fun m => Q₁ m ∧ Q₂ m) s :=
  ⟨fun t ht hf => ⟨h₁.post t ht hf, h₂.post t ht hf⟩, h₁.progress, h₁.fair⟩

/-- The same for a program's run from an initial memory. -/
theorem θ_run_and {nD : Nat} {τ : Topo} {sig : RefSig} {Val : EltTy → Type} {Λ : Labels} (defs : Defs nD τ sig Val Λ)
    (p : (c : Thread nD τ) → Prog (TpuEff nD τ sig Val Λ c.2) PUnit) (s : MemSt nD τ sig Val)
    {Q₁ Q₂ : PUnit × MemSt nD τ sig Val → Prop} (h₁ : θ_run defs p s Q₁) (h₂ : θ_run defs p s Q₂) :
    θ_run defs p s (fun r => Q₁ r ∧ Q₂ r) :=
  MeshRun.and (Q₁ := fun m' => Q₁ (⟨⟩, m')) (Q₂ := fun m' => Q₂ (⟨⟩, m')) h₁ h₂

end Idealize.ShloMosaic
-- ==== Proof.lean ====
/- A knowledge-tracing model's forward pass: three graph convolutions (of the student, exercise and knowledge-concept
   embeddings over their sparse adjacencies), two row gathers by the batch's student and exercise ids, and a small
   head on each of the 16384 batch rows (Proof/Spec.lean).  The kernel's program runs the head in a pallas_call over 16
   row blocks of 1024, its matrix products on the matrix unit with operands passed through a 16-bit format; the
   reference runs it over all rows at once with host products.  On the extended reals the format changes are the
   identity and each product, read at an output index, is the plain sum over the contracted axis, so both programs
   compute, row by row, the same expression of the same arrays: no law of arithmetic is used and the precondition is
   never opened.

   The pieces: the kernel's body on one row of a block (Proof/KernelRow.lean), the blocks a grid point stages and the
   result array they tile (KernelBlocks*, KernelValue, KernelRun), the host operations before the region
   (KernelHost); the reference as a line of host operations and its run (RefOpsTable, RefRun, RefKeep), its head read
   row by row (RefMlp); the arrays the two programs compute before the head are the same functions of the arguments
   (CrossBs, CrossBe, CrossCk, CrossQt); the results agree (Bridge).  The three frames are the kernels' generated frame
   runs and the reference's run with its results dropped; the idealization rewrote nothing. -/
import proofs.«163362_j21320217657961_1_alg».proof.Defs
import proofs.«163362_j21320217657961_1_alg».proof.Proof.Gen.Kernel
import proofs.«163362_j21320217657961_1_alg».proof.Proof.Gen.Kernel.Skeleton
import proofs.«163362_j21320217657961_1_alg».proof.Proof.Gen.Kernel.Launch
import proofs.«163362_j21320217657961_1_alg».proof.Proof.Gen.Kernel.Points
import proofs.«163362_j21320217657961_1_alg».proof.Proof.Gen.Kernel.Frame
import proofs.«163362_j21320217657961_1_alg».proof.Proof.Gen.KernelIdeal
import proofs.«163362_j21320217657961_1_alg».proof.Proof.Gen.KernelIdeal.Skeleton
import proofs.«163362_j21320217657961_1_alg».proof.Proof.Gen.KernelIdeal.Launch
import proofs.«163362_j21320217657961_1_alg».proof.Proof.Gen.KernelIdeal.Points
import proofs.«163362_j21320217657961_1_alg».proof.Proof.Gen.KernelIdeal.Frame
import proofs.«163362_j21320217657961_1_alg».proof.Proof.Gen.ReferenceIdeal
import proofs.«163362_j21320217657961_1_alg».proof.Proof.Gen.Pre_finite_inputs
import proofs.«163362_j21320217657961_1_alg».proof.Proof.Bridge
import proofs.«163362_j21320217657961_1_alg».proof.Proof.KernelRun
import proofs.«163362_j21320217657961_1_alg».proof.Proof.LibRunAnd
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Run.frame (F := Ideal) m ρ

/-- The idealization pass rewrote no operation. -/
theorem preserves : Cert.preserves_Kernel_KernelIdeal := trivial

/-- From memories agreeing on the arguments both idealized programs terminate, the kernel's with its result vector at the
    head of each batch row of what its region finds, the reference's at the same vector (Bridge.result_eq), each with
    its arguments as launched. -/
theorem algebraic : Cert.algebraic_KernelIdeal_ReferenceIdeal := by
  intro m ρ m' ρ' _ hagree
  refine ⟨fun c => Cert.KernelIdeal.Val.Res m c, ?_, ?_⟩
  · exact (θ_run Cert.KernelIdeal.defs _ _).mono (fun _ h c => ⟨h.1 c, h.2 c⟩)
      (θ_run_and _ _ _ (Cert.KernelIdeal.Val.run_value m ρ) (Cert.KernelIdeal.Gen.frame (F := Ideal) m ρ))
  · exact (θ_run Cert.ReferenceIdeal.defs _ _).mono
      (fun _ h c => ⟨(h.1 c Cert.ReferenceIdeal.main_v236).trans (Cert.Bridge.result_eq m m' c (hagree c)), h.2 c⟩)
      (θ_run_and _ _ _ (Cert.ReferenceIdeal.Run.run_all (F := Ideal) m' ρ') (Cert.ReferenceIdeal.Run.frame (F := Ideal) m' ρ'))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
